-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v81)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v81) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S1600000 : Shape := ⟨1, ![1600000]⟩
abbrev S256x64 : Shape := ⟨2, ![256, 64]⟩
abbrev S64 : Shape := ⟨1, ![64]⟩
abbrev S64x64 : Shape := ⟨2, ![64, 64]⟩
abbrev S64x40 : Shape := ⟨2, ![64, 40]⟩
abbrev S40 : Shape := ⟨1, ![40]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x40 : S_.BroadcastsInDim S64x40 (![] : Fin 0 → Fin S64x40.rank)
  reducesTo_S64x40_S_d0_1 : S64x40.ReducesTo [0, 1] S_
  bcast_S_S40 : S_.BroadcastsInDim S40 (![] : Fin 0 → Fin S40.rank)
  reducesTo_S40_S_d0 : S40.ReducesTo [0] S_

variable [Facts]

def fn_part2 {F : FTy → Type} [FloatOps F] (main_arg8 : FVec F S40 .f32) (main_v33 : IVec S_ 1) : IVec S_ 1 :=
  let main_v34 : FVec F S40 .f32 := Host.absf main_arg8
  let main_cst_12 : FVec F S_ .f32 := constant S_ .f32 0x7F800000#32
  let main_v35 : FVec F S40 .f32 := broadcastInDim S40 ![] bcast_S_S40 main_cst_12
  let main_v36 : IVec S40 1 := cmpf .olt main_v34 main_v35
  let main_c_13 : IVec S_ 1 := constantI S_ 1 1#1
  let main_v37 : IVec S_ 1 := (fun x v => Host.reduce IntOp.andi x v reducesTo_S40_S_d0 h_S_) main_v36 main_c_13
  let main_v38 : IVec S_ 1 := andi main_v33 main_v37
  main_v38

def fn_part1 {F : FTy → Type} [FloatOps F] (main_arg5 : FVec F S64x64 .f32) (main_arg6 : FVec F S64 .f32) (main_arg7 : FVec F S64x40 .f32) (main_arg8 : FVec F S40 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x40 .f32 := Host.absf main_arg7
  let main_cst_10 : FVec F S_ .f32 := constant S_ .f32 0x7F800000#32
  let main_v30 : FVec F S64x40 .f32 := broadcastInDim S64x40 ![] bcast_S_S64x40 main_cst_10
  let main_v31 : IVec S64x40 1 := cmpf .olt main_v29 main_v30
  let main_c_11 : IVec S_ 1 := constantI S_ 1 1#1
  let main_v32 : IVec S_ 1 := (fun x v => Host.reduce IntOp.andi x v reducesTo_S64x40_S_d0_1 h_S_) main_v31 main_c_11
  let main_v33 : IVec S_ 1 := andi main_v28 main_v32
  fn_part2 (F := F) main_arg8 main_v33

def fn {F : FTy → Type} [FloatOps F] (main_arg0 : FVec F S100000x256 .f32) (main_arg1 : IVec S2x1600000 32) (main_arg2 : FVec F S1600000 .f32) (main_arg3 : FVec F S256x64 .f32) (main_arg4 : FVec F S64 .f32) (main_arg5 : FVec F S64x64 .f32) (main_arg6 : FVec F S64 .f32) (main_arg7 : FVec F S64x40 .f32) (main_arg8 : FVec F S40 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S256x64 .f32 := Host.absf main_arg3
  let main_cst_2 : FVec F S_ .f32 := constant S_ .f32 0x7F800000#32
  let main_v10 : FVec F S256x64 .f32 := broadcastInDim S256x64 ![] bcast_S_S256x64 main_cst_2
  let main_v11 : IVec S256x64 1 := cmpf .olt main_v9 main_v10
  let main_c_3 : IVec S_ 1 := constantI S_ 1 1#1
  let main_v12 : IVec S_ 1 := (fun x v => Host.reduce IntOp.andi x v reducesTo_S256x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_v13 main_v16
-- ==== Kernel.lean ====
abbrev S100000x256 : Shape := ⟨2, ![100000, 256]⟩
abbrev S2x1600000 : Shape := ⟨2, ![2, 1600000]⟩
abbrev S1600000 : Shape := ⟨1, ![1600000]⟩
abbrev S256x64 : Shape := ⟨2, ![256, 64]⟩
abbrev S64 : Shape := ⟨1, ![64]⟩
abbrev S64x64 : Shape := ⟨2, ![64, 64]⟩
abbrev S64x40 : Shape := ⟨2, ![64, 40]⟩
abbrev S40 : Shape := ⟨1, ![40]⟩
abbrev S1x1600000 : Shape := ⟨2, ![1, 1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S5000x256 : Shape := ⟨2, ![5000, 256]⟩
abbrev S5000x64 : Shape := ⟨2, ![5000, 64]⟩
abbrev S1700000x64 : Shape := ⟨2, ![1700000, 64]⟩
abbrev S1x64 : Shape := ⟨2, ![1, 64]⟩
abbrev S100000x40 : Shape := ⟨2, ![100000, 40]⟩
abbrev S5000x40 : Shape := ⟨2, ![5000, 40]⟩
abbrev S1700000x40 : Shape := ⟨2, ![1700000, 40]⟩
abbrev S1x40 : Shape := ⟨2, ![1, 40]⟩
abbrev S5000 : Shape := ⟨1, ![5000]⟩
abbrev S5000x1 : Shape := ⟨2, ![5000, 1]⟩

abbrev nBuf : Space → Nat
  | .hbm => 111
  | .vmem => 30
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S1600000, .f32⟩
  | .hbm, ⟨3, _⟩ => ⟨S256x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x40, .f32⟩
  | .hbm, ⟨8, _⟩ => ⟨S40, .f32⟩
  | .hbm, ⟨9, _⟩ => ⟨S1x1600000, .i32⟩
  | .hbm, ⟨10, _⟩ => ⟨S1600000, .i32⟩
  | .hbm, ⟨11, _⟩ => ⟨S100000, .i32⟩
  | .hbm, ⟨12, _⟩ => ⟨S1700000, .i32⟩
  | .hbm, ⟨13, _⟩ => ⟨S1x1600000, .i32⟩
  | .hbm, ⟨14, _⟩ => ⟨S1600000, .i32⟩
  | .hbm, ⟨15, _⟩ => ⟨S100000, .i32⟩
  | .hbm, ⟨16, _⟩ => ⟨S1700000, .i32⟩
  | .hbm, ⟨17, _⟩ => ⟨S_, .f32⟩
  | .hbm, ⟨18, _⟩ => ⟨S100000, .f32⟩
  | .hbm, ⟨19, _⟩ => ⟨S1700000, .f32⟩
  | .hbm, ⟨20, _⟩ => ⟨S_, .f32⟩
  | .hbm, ⟨21, _⟩ => ⟨S100000, .f32⟩
  | .hbm, ⟨22, _⟩ => ⟨S1700000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .i1⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S_, .i32⟩
  | .hbm, ⟨35, _⟩ => ⟨S1700000, .i32⟩
  | .hbm, ⟨36, _⟩ => ⟨S1700000, .i1⟩
  | .hbm, ⟨37, _⟩ => ⟨S_, .i32⟩
  | .hbm, ⟨38, _⟩ => ⟨S1700000, .i32⟩
  | .hbm, ⟨39, _⟩ => ⟨S1700000, .i32⟩
  | .hbm, ⟨40, _⟩ => ⟨S1700000, .i32⟩
  | .hbm, ⟨41, _⟩ => ⟨S1700000x1, .i32⟩
  | .hbm, ⟨42, _⟩ => ⟨S1700000, .f32⟩
  | .hbm, ⟨43, _⟩ => ⟨S1700000, .f32⟩
  | .hbm, ⟨44, _⟩ => ⟨S_, .i32⟩
  | .hbm, ⟨45, _⟩ => ⟨S1700000, .i32⟩
  | .hbm, ⟨46, _⟩ => ⟨S1700000, .i1⟩
  | .hbm, ⟨47, _⟩ => ⟨S_, .i32⟩
  | .hbm, ⟨48, _⟩ => ⟨S1700000, .i32⟩
  | .hbm, ⟨49, _⟩ => ⟨S1700000, .i32⟩
  | .hbm, ⟨50, _⟩ => ⟨S1700000, .i32⟩
  | .hbm, ⟨51, _⟩ => ⟨S1700000x1, .i32⟩
  | .hbm, ⟨52, _⟩ => ⟨S1700000, .f32⟩
  | .hbm, ⟨53, _⟩ => ⟨S1700000, .f32⟩
  | .hbm, ⟨54, _⟩ => ⟨S100000x64, .f32⟩
  | .hbm, ⟨55, _⟩ => ⟨S_, .i32⟩
  | .hbm, ⟨56, _⟩ => ⟨S1700000, .i32⟩
  | .hbm, ⟨57, _⟩ => ⟨S1700000, .i1⟩
  | .hbm, ⟨58, _⟩ => ⟨S_, .i32⟩
  | .hbm, ⟨59, _⟩ => ⟨S1700000, .i32⟩
  | .hbm, ⟨60, _⟩ => ⟨S1700000, .i32⟩
  | .hbm, ⟨61, _⟩ => ⟨S1700000, .i32⟩
  | .hbm, ⟨62, _⟩ => ⟨S1700000x1, .i32⟩
  | .hbm, ⟨63, _⟩ => ⟨S1700000x64, .f32⟩
  | .hbm, ⟨64, _⟩ => ⟨S1700000x1, .f32⟩
  | .hbm, ⟨65, _⟩ => ⟨S1700000x64, .f32⟩
  | .hbm, ⟨66, _⟩ => ⟨S1700000x64, .f32⟩
  | .hbm, ⟨67, _⟩ => ⟨S_, .f32⟩
  | .hbm, ⟨68, _⟩ => ⟨S100000x64, .f32⟩
  | .hbm, ⟨69, _⟩ => ⟨S1700000x1, .i32⟩
  | .hbm, ⟨70, _⟩ => ⟨S100000x64, .f32⟩
  | .hbm, ⟨71, _⟩ => ⟨S1x64, .f32⟩
  | .hbm, ⟨72, _⟩ => ⟨S100000x64, .f32⟩
  | .hbm, ⟨73, _⟩ => ⟨S100000x64, .f32⟩
  | .hbm, ⟨74, _⟩ => ⟨S_, .i32⟩
  | .hbm, ⟨75, _⟩ => ⟨S1700000, .i32⟩
  | .hbm, ⟨76, _⟩ => ⟨S1700000, .i1⟩
  | .hbm, ⟨77, _⟩ => ⟨S_, .i32⟩
  | .hbm, ⟨78, _⟩ => ⟨S1700000, .i32⟩
  | .hbm, ⟨79, _⟩ => ⟨S1700000, .i32⟩
  | .hbm, ⟨80, _⟩ => ⟨S1700000, .i32⟩
  | .hbm, ⟨81, _⟩ => ⟨S1700000x1, .i32⟩
  | .hbm, ⟨82, _⟩ => ⟨S1700000x64, .f32⟩
  | .hbm, ⟨83, _⟩ => ⟨S1700000x1, .f32⟩
  | .hbm, ⟨84, _⟩ => ⟨S1700000x64, .f32⟩
  | .hbm, ⟨85, _⟩ => ⟨S1700000x64, .f32⟩
  | .hbm, ⟨86, _⟩ => ⟨S_, .f32⟩
  | .hbm, ⟨87, _⟩ => ⟨S100000x64, .f32⟩
  | .hbm, ⟨88, _⟩ => ⟨S1700000x1, .i32⟩
  | .hbm, ⟨89, _⟩ => ⟨S100000x64, .f32⟩
  | .hbm, ⟨90, _⟩ => ⟨S1x64, .f32⟩
  | .hbm, ⟨91, _⟩ => ⟨S100000x64, .f32⟩
  | .hbm, ⟨92, _⟩ => ⟨S100000x40, .f32⟩
  | .hbm, ⟨93, _⟩ => ⟨S_, .i32⟩
  | .hbm, ⟨94, _⟩ => ⟨S1700000, .i32⟩
  | .hbm, ⟨95, _⟩ => ⟨S1700000, .i1⟩
  | .hbm, ⟨96, _⟩ => ⟨S_, .i32⟩
  | .hbm, ⟨97, _⟩ => ⟨S1700000, .i32⟩
  | .hbm, ⟨98, _⟩ => ⟨S1700000, .i32⟩
  | .hbm, ⟨99, _⟩ => ⟨S1700000, .i32⟩
  | .hbm, ⟨100, _⟩ => ⟨S1700000x1, .i32⟩
  | .hbm, ⟨101, _⟩ => ⟨S1700000x40, .f32⟩
  | .hbm, ⟨102, _⟩ => ⟨S1700000x1, .f32⟩
  | .hbm, ⟨103, _⟩ => ⟨S1700000x40, .f32⟩
  | .hbm, ⟨104, _⟩ => ⟨S1700000x40, .f32⟩
  | .hbm, ⟨105, _⟩ => ⟨S_, .f32⟩
  | .hbm, ⟨106, _⟩ => ⟨S100000x40, .f32⟩
  | .hbm, ⟨107, _⟩ => ⟨S1700000x1, .i32⟩
  | .hbm, ⟨108, _⟩ => ⟨S100000x40, .f32⟩
  | .hbm, ⟨109, _⟩ => ⟨S1x40, .f32⟩
  | .hbm, ⟨110, _⟩ => ⟨S100000x40, .f32⟩
  | .local _ .vmem, ⟨0, _⟩ => ⟨S5000x256, .f32⟩
  | .local _ .vmem, ⟨1, _⟩ => ⟨S5000x256, .f32⟩
  | .local _ .vmem, ⟨2, _⟩ => ⟨S256x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S64x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S64x40, .f32⟩
  | .local _ .vmem, ⟨23, _⟩ => ⟨S5000x40, .f32⟩
  | .local _ .vmem, ⟨24, _⟩ => ⟨S5000x40, .f32⟩
  | .local _ .vmem, ⟨25, _⟩ => ⟨S5000x40, .f32⟩
  | .local _ .vmem, ⟨26, _⟩ => ⟨S5000x40, .f32⟩
  | .local _ .vmem, ⟨27, _⟩ => ⟨S1x40, .f32⟩
  | .local _ .vmem, ⟨28, _⟩ => ⟨S5000x40, .f32⟩
  | .local _ .vmem, ⟨29, _⟩ => ⟨S5000x40, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v17 : Ref sig .tc := ⟨.hbm, 33, rfl⟩
abbrev main_c : Ref sig .tc := ⟨.hbm, 34, rfl⟩
abbrev main_v18 : Ref sig .tc := ⟨.hbm, 35, rfl⟩
abbrev main_v19 : Ref sig .tc := ⟨.hbm, 36, rfl⟩
abbrev main_c_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_c_5 : Ref sig .tc := ⟨.hbm, 44, rfl⟩
abbrev main_v26 : Ref sig .tc := ⟨.hbm, 45, rfl⟩
abbrev main_v27 : Ref sig .tc := ⟨.hbm, 46, rfl⟩
abbrev main_c_6 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_c_7 : Ref sig .tc := ⟨.hbm, 55, rfl⟩
abbrev main_v35 : Ref sig .tc := ⟨.hbm, 56, rfl⟩
abbrev main_v36 : Ref sig .tc := ⟨.hbm, 57, rfl⟩
abbrev main_c_8 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_9 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_c_10 : Ref sig .tc := ⟨.hbm, 74, rfl⟩
abbrev main_v51 : Ref sig .tc := ⟨.hbm, 75, rfl⟩
abbrev main_v52 : Ref sig .tc := ⟨.hbm, 76, rfl⟩
abbrev main_c_11 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_12 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_c_13 : Ref sig .tc := ⟨.hbm, 93, rfl⟩
abbrev main_v67 : Ref sig .tc := ⟨.hbm, 94, rfl⟩
abbrev main_v68 : Ref sig .tc := ⟨.hbm, 95, rfl⟩
abbrev main_c_14 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_cst_15 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x40 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x40 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x40 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x40 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x40 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  inb_S5000x64_S5000x64_0_0 : ∀ a, (![0, 0] : Fin 2 → Nat) a + S5000x64.size a ≤ S5000x64.size a
  h_S5000x64 : 0 < S5000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  inb_S64x40_S64x40_0_0 : ∀ a, (![0, 0] : Fin 2 → Nat) a + S64x40.size a ≤ S64x40.size a
  h_S64x40 : 0 < S64x40.numel
  inb_S5000x40_S5000x40_0_0 : ∀ a, (![0, 0] : Fin 2 → Nat) a + S5000x40.size a ≤ S5000x40.size a
  h_S5000x40 : 0 < S5000x40.numel
  bcast_S1700000x1_S1700000x40_0_1 : S1700000x1.BroadcastsInDim S1700000x40 (![0, 1] : Fin 2 → Fin S1700000x40.rank)
  bcast_S_S100000x40 : S_.BroadcastsInDim S100000x40 (![] : Fin 0 → Fin S100000x40.rank)
  shapeCasts_S40_S1x40 : S40.ShapeCasts S1x40
  shapeCasts_S5000x40_S5000x40 : S5000x40.ShapeCasts S5000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  reduces_S5000x40_S5000 : S5000x40.Reduces [1] S5000
  shapeCasts_S5000_S5000x1 : S5000.ShapeCasts S5000x1
  broadcasts_S5000x1_S5000x40 : S5000x1.Broadcasts S5000x40
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x256_S256x64_S5000x64_1_0_0_1_n_n_wf : DotDims.WF S5000x256 S256x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S5000x64_S64x64_S5000x64_1_0_0_1_n_n_wf : DotDims.WF S5000x64 S64x64 S5000x64 [1] [0] [0] [1] [] []
  dot_S5000x64_S64x40_S5000x40_1_0_0_1_n_n_wf : DotDims.WF S5000x64 S64x40 S5000x40 [1] [0] [0] [1] [] []
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S100000x64.size a
  hwx3_2 : ∀ i : grid3.Coords, EltTy.bits .f32 = 32 ∨ (Rect.block (s := S100000x64) S5000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x40.size a ≤ S64x40.size a
  hwx4_1 : ∀ i : grid4.Coords, EltTy.bits .f32 = 32 ∨ (Rect.block (s := S64x40) S64x40.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x40.size a ≤ S100000x40.size a
  hwx4_2 : ∀ i : grid4.Coords, EltTy.bits .f32 = 32 ∨ (Rect.block (s := S100000x40) S5000x40.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x40.size a ≤ S100000x40.size a
  hwx5_0 : ∀ i : grid5.Coords, EltTy.bits .f32 = 32 ∨ (Rect.block (s := S100000x40) S5000x40.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x40.size a ≤ S1x40.size a
  hwx5_1 : ∀ i : grid5.Coords, EltTy.bits .f32 = 32 ∨ (Rect.block (s := S1x40) S1x40.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x40.size a ≤ S100000x40.size a
  hwx5_2 : ∀ i : grid5.Coords, EltTy.bits .f32 = 32 ∨ (Rect.block (s := S100000x40) S5000x40.size (cc5_transform_2 i) (hinb5_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x40_S5000x40_1_0_0_1_n_n : DotDims S5000x64 S64x40 S5000x40 where
  lhsContracting := [1]
  rhsContracting := [0]
  lhsNonContracting := [0]
  rhsNonContracting := [1]
  lhsBatch := []
  rhsBatch := []
  wf := dot_S5000x64_S64x40_S5000x40_1_0_0_1_n_n_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v34) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v48) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v49) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v50) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v63) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v64) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v65) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v65) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S64x40.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v66) S5000x40.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v79) S5000x40.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v80) S1x40.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v81) S5000x40.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S1600000 : Shape := ⟨1, ![1600000]⟩
abbrev S256x64 : Shape := ⟨2, ![256, 64]⟩
abbrev S64 : Shape := ⟨1, ![64]⟩
abbrev S64x64 : Shape := ⟨2, ![64, 64]⟩
abbrev S64x40 : Shape := ⟨2, ![64, 40]⟩
abbrev S40 : Shape := ⟨1, ![40]⟩
abbrev S1x1600000 : Shape := ⟨2, ![1, 1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩
abbrev S100000x40 : Shape := ⟨2, ![100000, 40]⟩
abbrev S1700000x40 : Shape := ⟨2, ![1700000, 40]⟩
abbrev S1x40 : Shape := ⟨2, ![1, 40]⟩
abbrev S100000x1 : Shape := ⟨2, ![100000, 1]⟩

abbrev nBuf : Space → Nat
  | .hbm => 135
  | .vmem => 0
  | .smem => 0
  | _ => 0

abbrev hbmTy0_0 (i : Nat) : BufTy := match i % 128 with
  | 0 => ⟨S100000x256, .f32⟩
  | 1 => ⟨S2x1600000, .i32⟩
  | 2 => ⟨S1600000, .f32⟩
  | 3 => ⟨S256x64, .f32⟩
  | 4 => ⟨S64, .f32⟩
  | 5 => ⟨S64x64, .f32⟩
  | 6 => ⟨S64, .f32⟩
  | 7 => ⟨S64x40, .f32⟩
  | 8 => ⟨S40, .f32⟩
  | 9 => ⟨S1x1600000, .i32⟩
  | 10 => ⟨S1600000, .i32⟩
  | 11 => ⟨S100000, .i32⟩
  | 12 => ⟨S1700000, .i32⟩
  | 13 => ⟨S1x1600000, .i32⟩
  | 14 => ⟨S1600000, .i32⟩
  | 15 => ⟨S100000, .i32⟩
  | 16 => ⟨S1700000, .i32⟩
  | 17 => ⟨S_, .f32⟩
  | 18 => ⟨S100000, .f32⟩
  | 19 => ⟨S1700000, .f32⟩
  | 20 => ⟨S_, .f32⟩
  | 21 => ⟨S100000, .f32⟩
  | 22 => ⟨S1700000x1, .i32⟩
  | 23 => ⟨S100000, .f32⟩
  | 24 => ⟨S_, .f32⟩
  | 25 => ⟨S100000, .f32⟩
  | 26 => ⟨S100000, .i1⟩
  | 27 => ⟨S_, .f32⟩
  | 28 => ⟨S100000, .f32⟩
  | 29 => ⟨S100000, .f32⟩
  | 30 => ⟨S_, .f32⟩
  | 31 => ⟨S_, .f32⟩
  | 32 => ⟨S100000, .f32⟩
  | 33 => ⟨S100000, .f32⟩
  | 34 => ⟨S_, .i32⟩
  | 35 => ⟨S1700000, .i32⟩
  | 36 => ⟨S1700000, .i1⟩
  | 37 => ⟨S_, .i32⟩
  | 38 => ⟨S1700000, .i32⟩
  | 39 => ⟨S1700000, .i32⟩
  | 40 => ⟨S1700000, .i32⟩
  | 41 => ⟨S1700000x1, .i32⟩
  | 42 => ⟨S1700000, .f32⟩
  | 43 => ⟨S1700000, .f32⟩
  | 44 => ⟨S_, .i32⟩
  | 45 => ⟨S1700000, .i32⟩
  | 46 => ⟨S1700000, .i1⟩
  | 47 => ⟨S_, .i32⟩
  | 48 => ⟨S1700000, .i32⟩
  | 49 => ⟨S1700000, .i32⟩
  | 50 => ⟨S1700000, .i32⟩
  | 51 => ⟨S1700000x1, .i32⟩
  | 52 => ⟨S1700000, .f32⟩
  | 53 => ⟨S1700000, .f32⟩
  | 54 => ⟨S100000x64, .f32⟩
  | 55 => ⟨S_, .i32⟩
  | 56 => ⟨S1700000, .i32⟩
  | 57 => ⟨S1700000, .i1⟩
  | 58 => ⟨S_, .i32⟩
  | 59 => ⟨S1700000, .i32⟩
  | 60 => ⟨S1700000, .i32⟩
  | 61 => ⟨S1700000, .i32⟩
  | 62 => ⟨S1700000x1, .i32⟩
  | 63 => ⟨S1700000x64, .f32⟩
  | 64 => ⟨S1700000x1, .f32⟩
  | 65 => ⟨S1700000x64, .f32⟩
  | 66 => ⟨S1700000x64, .f32⟩
  | 67 => ⟨S_, .f32⟩
  | 68 => ⟨S100000x64, .f32⟩
  | 69 => ⟨S1700000x1, .i32⟩
  | 70 => ⟨S100000x64, .f32⟩
  | 71 => ⟨S1x64, .f32⟩
  | 72 => ⟨S100000x64, .f32⟩
  | 73 => ⟨S100000x64, .f32⟩
  | 74 => ⟨S_, .f32⟩
  | 75 => ⟨S100000x64, .f32⟩
  | 76 => ⟨S100000x64, .f32⟩
  | 77 => ⟨S100000x64, .f32⟩
  | 78 => ⟨S_, .i32⟩
  | 79 => ⟨S1700000, .i32⟩
  | 80 => ⟨S1700000, .i1⟩
  | 81 => ⟨S_, .i32⟩
  | 82 => ⟨S1700000, .i32⟩
  | 83 => ⟨S1700000, .i32⟩
  | 84 => ⟨S1700000, .i32⟩
  | 85 => ⟨S1700000x1, .i32⟩
  | 86 => ⟨S1700000x64, .f32⟩
  | 87 => ⟨S1700000x1, .f32⟩
  | 88 => ⟨S1700000x64, .f32⟩
  | 89 => ⟨S1700000x64, .f32⟩
  | 90 => ⟨S_, .f32⟩
  | 91 => ⟨S100000x64, .f32⟩
  | 92 => ⟨S1700000x1, .i32⟩
  | 93 => ⟨S100000x64, .f32⟩
  | 94 => ⟨S1x64, .f32⟩
  | 95 => ⟨S100000x64, .f32⟩
  | 96 => ⟨S100000x64, .f32⟩
  | 97 => ⟨S_, .f32⟩
  | 98 => ⟨S100000x64, .f32⟩
  | 99 => ⟨S100000x64, .f32⟩
  | 100 => ⟨S100000x40, .f32⟩
  | 101 => ⟨S_, .i32⟩
  | 102 => ⟨S1700000, .i32⟩
  | 103 => ⟨S1700000, .i1⟩
  | 104 => ⟨S_, .i32⟩
  | 105 => ⟨S1700000, .i32⟩
  | 106 => ⟨S1700000, .i32⟩
  | 107 => ⟨S1700000, .i32⟩
  | 108 => ⟨S1700000x1, .i32⟩
  | 109 => ⟨S1700000x40, .f32⟩
  | 110 => ⟨S1700000x1, .f32⟩
  | 111 => ⟨S1700000x40, .f32⟩
  | 112 => ⟨S1700000x40, .f32⟩
  | 113 => ⟨S_, .f32⟩
  | 114 => ⟨S100000x40, .f32⟩
  | 115 => ⟨S1700000x1, .i32⟩
  | 116 => ⟨S100000x40, .f32⟩
  | 117 => ⟨S1x40, .f32⟩
  | 118 => ⟨S100000x40, .f32⟩
  | 119 => ⟨S100000x40, .f32⟩
  | 120 => ⟨S_, .f32⟩
  | 121 => ⟨S100000, .f32⟩
  | 122 => ⟨S_, .f32⟩
  | 123 => ⟨S100000, .f32⟩
  | 124 => ⟨S100000, .f32⟩
  | 125 => ⟨S100000x1, .f32⟩
  | 126 => ⟨S100000x40, .f32⟩
  | 127 => ⟨S100000x40, .f32⟩
  | _ => ⟨S100000x256, .f32⟩

abbrev hbmTy0_1 (i : Nat) : BufTy := match i % 128 with
  | 0 => ⟨S100000x40, .f32⟩
  | 1 => ⟨S_, .f32⟩
  | 2 => ⟨S100000, .f32⟩
  | 3 => ⟨S100000x1, .f32⟩
  | 4 => ⟨S100000x1, .f32⟩
  | 5 => ⟨S100000x40, .f32⟩
  | 6 => ⟨S100000x40, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v17 : Ref sig .tc := ⟨.hbm, 33, rfl⟩
abbrev main_c : Ref sig .tc := ⟨.hbm, 34, rfl⟩
abbrev main_v18 : Ref sig .tc := ⟨.hbm, 35, rfl⟩
abbrev main_v19 : Ref sig .tc := ⟨.hbm, 36, rfl⟩
abbrev main_c_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_c_5 : Ref sig .tc := ⟨.hbm, 44, rfl⟩
abbrev main_v26 : Ref sig .tc := ⟨.hbm, 45, rfl⟩
abbrev main_v27 : Ref sig .tc := ⟨.hbm, 46, rfl⟩
abbrev main_c_6 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_c_7 : Ref sig .tc := ⟨.hbm, 55, rfl⟩
abbrev main_v35 : Ref sig .tc := ⟨.hbm, 56, rfl⟩
abbrev main_v36 : Ref sig .tc := ⟨.hbm, 57, rfl⟩
abbrev main_c_8 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_9 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_call1_cst : Ref sig .tc := ⟨.hbm, 74, rfl⟩
abbrev main_call1_v0 : Ref sig .tc := ⟨.hbm, 75, rfl⟩
abbrev main_v51 : Ref sig .tc := ⟨.hbm, 76, rfl⟩
abbrev main_v52 : Ref sig .tc := ⟨.hbm, 77, rfl⟩
abbrev main_c_10 : Ref sig .tc := ⟨.hbm, 78, rfl⟩
abbrev main_v53 : Ref sig .tc := ⟨.hbm, 79, rfl⟩
abbrev main_v54 : Ref sig .tc := ⟨.hbm, 80, rfl⟩
abbrev main_c_11 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_cst_12 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_call2_cst : Ref sig .tc := ⟨.hbm, 97, rfl⟩
abbrev main_call2_v0 : Ref sig .tc := ⟨.hbm, 98, rfl⟩
abbrev main_v69 : Ref sig .tc := ⟨.hbm, 99, rfl⟩
abbrev main_v70 : Ref sig .tc := ⟨.hbm, 100, rfl⟩
abbrev main_c_13 : Ref sig .tc := ⟨.hbm, 101, rfl⟩
abbrev main_v71 : Ref sig .tc := ⟨.hbm, 102, rfl⟩
abbrev main_v72 : Ref sig .tc := ⟨.hbm, 103, rfl⟩
abbrev main_c_14 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_cst_15 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_call3_cst : Ref sig .tc := ⟨.hbm, 120, rfl⟩
abbrev main_call3_v0 : Ref sig .tc := ⟨.hbm, 121, rfl⟩
abbrev main_call3_cst_0 : Ref sig .tc := ⟨.hbm, 122, rfl⟩
abbrev main_call3_v1 : Ref sig .tc := ⟨.hbm, 123, rfl⟩
abbrev main_call3_v2 : Ref sig .tc := ⟨.hbm, 124, rfl⟩
abbrev main_call3_v3 : Ref sig .tc := ⟨.hbm, 125, rfl⟩
abbrev main_call3_v4 : Ref sig .tc := ⟨.hbm, 126, rfl⟩
abbrev main_call3_v5 : Ref sig .tc := ⟨.hbm, 127, rfl⟩
abbrev main_call3_v6 : Ref sig .tc := ⟨.hbm, 128, rfl⟩
abbrev main_call3_cst_1 : Ref sig .tc := ⟨.hbm, 129, rfl⟩
abbrev main_call3_v7 : Ref sig .tc := ⟨.hbm, 130, rfl⟩
abbrev main_call3_v8 : Ref sig .tc := ⟨.hbm, 131, rfl⟩
abbrev main_call3_v9 : Ref sig .tc := ⟨.hbm, 132, rfl⟩
abbrev main_call3_v10 : Ref sig .tc := ⟨.hbm, 133, rfl⟩
abbrev main_v87 : Ref sig .tc := ⟨.hbm, 134, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x40_0_1 : S1700000x1.BroadcastsInDim S1700000x40 (![0, 1] : Fin 2 → Fin S1700000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x256_S256x64_S100000x64_1_0_0_1_n_n_wf : DotDims.WF S100000x256 S256x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x64_S100000x64_1_0_0_1_n_n_wf : DotDims.WF S100000x64 S64x64 S100000x64 [1] [0] [0] [1] [] []
  dot_S100000x64_S64x40_S100000x40_1_0_0_1_n_n_wf : DotDims.WF S100000x64 S64x40 S100000x40 [1] [0] [0] [1] [] []
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x40_S100000x40_1_0_0_1_n_n : DotDims S100000x64 S64x40 S100000x40 where
  lhsContracting := [1]
  rhsContracting := [0]
  lhsNonContracting := [0]
  rhsNonContracting := [1]
  lhsBatch := []
  rhsBatch := []
  wf := dot_S100000x64_S64x40_S100000x40_1_0_0_1_n_n_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf

class Facts : Prop extends Facts₀ where

variable [Facts]
-- ==== Proof.KernelRun.lean ====
/-
  The idealized kernel's run with its result named.

  @main is twelve segments: six stretches of host operations and six pipelined regions. The buffer contents at
  every segment boundary are a fold from the launch memory (a stretch applies its operations; a region leaves
  its three arrays at what its write-backs leave and every other buffer as it found it). Every weakly fair
  execution terminates, nothing faults, and in the final state every unscoped buffer holds the last boundary's
  contents: so the result buffer holds the last boundary's contents of the result, and each argument, which
  no segment writes, holds what it was launched with.
-/
import proofs.«112376_j764504179050_1_alg».proof.Proof.Gen.KernelIdeal.Frame

set_option maxRecDepth 16384

noncomputable section

namespace Cert.KernelIdeal.ValueRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the result buffer ends at the last boundary's
    contents of it, and the nine arguments end as launched. -/
theorem run : θ_run defs (onTc (τ := τ) (main (F := F))) ⟨m, fun _ => 0, ρ⟩ (fun r => ∀ c : Dev nD,
      r.2.mem ((c.tc : Thread nD τ).loc main_v81) = W12 m ρ c (Proc.devRef .tc main_v81)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v81 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c)⟩)

end Cert.KernelIdeal.ValueRun

end
-- ==== Proof.KernelNorm.lean ====
/-
  The edge endpoints and the normalisation, before the first region.

  Before its first region the kernel's host program prepares, exactly as the reference does: the source and the
  destination endpoint of every edge (the two rows of the edge list, each followed by the 100000 self-loops), the
  edge weights followed by a 1 per self-loop, the weighted in-degree d of every node, d^(−1/2) where d > 0 and 0
  elsewhere, and per edge the weight times d^(−1/2) at both endpoints. The operations are the same on both sides,
  in the same order; read back through the program's fold, the three arrays the regions later use are the
  reference's stages of the same two arguments.
-/
import proofs.«112376_j764504179050_1_alg».proof.Proof.Gen.KernelIdeal.Frame
import proofs.«112376_j764504179050_1_alg».proof.Proof.RefRead
import Idealize.ShloMosaic.Lib.StableHlo.Run
import Idealize.ShloMosaic.PureOps.Ideal

set_option maxRecDepth 16384

noncomputable section

namespace Cert.KernelIdeal.Norm

open Cert.KernelIdeal Cert.KernelIdeal.Gen Idealize.ShloMosaic Idealize.ShloMosaic.TcCoe Idealize.SL.Sem

variable {F : FTy → Type} [FloatOps F]

/-! ## The host operations before the first region, in six groups

The 22 + 3 + 20 operations in program order; a group ends where a joined array is complete, so that a later group
reads it as an input. -/

/-- The source endpoints: row 0 of the edge list, flattened, followed by the 100000 self-loops 0 … 99999. -/
abbrev opsA : List (HloOp τ sig (Elt F)) :=
  [ StableHlo.unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.nullary main_v2 (iotaInDim S100000 32 0),
    StableHlo.binary main_v1 main_v2 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)) ]

/-- The destination endpoints: row 1 of the edge list, flattened, followed by the self-loops. -/
abbrev opsB : List (HloOp τ sig (Elt F)) :=
  [ StableHlo.unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v4 main_v5 rfl shapeCasts_S1x1600000_S1600000,
    StableHlo.nullary main_v6 (iotaInDim S100000 32 0),
    StableHlo.binary main_v5 main_v6 main_v7 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)) ]

/-- The edge weights followed by a weight 1 for each self-loop. -/
abbrev opsC : List (HloOp τ sig (Elt F)) :=
  [ StableHlo.nullary main_cst (constant S_ .f32 0x3F800000#32),
    StableHlo.unary main_cst main_v8 (broadcastInDim S100000 ![] bcast_S_S100000 : (⟨S_, .f32⟩ : BufTy).Contents (Elt F) → (⟨S100000, .f32⟩ : BufTy).Contents (Elt F)),
    StableHlo.binary main_arg2 main_v8 main_v9 ((fun a b => concatenate S1700000 0 [⟨S1600000, a⟩, ⟨S100000, b⟩] concatenates_S1600000_S100000_S1700000_d0) : (⟨S1600000, .f32⟩ : BufTy).Contents (Elt F) → (⟨S100000, .f32⟩ : BufTy).Contents (Elt F) → (⟨S1700000, .f32⟩ : BufTy).Contents (Elt F)) ]

/-- The weighted in-degree of every node (a scatter-add of the weights at the destinations into zeros), the test `degree > 0`, and the degree to the power −1/2. -/
abbrev opsD : List (HloOp τ sig (Elt F)) :=
  [ StableHlo.nullary main_cst_0 (constant S_ .f32 0x00000000#32),
    StableHlo.unary main_cst_0 main_v10 (broadcastInDim S100000 ![] bcast_S_S100000 : (⟨S_, .f32⟩ : BufTy).Contents (Elt F) → (⟨S100000, .f32⟩ : BufTy).Contents (Elt F)),
    StableHlo.unary main_v7 main_v11 (broadcastInDim S1700000x1 ![0] bcast_S1700000_S1700000x1_0 : (⟨S1700000, .i32⟩ : BufTy).Contents (Elt F) → (⟨S1700000x1, .i32⟩ : BufTy).Contents (Elt F)),
    StableHlo.ternary main_v10 main_v11 main_v9 main_v12 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    StableHlo.nullary main_cst_1 (constant S_ .f32 0x00000000#32),
    StableHlo.unary main_cst_1 main_v13 (broadcastInDim S100000 ![] bcast_S_S100000 : (⟨S_, .f32⟩ : BufTy).Contents (Elt F) → (⟨S100000, .f32⟩ : BufTy).Contents (Elt F)),
    StableHlo.binary main_v12 main_v13 main_v14 (cmpf .ogt : (⟨S100000, .f32⟩ : BufTy).Contents (Elt F) → (⟨S100000, .f32⟩ : BufTy).Contents (Elt F) → (⟨S100000, .i1⟩ : BufTy).Contents (Elt F)),
    StableHlo.nullary main_cst_2 (constant S_ .f32 0xBF000000#32),
    StableHlo.unary main_cst_2 main_v15 (broadcastInDim S100000 ![] bcast_S_S100000 : (⟨S_, .f32⟩ : BufTy).Contents (Elt F) → (⟨S100000, .f32⟩ : BufTy).Contents (Elt F)),
    StableHlo.binary main_v12 main_v15 main_v16 (Host.powf : (⟨S100000, .f32⟩ : BufTy).Contents (Elt F) → (⟨S100000, .f32⟩ : BufTy).Contents (Elt F) → (⟨S100000, .f32⟩ : BufTy).Contents (Elt F)),
    StableHlo.nullary main_cst_3 (constant S_ .f32 0x00000000#32) ]

/-- The inverse square root of the degree where the degree is positive, 0 elsewhere. -/
abbrev opsE : List (HloOp τ sig (Elt F)) :=
  [ StableHlo.TRef.unary (.of main_cst_3 : StableHlo.TRef sig ⟨S_, .f32⟩) (.of main_call0_v0 : StableHlo.TRef sig ⟨S_, .f32⟩) id,
    StableHlo.TRef.unary (.of main_call0_v0 : StableHlo.TRef sig ⟨S_, .f32⟩) (.of main_call0_v1 : StableHlo.TRef sig ⟨S100000, .f32⟩) (broadcastInDim S100000 ![] bcast_S_S100000),
    StableHlo.TRef.ternary (.of main_v14 : StableHlo.TRef sig ⟨S100000, .i1⟩) (.of main_v16 : StableHlo.TRef sig ⟨S100000, .f32⟩) (.of main_call0_v1 : StableHlo.TRef sig ⟨S100000, .f32⟩) (.of main_v17 : StableHlo.TRef sig ⟨S100000, .f32⟩) select ]

/-- Per edge: the two endpoints wrapped into range, the inverse-square-root degree gathered at each, and the weight times both. -/
abbrev opsG : List (HloOp τ sig (Elt F)) :=
  [ StableHlo.nullary main_c (constantI S_ 32 0#32),
    StableHlo.unary main_c main_v18 (broadcastInDim S1700000 ![] bcast_S_S1700000 : (⟨S_, .i32⟩ : BufTy).Contents (Elt F) → (⟨S1700000, .i32⟩ : BufTy).Contents (Elt F)),
    StableHlo.binary main_v3 main_v18 main_v19 (cmpi .slt : (⟨S1700000, .i32⟩ : BufTy).Contents (Elt F) → (⟨S1700000, .i32⟩ : BufTy).Contents (Elt F) → (⟨S1700000, .i1⟩ : BufTy).Contents (Elt F)),
    StableHlo.nullary main_c_4 (constantI S_ 32 100000#32),
    StableHlo.unary main_c_4 main_v20 (broadcastInDim S1700000 ![] bcast_S_S1700000 : (⟨S_, .i32⟩ : BufTy).Contents (Elt F) → (⟨S1700000, .i32⟩ : BufTy).Contents (Elt F)),
    StableHlo.binary main_v3 main_v20 main_v21 (addi : (⟨S1700000, .i32⟩ : BufTy).Contents (Elt F) → (⟨S1700000, .i32⟩ : BufTy).Contents (Elt F) → (⟨S1700000, .i32⟩ : BufTy).Contents (Elt F)),
    StableHlo.ternary main_v19 main_v21 main_v3 main_v22 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v22 main_v23 (broadcastInDim S1700000x1 ![0] bcast_S1700000_S1700000x1_0 : (⟨S1700000, .i32⟩ : BufTy).Contents (Elt F) → (⟨S1700000x1, .i32⟩ : BufTy).Contents (Elt F)),
    StableHlo.binary main_v17 main_v23 main_v24 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.binary main_v24 main_v9 main_v25 (mulf : (⟨S1700000, .f32⟩ : BufTy).Contents (Elt F) → (⟨S1700000, .f32⟩ : BufTy).Contents (Elt F) → (⟨S1700000, .f32⟩ : BufTy).Contents (Elt F)),
    StableHlo.nullary main_c_5 (constantI S_ 32 0#32),
    StableHlo.unary main_c_5 main_v26 (broadcastInDim S1700000 ![] bcast_S_S1700000 : (⟨S_, .i32⟩ : BufTy).Contents (Elt F) → (⟨S1700000, .i32⟩ : BufTy).Contents (Elt F)),
    StableHlo.binary main_v7 main_v26 main_v27 (cmpi .slt : (⟨S1700000, .i32⟩ : BufTy).Contents (Elt F) → (⟨S1700000, .i32⟩ : BufTy).Contents (Elt F) → (⟨S1700000, .i1⟩ : BufTy).Contents (Elt F)),
    StableHlo.nullary main_c_6 (constantI S_ 32 100000#32),
    StableHlo.unary main_c_6 main_v28 (broadcastInDim S1700000 ![] bcast_S_S1700000 : (⟨S_, .i32⟩ : BufTy).Contents (Elt F) → (⟨S1700000, .i32⟩ : BufTy).Contents (Elt F)),
    StableHlo.binary main_v7 main_v28 main_v29 (addi : (⟨S1700000, .i32⟩ : BufTy).Contents (Elt F) → (⟨S1700000, .i32⟩ : BufTy).Contents (Elt F) → (⟨S1700000, .i32⟩ : BufTy).Contents (Elt F)),
    StableHlo.ternary main_v27 main_v29 main_v7 main_v30 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v30 main_v31 (broadcastInDim S1700000x1 ![0] bcast_S1700000_S1700000x1_0 : (⟨S1700000, .i32⟩ : BufTy).Contents (Elt F) → (⟨S1700000x1, .i32⟩ : BufTy).Contents (Elt F)),
    StableHlo.binary main_v17 main_v31 main_v32 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.binary main_v25 main_v32 main_v33 (mulf : (⟨S1700000, .f32⟩ : BufTy).Contents (Elt F) → (⟨S1700000, .f32⟩ : BufTy).Contents (Elt F) → (⟨S1700000, .f32⟩ : BufTy).Contents (Elt F)) ]

theorem ops0_split : (hostOps0 : List (HloOp τ sig (Elt F))) = opsA ++ (opsB ++ (opsC ++ opsD)) := rfl
theorem ops0_1_eq : (hostOps0_1 : List (HloOp τ sig (Elt F))) = opsE := rfl
theorem ops0_2_eq : (hostOps0_2 : List (HloOp τ sig (Elt F))) = opsG := rfl

/-- Running two lists one after the other is running their concatenation. -/
theorem after_append (l₁ l₂ : List (HloOp τ sig (Elt F))) (V : Valuation τ sig (Elt F)) :
    StableHlo.after (l₁ ++ l₂) V = StableHlo.after l₂ (StableHlo.after l₁ V) := by
  induction l₁ generalizing V with
  | nil => rfl
  | cons op l ih => exact ih (op.result V)

/-! ## What each group leaves untouched -/

/-- The references the operations of `opsA` write. -/
abbrev opsA_W : List (Ref sig .tc) := [main_v0, main_v1, main_v2, main_v3]
theorem opsA_writes : (opsA (F := Ideal)).Forall fun op => op.writes ⊆ (opsA_W.map (Proc.devRef (τ := τ) .tc)).toFinset := by
  simp only [opsA, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
/-- A buffer `opsA` does not write keeps its contents. -/
theorem opsA_keep (V : Valuation τ sig (Elt Ideal)) (r : Ref sig .tc) (h : r ∉ opsA_W) :
    StableHlo.after (opsA (F := Ideal)) V (Proc.devRef .tc r) = V (Proc.devRef .tc r) :=
  StableHlo.after_of_writes_sub (opsA (F := Ideal)) V opsA_writes h

/-- The references the operations of `opsB` write. -/
abbrev opsB_W : List (Ref sig .tc) := [main_v4, main_v5, main_v6, main_v7]
theorem opsB_writes : (opsB (F := Ideal)).Forall fun op => op.writes ⊆ (opsB_W.map (Proc.devRef (τ := τ) .tc)).toFinset := by
  simp only [opsB, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
/-- A buffer `opsB` does not write keeps its contents. -/
theorem opsB_keep (V : Valuation τ sig (Elt Ideal)) (r : Ref sig .tc) (h : r ∉ opsB_W) :
    StableHlo.after (opsB (F := Ideal)) V (Proc.devRef .tc r) = V (Proc.devRef .tc r) :=
  StableHlo.after_of_writes_sub (opsB (F := Ideal)) V opsB_writes h

/-- The references the operations of `opsC` write. -/
abbrev opsC_W : List (Ref sig .tc) := [main_cst, main_v8, main_v9]
theorem opsC_writes : (opsC (F := Ideal)).Forall fun op => op.writes ⊆ (opsC_W.map (Proc.devRef (τ := τ) .tc)).toFinset := by
  simp only [opsC, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
/-- A buffer `opsC` does not write keeps its contents. -/
theorem opsC_keep (V : Valuation τ sig (Elt Ideal)) (r : Ref sig .tc) (h : r ∉ opsC_W) :
    StableHlo.after (opsC (F := Ideal)) V (Proc.devRef .tc r) = V (Proc.devRef .tc r) :=
  StableHlo.after_of_writes_sub (opsC (F := Ideal)) V opsC_writes h

/-- The references the operations of `opsD` write. -/
abbrev opsD_W : List (Ref sig .tc) := [main_cst_0, main_v10, main_v11, main_v12, main_cst_1, main_v13, main_v14, main_cst_2, main_v15, main_v16, main_cst_3]
theorem opsD_writes : (opsD (F := Ideal)).Forall fun op => op.writes ⊆ (opsD_W.map (Proc.devRef (τ := τ) .tc)).toFinset := by
  simp only [opsD, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
/-- A buffer `opsD` does not write keeps its contents. -/
theorem opsD_keep (V : Valuation τ sig (Elt Ideal)) (r : Ref sig .tc) (h : r ∉ opsD_W) :
    StableHlo.after (opsD (F := Ideal)) V (Proc.devRef .tc r) = V (Proc.devRef .tc r) :=
  StableHlo.after_of_writes_sub (opsD (F := Ideal)) V opsD_writes h

/-- The references the operations of `opsE` write. -/
abbrev opsE_W : List (Ref sig .tc) := [main_call0_v0, main_call0_v1, main_v17]
theorem opsE_writes : (opsE (F := Ideal)).Forall fun op => op.writes ⊆ (opsE_W.map (Proc.devRef (τ := τ) .tc)).toFinset := by
  simp only [opsE, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
/-- A buffer `opsE` does not write keeps its contents. -/
theorem opsE_keep (V : Valuation τ sig (Elt Ideal)) (r : Ref sig .tc) (h : r ∉ opsE_W) :
    StableHlo.after (opsE (F := Ideal)) V (Proc.devRef .tc r) = V (Proc.devRef .tc r) :=
  StableHlo.after_of_writes_sub (opsE (F := Ideal)) V opsE_writes h

/-- The references the operations of `opsG` write. -/
abbrev opsG_W : List (Ref sig .tc) := [main_c, main_v18, main_v19, main_c_4, main_v20, main_v21, main_v22, main_v23, main_v24, main_v25, main_c_5, main_v26, main_v27, main_c_6, main_v28, main_v29, main_v30, main_v31, main_v32, main_v33]
theorem opsG_writes : (opsG (F := Ideal)).Forall fun op => op.writes ⊆ (opsG_W.map (Proc.devRef (τ := τ) .tc)).toFinset := by
  simp only [opsG, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
/-- A buffer `opsG` does not write keeps its contents. -/
theorem opsG_keep (V : Valuation τ sig (Elt Ideal)) (r : Ref sig .tc) (h : r ∉ opsG_W) :
    StableHlo.after (opsG (F := Ideal)) V (Proc.devRef .tc r) = V (Proc.devRef .tc r) :=
  StableHlo.after_of_writes_sub (opsG (F := Ideal)) V opsG_writes h

/-! ## What each group computes, from any contents `V` -/

theorem groupA (V : Valuation τ sig (Elt Ideal)) :
    StableHlo.after (opsA (F := Ideal)) V (Proc.devRef .tc main_v3) = Cert.ReferenceIdeal.ReadP.val_main_v3 (F := Ideal) (V (Proc.devRef .tc main_arg1)) := by
  after_results_simp
  rfl

theorem groupB (V : Valuation τ sig (Elt Ideal)) :
    StableHlo.after (opsB (F := Ideal)) V (Proc.devRef .tc main_v7) = Cert.ReferenceIdeal.ReadP.val_main_v7 (F := Ideal) (V (Proc.devRef .tc main_arg1)) := by
  after_results_simp
  rfl

theorem groupC (V : Valuation τ sig (Elt Ideal)) :
    StableHlo.after (opsC (F := Ideal)) V (Proc.devRef .tc main_v9) = Cert.ReferenceIdeal.ReadP.val_main_v9 (F := Ideal) (V (Proc.devRef .tc main_arg2)) := by
  after_results_simp
  rfl

theorem groupD_pos (V : Valuation τ sig (Elt Ideal)) (x1 : (⟨Cert.ReferenceIdeal.S2x1600000, .i32⟩ : BufTy).Contents (Elt Ideal)) (x2 : (⟨Cert.ReferenceIdeal.S1600000, .f32⟩ : BufTy).Contents (Elt Ideal))
    (h7 : V (Proc.devRef .tc main_v7) = Cert.ReferenceIdeal.ReadP.val_main_v7 (F := Ideal) x1) (h9 : V (Proc.devRef .tc main_v9) = Cert.ReferenceIdeal.ReadP.val_main_v9 (F := Ideal) x2) :
    StableHlo.after (opsD (F := Ideal)) V (Proc.devRef .tc main_v14) = Cert.ReferenceIdeal.ReadP.val_main_v14 (F := Ideal) x1 x2 := by
  after_results_simp
  rw [h7, h9]
  simp only [Cert.ReferenceIdeal.ReadP.val_main_v14, Cert.ReferenceIdeal.ReadP.val_main_v13, Cert.ReferenceIdeal.ReadP.val_main_cst_1, Cert.ReferenceIdeal.ReadP.val_main_v12, Cert.ReferenceIdeal.ReadP.val_main_v11, Cert.ReferenceIdeal.ReadP.val_main_v10, Cert.ReferenceIdeal.ReadP.val_main_cst_0]
  generalize Cert.ReferenceIdeal.ReadP.val_main_v7 (F := Ideal) x1 = a7
  generalize Cert.ReferenceIdeal.ReadP.val_main_v9 (F := Ideal) x2 = a9
  rfl

theorem groupD_pow (V : Valuation τ sig (Elt Ideal)) (x1 : (⟨Cert.ReferenceIdeal.S2x1600000, .i32⟩ : BufTy).Contents (Elt Ideal)) (x2 : (⟨Cert.ReferenceIdeal.S1600000, .f32⟩ : BufTy).Contents (Elt Ideal))
    (h7 : V (Proc.devRef .tc main_v7) = Cert.ReferenceIdeal.ReadP.val_main_v7 (F := Ideal) x1) (h9 : V (Proc.devRef .tc main_v9) = Cert.ReferenceIdeal.ReadP.val_main_v9 (F := Ideal) x2) :
    StableHlo.after (opsD (F := Ideal)) V (Proc.devRef .tc main_v16) = Cert.ReferenceIdeal.ReadP.val_main_v16 (F := Ideal) x1 x2 := by
  after_results_simp
  rw [h7, h9]
  simp only [Cert.ReferenceIdeal.ReadP.val_main_v16, Cert.ReferenceIdeal.ReadP.val_main_v15, Cert.ReferenceIdeal.ReadP.val_main_cst_2, Cert.ReferenceIdeal.ReadP.val_main_v12, Cert.ReferenceIdeal.ReadP.val_main_v11, Cert.ReferenceIdeal.ReadP.val_main_v10, Cert.ReferenceIdeal.ReadP.val_main_cst_0]
  generalize Cert.ReferenceIdeal.ReadP.val_main_v7 (F := Ideal) x1 = a7
  generalize Cert.ReferenceIdeal.ReadP.val_main_v9 (F := Ideal) x2 = a9
  rfl

theorem groupD_zero (V : Valuation τ sig (Elt Ideal)) :
    StableHlo.after (opsD (F := Ideal)) V (Proc.devRef .tc main_cst_3) = Cert.ReferenceIdeal.ReadP.val_main_cst_3 (F := Ideal) := by
  after_results_simp
  rfl

/-- The three operations of the selection, from any contents: where the test holds the power, elsewhere the
    constant spread over the nodes. -/
theorem groupE_var (V : Valuation τ sig (Elt Ideal)) (a14 : (⟨S100000, .i1⟩ : BufTy).Contents (Elt Ideal))
    (a16 : (⟨S100000, .f32⟩ : BufTy).Contents (Elt Ideal)) (z : (⟨S_, .f32⟩ : BufTy).Contents (Elt Ideal))
    (h14 : V (Proc.devRef .tc main_v14) = a14) (h16 : V (Proc.devRef .tc main_v16) = a16) (hz : V (Proc.devRef .tc main_cst_3) = z) :
    StableHlo.after (opsE (F := Ideal)) V (Proc.devRef .tc main_v17)
      = select a14 a16 (broadcastInDim S100000 ![] bcast_S_S100000 (id z)) := by
  after_results_simp
  rw [h14, h16, hz]
  rfl

/-- The reference's stage for the selection, one level opened. -/
theorem stage17_eq (x1 : (⟨Cert.ReferenceIdeal.S2x1600000, .i32⟩ : BufTy).Contents (Elt Ideal)) (x2 : (⟨Cert.ReferenceIdeal.S1600000, .f32⟩ : BufTy).Contents (Elt Ideal)) :
    Cert.ReferenceIdeal.ReadP.val_main_v17 (F := Ideal) x1 x2
      = select (Cert.ReferenceIdeal.ReadP.val_main_v14 (F := Ideal) x1 x2) (Cert.ReferenceIdeal.ReadP.val_main_v16 (F := Ideal) x1 x2)
          (broadcastInDim Cert.ReferenceIdeal.S100000 ![] Cert.ReferenceIdeal.Gen.bcast_S_S100000 (id (Cert.ReferenceIdeal.ReadP.val_main_cst_3 (F := Ideal)))) := rfl

theorem groupE (V : Valuation τ sig (Elt Ideal)) (x1 : (⟨Cert.ReferenceIdeal.S2x1600000, .i32⟩ : BufTy).Contents (Elt Ideal)) (x2 : (⟨Cert.ReferenceIdeal.S1600000, .f32⟩ : BufTy).Contents (Elt Ideal))
    (h14 : V (Proc.devRef .tc main_v14) = Cert.ReferenceIdeal.ReadP.val_main_v14 (F := Ideal) x1 x2) (h16 : V (Proc.devRef .tc main_v16) = Cert.ReferenceIdeal.ReadP.val_main_v16 (F := Ideal) x1 x2)
    (hz : V (Proc.devRef .tc main_cst_3) = Cert.ReferenceIdeal.ReadP.val_main_cst_3 (F := Ideal)) :
    StableHlo.after (opsE (F := Ideal)) V (Proc.devRef .tc main_v17) = Cert.ReferenceIdeal.ReadP.val_main_v17 (F := Ideal) x1 x2 :=
  (groupE_var V _ _ _ h14 h16 hz).trans (stage17_eq x1 x2).symm

theorem groupG (V : Valuation τ sig (Elt Ideal)) (x1 : (⟨Cert.ReferenceIdeal.S2x1600000, .i32⟩ : BufTy).Contents (Elt Ideal)) (x2 : (⟨Cert.ReferenceIdeal.S1600000, .f32⟩ : BufTy).Contents (Elt Ideal))
    (h3 : V (Proc.devRef .tc main_v3) = Cert.ReferenceIdeal.ReadP.val_main_v3 (F := Ideal) x1) (h7 : V (Proc.devRef .tc main_v7) = Cert.ReferenceIdeal.ReadP.val_main_v7 (F := Ideal) x1)
    (h9 : V (Proc.devRef .tc main_v9) = Cert.ReferenceIdeal.ReadP.val_main_v9 (F := Ideal) x2) (h17 : V (Proc.devRef .tc main_v17) = Cert.ReferenceIdeal.ReadP.val_main_v17 (F := Ideal) x1 x2) :
    StableHlo.after (opsG (F := Ideal)) V (Proc.devRef .tc main_v33) = Cert.ReferenceIdeal.ReadP.val_main_v33 (F := Ideal) x1 x2 := by
  after_results_simp
  rw [h3, h7, h9, h17]
  simp only [Cert.ReferenceIdeal.ReadP.val_main_v33, Cert.ReferenceIdeal.ReadP.val_main_v32, Cert.ReferenceIdeal.ReadP.val_main_v31, Cert.ReferenceIdeal.ReadP.val_main_v30, Cert.ReferenceIdeal.ReadP.val_main_v29, Cert.ReferenceIdeal.ReadP.val_main_v28, Cert.ReferenceIdeal.ReadP.val_main_c_6, Cert.ReferenceIdeal.ReadP.val_main_v27, Cert.ReferenceIdeal.ReadP.val_main_v26, Cert.ReferenceIdeal.ReadP.val_main_c_5, Cert.ReferenceIdeal.ReadP.val_main_v25, Cert.ReferenceIdeal.ReadP.val_main_v24, Cert.ReferenceIdeal.ReadP.val_main_v23, Cert.ReferenceIdeal.ReadP.val_main_v22, Cert.ReferenceIdeal.ReadP.val_main_v21, Cert.ReferenceIdeal.ReadP.val_main_v20, Cert.ReferenceIdeal.ReadP.val_main_c_4, Cert.ReferenceIdeal.ReadP.val_main_v19, Cert.ReferenceIdeal.ReadP.val_main_v18, Cert.ReferenceIdeal.ReadP.val_main_c]
  generalize Cert.ReferenceIdeal.ReadP.val_main_v3 (F := Ideal) x1 = a3
  generalize Cert.ReferenceIdeal.ReadP.val_main_v7 (F := Ideal) x1 = a7
  generalize Cert.ReferenceIdeal.ReadP.val_main_v9 (F := Ideal) x2 = a9
  generalize Cert.ReferenceIdeal.ReadP.val_main_v17 (F := Ideal) x1 x2 = a17
  rfl

/-! ## The three stretches from the launch contents -/

section Run

variable (m : (ℓ : Loc nD τ sig) → Buf (Elt Ideal) ℓ) (ρ : Dev nD → PrngReg) (c : Dev nD)

/-- The contents after each group, from the launch. -/
abbrev UA : Valuation τ sig (Elt Ideal) := StableHlo.after (opsA (F := Ideal)) (W0 m ρ c)
abbrev UB : Valuation τ sig (Elt Ideal) := StableHlo.after (opsB (F := Ideal)) (UA m ρ c)
abbrev UC : Valuation τ sig (Elt Ideal) := StableHlo.after (opsC (F := Ideal)) (UB m ρ c)
abbrev UD : Valuation τ sig (Elt Ideal) := StableHlo.after (opsD (F := Ideal)) (UC m ρ c)
abbrev UE : Valuation τ sig (Elt Ideal) := StableHlo.after (opsE (F := Ideal)) (UD m ρ c)
abbrev UG : Valuation τ sig (Elt Ideal) := StableHlo.after (opsG (F := Ideal)) (UE m ρ c)

/-- The contents at the first region's entry are the six groups run in order from the launch. -/
theorem W3_eq : W3 m ρ c = (UG m ρ c) := by
  show StableHlo.after hostOps0_2 (StableHlo.after hostOps0_1 (StableHlo.after hostOps0 (W0 m ρ c))) = _
  rw [ops0_split, ops0_1_eq, ops0_2_eq, after_append, after_append, after_append]

/-- At launch the two edge arguments hold what the caller passed. -/
theorem arg1_launch : W0 m ρ c (Proc.devRef .tc main_arg1) = m ((c.tc : Thread nD τ).loc main_arg1) := rfl
theorem arg2_launch : W0 m ρ c (Proc.devRef .tc main_arg2) = m ((c.tc : Thread nD τ).loc main_arg2) := rfl

theorem a3 : (UA m ρ c) (Proc.devRef .tc main_v3) = Cert.ReferenceIdeal.ReadP.val_main_v3 (F := Ideal) (m ((c.tc : Thread nD τ).loc main_arg1)) :=
  (groupA (W0 m ρ c)).trans (congrArg (Cert.ReferenceIdeal.ReadP.val_main_v3 (F := Ideal)) (arg1_launch m ρ c))

theorem b3 : (UB m ρ c) (Proc.devRef .tc main_v3) = Cert.ReferenceIdeal.ReadP.val_main_v3 (F := Ideal) (m ((c.tc : Thread nD τ).loc main_arg1)) :=
  (opsB_keep (UA m ρ c) main_v3 (by decide)).trans (a3 m ρ c)
theorem b7 : (UB m ρ c) (Proc.devRef .tc main_v7) = Cert.ReferenceIdeal.ReadP.val_main_v7 (F := Ideal) (m ((c.tc : Thread nD τ).loc main_arg1)) :=
  (groupB (UA m ρ c)).trans (congrArg (Cert.ReferenceIdeal.ReadP.val_main_v7 (F := Ideal))
    ((opsA_keep (W0 m ρ c) main_arg1 (by decide)).trans (arg1_launch m ρ c)))

theorem c3 : (UC m ρ c) (Proc.devRef .tc main_v3) = Cert.ReferenceIdeal.ReadP.val_main_v3 (F := Ideal) (m ((c.tc : Thread nD τ).loc main_arg1)) :=
  (opsC_keep (UB m ρ c) main_v3 (by decide)).trans (b3 m ρ c)
theorem c7 : (UC m ρ c) (Proc.devRef .tc main_v7) = Cert.ReferenceIdeal.ReadP.val_main_v7 (F := Ideal) (m ((c.tc : Thread nD τ).loc main_arg1)) :=
  (opsC_keep (UB m ρ c) main_v7 (by decide)).trans (b7 m ρ c)
theorem c9 : (UC m ρ c) (Proc.devRef .tc main_v9) = Cert.ReferenceIdeal.ReadP.val_main_v9 (F := Ideal) (m ((c.tc : Thread nD τ).loc main_arg2)) :=
  (groupC (UB m ρ c)).trans (congrArg (Cert.ReferenceIdeal.ReadP.val_main_v9 (F := Ideal))
    ((opsB_keep (UA m ρ c) main_arg2 (by decide)).trans
      ((opsA_keep (W0 m ρ c) main_arg2 (by decide)).trans (arg2_launch m ρ c))))

theorem d3 : (UD m ρ c) (Proc.devRef .tc main_v3) = Cert.ReferenceIdeal.ReadP.val_main_v3 (F := Ideal) (m ((c.tc : Thread nD τ).loc main_arg1)) :=
  (opsD_keep (UC m ρ c) main_v3 (by decide)).trans (c3 m ρ c)
theorem d7 : (UD m ρ c) (Proc.devRef .tc main_v7) = Cert.ReferenceIdeal.ReadP.val_main_v7 (F := Ideal) (m ((c.tc : Thread nD τ).loc main_arg1)) :=
  (opsD_keep (UC m ρ c) main_v7 (by decide)).trans (c7 m ρ c)
theorem d9 : (UD m ρ c) (Proc.devRef .tc main_v9) = Cert.ReferenceIdeal.ReadP.val_main_v9 (F := Ideal) (m ((c.tc : Thread nD τ).loc main_arg2)) :=
  (opsD_keep (UC m ρ c) main_v9 (by decide)).trans (c9 m ρ c)
theorem d14 : (UD m ρ c) (Proc.devRef .tc main_v14) = Cert.ReferenceIdeal.ReadP.val_main_v14 (F := Ideal) (m ((c.tc : Thread nD τ).loc main_arg1)) (m ((c.tc : Thread nD τ).loc main_arg2)) :=
  groupD_pos (UC m ρ c) _ _ (c7 m ρ c) (c9 m ρ c)
theorem d16 : (UD m ρ c) (Proc.devRef .tc main_v16) = Cert.ReferenceIdeal.ReadP.val_main_v16 (F := Ideal) (m ((c.tc : Thread nD τ).loc main_arg1)) (m ((c.tc : Thread nD τ).loc main_arg2)) :=
  groupD_pow (UC m ρ c) _ _ (c7 m ρ c) (c9 m ρ c)
theorem dz : (UD m ρ c) (Proc.devRef .tc main_cst_3) = Cert.ReferenceIdeal.ReadP.val_main_cst_3 (F := Ideal) :=
  groupD_zero (UC m ρ c)

theorem e3 : (UE m ρ c) (Proc.devRef .tc main_v3) = Cert.ReferenceIdeal.ReadP.val_main_v3 (F := Ideal) (m ((c.tc : Thread nD τ).loc main_arg1)) :=
  (opsE_keep (UD m ρ c) main_v3 (by decide)).trans (d3 m ρ c)
theorem e7 : (UE m ρ c) (Proc.devRef .tc main_v7) = Cert.ReferenceIdeal.ReadP.val_main_v7 (F := Ideal) (m ((c.tc : Thread nD τ).loc main_arg1)) :=
  (opsE_keep (UD m ρ c) main_v7 (by decide)).trans (d7 m ρ c)
theorem e9 : (UE m ρ c) (Proc.devRef .tc main_v9) = Cert.ReferenceIdeal.ReadP.val_main_v9 (F := Ideal) (m ((c.tc : Thread nD τ).loc main_arg2)) :=
  (opsE_keep (UD m ρ c) main_v9 (by decide)).trans (d9 m ρ c)
theorem e17 : (UE m ρ c) (Proc.devRef .tc main_v17) = Cert.ReferenceIdeal.ReadP.val_main_v17 (F := Ideal) (m ((c.tc : Thread nD τ).loc main_arg1)) (m ((c.tc : Thread nD τ).loc main_arg2)) :=
  groupE (UD m ρ c) _ _ (d14 m ρ c) (d16 m ρ c) (dz m ρ c)

/-- At the first region's entry the source endpoints are the reference's. -/
theorem src_eq : W3 m ρ c (Proc.devRef .tc main_v3) = Cert.ReferenceIdeal.ReadP.val_main_v3 (F := Ideal) (m ((c.tc : Thread nD τ).loc main_arg1)) :=
  (congrFun (W3_eq m ρ c) (Proc.devRef .tc main_v3)).trans
    ((opsG_keep (UE m ρ c) main_v3 (by decide)).trans (e3 m ρ c))

/-- At the first region's entry the destination endpoints are the reference's. -/
theorem dst_eq : W3 m ρ c (Proc.devRef .tc main_v7) = Cert.ReferenceIdeal.ReadP.val_main_v7 (F := Ideal) (m ((c.tc : Thread nD τ).loc main_arg1)) :=
  (congrFun (W3_eq m ρ c) (Proc.devRef .tc main_v7)).trans
    ((opsG_keep (UE m ρ c) main_v7 (by decide)).trans (e7 m ρ c))

/-- At the first region's entry the per-edge normalisation is the reference's. -/
theorem nrm_eq : W3 m ρ c (Proc.devRef .tc main_v33) = Cert.ReferenceIdeal.ReadP.val_main_v33 (F := Ideal) (m ((c.tc : Thread nD τ).loc main_arg1)) (m ((c.tc : Thread nD τ).loc main_arg2)) :=
  (congrFun (W3_eq m ρ c) (Proc.devRef .tc main_v33)).trans
    (groupG (UE m ρ c) _ _ (e3 m ρ c) (e7 m ρ c) (e9 m ρ c) (e17 m ρ c))

end Run

end Cert.KernelIdeal.Norm
end
-- ==== Proof.Propagate.lean ====
/-
  The propagation step of a graph-convolution layer, as one function of whole arrays.

  Given the edges' source and destination node numbers (the graph's edges followed by one self-loop per node),
  the edges' normalisation weights and the node features h, the step gathers row src(e) of h for every edge e
  (a negative number counted from the end of the node range), scales it by the edge's weight, and sums the scaled
  rows into row dst(e) of an array of zeros. Both programs spell this step with the same host operations; it is
  named here once, for 64 and for 40 feature columns, so that the two sides are compared as applications of one
  function and the gather and the scatter are never opened.
-/
import proofs.«112376_j764504179050_1_alg».proof.Proof.Gen.ReferenceIdeal
import Idealize.ShloMosaic.PureOps.Ideal

noncomputable section

namespace Cert.ReferenceIdeal.Propagate

open Cert.ReferenceIdeal Cert.ReferenceIdeal.Gen Idealize.ShloMosaic Idealize.ShloMosaic.TcCoe

/-- A node number read as a row: a negative number has the node count added. -/
def wrapIndex (src : (⟨S1700000, .i32⟩ : BufTy).Contents (Elt Ideal)) : (⟨S1700000, .i32⟩ : BufTy).Contents (Elt Ideal) :=
  select (cmpi .slt src (broadcastInDim S1700000 ![] bcast_S_S1700000 (constantI S_ 32 0#32)))
    (addi src (broadcastInDim S1700000 ![] bcast_S_S1700000 (constantI S_ 32 100000#32))) src

/-- Gather, scale, scatter-add: 64 feature columns. -/
def prop64 (src dst : (⟨S1700000, .i32⟩ : BufTy).Contents (Elt Ideal)) (nrm : (⟨S1700000, .f32⟩ : BufTy).Contents (Elt Ideal))
    (h : (⟨S100000x64, .f32⟩ : BufTy).Contents (Elt Ideal)) : (⟨S100000x64, .f32⟩ : BufTy).Contents (Elt Ideal) :=
  Host.scatterAdd scatter_S100000x64_S1700000x1_S1700000x64_1_0_0_1
    (broadcastInDim S100000x64 ![] bcast_S_S100000x64 (constant (F := Ideal) S_ .f32 0x00000000#32))
    (broadcastInDim S1700000x1 ![0] bcast_S1700000_S1700000x1_0 dst)
    (mulf
      (Host.gather gather_S100000x64_S1700000x1_S1700000x64_1_0_n_n_0_1_164 h
        (broadcastInDim S1700000x1 ![0] bcast_S1700000_S1700000x1_0 (wrapIndex src)))
      (broadcastInDim S1700000x64 ![0, 1] bcast_S1700000x1_S1700000x64_0_1
        (broadcastInDim S1700000x1 ![0] bcast_S1700000_S1700000x1_0 nrm)))

/-- Gather, scale, scatter-add: 40 feature columns. -/
def prop40 (src dst : (⟨S1700000, .i32⟩ : BufTy).Contents (Elt Ideal)) (nrm : (⟨S1700000, .f32⟩ : BufTy).Contents (Elt Ideal))
    (h : (⟨S100000x40, .f32⟩ : BufTy).Contents (Elt Ideal)) : (⟨S100000x40, .f32⟩ : BufTy).Contents (Elt Ideal) :=
  Host.scatterAdd scatter_S100000x40_S1700000x1_S1700000x40_1_0_0_1
    (broadcastInDim S100000x40 ![] bcast_S_S100000x40 (constant (F := Ideal) S_ .f32 0x00000000#32))
    (broadcastInDim S1700000x1 ![0] bcast_S1700000_S1700000x1_0 dst)
    (mulf
      (Host.gather gather_S100000x40_S1700000x1_S1700000x40_1_0_n_n_0_1_140 h
        (broadcastInDim S1700000x1 ![0] bcast_S1700000_S1700000x1_0 (wrapIndex src)))
      (broadcastInDim S1700000x40 ![0, 1] bcast_S1700000x1_S1700000x40_0_1
        (broadcastInDim S1700000x1 ![0] bcast_S1700000_S1700000x1_0 nrm)))

end Cert.ReferenceIdeal.Propagate

end
-- ==== Proof.Spec.lean ====
/-
  The layer functions of a three-layer graph convolution, index by index over the extended reals.

  A layer takes node features `h` (one row per node), multiplies each row by a weight matrix, propagates the
  rows along the weighted edges (a gather of source rows, a scaling by the edge's normalisation, a sum into the
  destination rows), adds a bias to every row and applies an activation: `max · 0` in the two hidden layers,
  the logarithm of the softmax over the row in the last one. The propagation is the same sequence of host
  operations in both programs and is never opened; what is stated here are the three pieces the two programs
  spell differently:
    • `dense x w`   — entry (r, c) is the sum over q of x(r, q) · w(q, c);
    • `biasRelu h b` — entry (r, c) is max (h(r, c) + b(c)) 0;
    • `biasLogSoftmax h b` — with g(r, c) = h(r, c) + b(c) and M(r) the maximum of row r of g, entry (r, c) is
      (g(r, c) − M(r)) − log (Σ_k exp (g(r, k) − M(r))).
  The float literals 0 and −∞ stay as their words: the same word stands on both sides and is never evaluated.
-/
import Idealize.ShloMosaic.PureOps.Ideal
import Idealize.ShloMosaic.PureOps.Ideal.Laws
import Idealize.ShloMosaic.Lib.ValueIdx
import Mathlib.Data.Finset.Fold

noncomputable section

namespace Cert.Gcn

open Idealize.ShloMosaic Idealize.ShloMosaic.ValueIdx

variable {n k b : Nat}

/-- Rows times a weight matrix: entry (r, c) is Σ_q x(r, q) · w(q, c). -/
def dense (x : FVec Ideal ⟨2, ![n, k]⟩ .f32) (w : FVec Ideal ⟨2, ![k, b]⟩ .f32) : FVec Ideal ⟨2, ![n, b]⟩ .f32 :=
  fun i => ∑ q : Fin k, x (ix2 (n0 := n) (n1 := k) (i 0) q) * w (ix2 (n0 := k) (n1 := b) q (i 1))

theorem dense_ix2 (x : FVec Ideal ⟨2, ![n, k]⟩ .f32) (w : FVec Ideal ⟨2, ![k, b]⟩ .f32) (r : Fin n) (c : Fin b) :
    dense x w (ix2 r c) = ∑ q : Fin k, x (ix2 r q) * w (ix2 q c) := rfl

/-- The one row of a `[1, b]` array, as a vector: entry c is the array's (0, c). -/
def row1 (v : FVec Ideal ⟨2, ![1, b]⟩ .f32) : FVec Ideal ⟨1, ![b]⟩ .f32 :=
  fun i => v (ix2 (n0 := 1) (n1 := b) (0 : Fin 1) (i 0))

theorem row1_ix1 (v : FVec Ideal ⟨2, ![1, b]⟩ .f32) (c : Fin b) : row1 v (ix1 c) = v (ix2 (0 : Fin 1) c) := rfl

/-- A bias added to every row: entry (r, c) is h(r, c) + bias(c). -/
def addBias (h : FVec Ideal ⟨2, ![n, b]⟩ .f32) (bias : FVec Ideal ⟨1, ![b]⟩ .f32) : FVec Ideal ⟨2, ![n, b]⟩ .f32 :=
  fun i => h i + bias (ix1 (n := b) (i 1))

theorem addBias_ix2 (h : FVec Ideal ⟨2, ![n, b]⟩ .f32) (bias : FVec Ideal ⟨1, ![b]⟩ .f32) (r : Fin n) (c : Fin b) :
    addBias h bias (ix2 r c) = h (ix2 r c) + bias (ix1 c) := rfl

/-- The hidden layers' activation after the bias: entry (r, c) is max (h(r, c) + bias(c)) 0. -/
def biasRelu (h : FVec Ideal ⟨2, ![n, b]⟩ .f32) (bias : FVec Ideal ⟨1, ![b]⟩ .f32) : FVec Ideal ⟨2, ![n, b]⟩ .f32 :=
  fun i => max (addBias h bias i) (Ideal.ofBits .f32 0x00000000#32)

theorem biasRelu_ix2 (h : FVec Ideal ⟨2, ![n, b]⟩ .f32) (bias : FVec Ideal ⟨1, ![b]⟩ .f32) (r : Fin n) (c : Fin b) :
    biasRelu h bias (ix2 r c) = max (h (ix2 r c) + bias (ix1 c)) (Ideal.ofBits .f32 0x00000000#32) := rfl

/-- The maximum of row r, folded from −∞ over the row's entries. -/
def rowMax (g : FVec Ideal ⟨2, ![n, b]⟩ .f32) (r : Fin n) : EReal :=
  (Finset.univ : Finset (Fin b)).fold max (Ideal.ofBits .f32 0xFF800000#32) (fun q => g (ix2 r q))

/-- Folding `max` from −∞ once more in front changes nothing: the fold already starts there. -/
theorem max_init_rowMax (g : FVec Ideal ⟨2, ![n, b]⟩ .f32) (r : Fin n) :
    max (Ideal.ofBits .f32 0xFF800000#32) (rowMax g r) = rowMax g r :=
  max_eq_right ((Finset.le_fold_max _).mpr (Or.inl le_rfl))

/-- The sum over row r of exp (g(r, q) − M(r)). -/
def rowExpSum (g : FVec Ideal ⟨2, ![n, b]⟩ .f32) (r : Fin n) : EReal :=
  ∑ q : Fin b, Ideal.exp (g (ix2 r q) - rowMax g r)

/-- The logarithm of the softmax over each row: entry (r, c) is (g(r, c) − M(r)) − log Σ_q exp (g(r, q) − M(r)). -/
def logSoftmax (g : FVec Ideal ⟨2, ![n, b]⟩ .f32) : FVec Ideal ⟨2, ![n, b]⟩ .f32 :=
  fun i => (g i - rowMax g (i 0)) - Ideal.log (rowExpSum g (i 0))

theorem logSoftmax_ix2 (g : FVec Ideal ⟨2, ![n, b]⟩ .f32) (r : Fin n) (c : Fin b) :
    logSoftmax g (ix2 r c) = (g (ix2 r c) - rowMax g r) - Ideal.log (rowExpSum g r) := rfl

/-- The last layer's activation after the bias. -/
def biasLogSoftmax (h : FVec Ideal ⟨2, ![n, b]⟩ .f32) (bias : FVec Ideal ⟨1, ![b]⟩ .f32) : FVec Ideal ⟨2, ![n, b]⟩ .f32 :=
  logSoftmax (addBias h bias)

end Cert.Gcn

end
-- ==== Proof.KernelWalk.lean ====
/-
  The idealized kernel's host stretches between its regions, and the buffers carried unchanged across segments.

  Between two regions a host stretch propagates the previous region's output along the edges (gather the source
  rows, scale by the edge's normalisation, sum into the destination rows) and lays the next bias out as one row.
  The edges' endpoints and normalisation are computed by the first three stretches and written by nothing after
  them; the weight and bias arguments are written by nothing at all: each is carried unchanged to the boundary
  where it is read (a region changes only its own three arrays; a host stretch changes only the buffers its
  operations write).
-/
import proofs.«112376_j764504179050_1_alg».proof.Proof.Gen.KernelIdeal.Frame
import proofs.«112376_j764504179050_1_alg».proof.Proof.Propagate
import proofs.«112376_j764504179050_1_alg».proof.Proof.Spec
import Idealize.ShloMosaic.Lib.StableHlo.Run
import Idealize.ShloMosaic.Lib.ValueLayout

set_option maxRecDepth 16384

noncomputable section

namespace Cert.KernelIdeal.Walk

open Cert.KernelIdeal Cert.KernelIdeal.Gen Idealize.ShloMosaic Idealize.ShloMosaic.TcCoe Idealize.SL.Sem
open Idealize.ShloMosaic.ValueIdx
open Cert.ReferenceIdeal.Propagate (prop64 prop40)

variable (m : (ℓ : Loc nD τ sig) → Buf (Elt Ideal) ℓ) (ρ : Dev nD → PrngReg)

/-- No operation of the stretch writes the buffer: each operation writes one named buffer, another one. -/
macro "not_written" : tactic => `(tactic| (
  refine List.forall_iff_forall_mem.mp ?_
  simp only [hostOps0, hostOps0_1, hostOps0_2, hostOps1, hostOps3, hostOps5, List.flatten_cons, List.flatten_nil, List.append_nil,
    List.cons_append, List.nil_append, List.Forall, StableHlo.nullary_writes, StableHlo.unary_writes, StableHlo.binary_writes,
    StableHlo.ternary_writes, StableHlo.quaternary_writes, StableHlo.reshape_writes, StableHlo.binaryIndexed_writes, Finset.mem_singleton]
  repeat' apply And.intro
  all_goals exact StableHlo.devRef_ne_of_ne (by decide)))

/-! ## What each host stretch between the regions computes, over any contents it starts from -/

set_option maxHeartbeats 4000000 in
/-- The stretch after region 0 propagates region 0's output along the edges … -/
theorem stretch1_features (V : Valuation τ sig (Elt Ideal)) :
    StableHlo.after (hostOps1 (F := Ideal)) V (Proc.devRef .tc main_v47)
      = prop64 (V (Proc.devRef .tc main_v3)) (V (Proc.devRef .tc main_v7)) (V (Proc.devRef .tc main_v33)) (V (Proc.devRef .tc main_v34)) := by
  after_results_simp
  rfl

set_option maxHeartbeats 4000000 in
/-- … and lays the first bias out as one row. -/
theorem stretch1_bias (V : Valuation τ sig (Elt Ideal)) :
    StableHlo.after (hostOps1 (F := Ideal)) V (Proc.devRef .tc main_v48)
      = shapeCast S1x64 (V (Proc.devRef .tc main_arg4)) shapeCasts_S64_S1x64 := by
  after_results_simp
  rfl

set_option maxHeartbeats 4000000 in
theorem stretch3_features (V : Valuation τ sig (Elt Ideal)) :
    StableHlo.after (hostOps3 (F := Ideal)) V (Proc.devRef .tc main_v63)
      = prop64 (V (Proc.devRef .tc main_v3)) (V (Proc.devRef .tc main_v7)) (V (Proc.devRef .tc main_v33)) (V (Proc.devRef .tc main_v50)) := by
  after_results_simp
  rfl

set_option maxHeartbeats 4000000 in
theorem stretch3_bias (V : Valuation τ sig (Elt Ideal)) :
    StableHlo.after (hostOps3 (F := Ideal)) V (Proc.devRef .tc main_v64)
      = shapeCast S1x64 (V (Proc.devRef .tc main_arg6)) shapeCasts_S64_S1x64 := by
  after_results_simp
  rfl

set_option maxHeartbeats 4000000 in
theorem stretch5_features (V : Valuation τ sig (Elt Ideal)) :
    StableHlo.after (hostOps5 (F := Ideal)) V (Proc.devRef .tc main_v79)
      = prop40 (V (Proc.devRef .tc main_v3)) (V (Proc.devRef .tc main_v7)) (V (Proc.devRef .tc main_v33)) (V (Proc.devRef .tc main_v66)) := by
  after_results_simp
  rfl

set_option maxHeartbeats 4000000 in
theorem stretch5_bias (V : Valuation τ sig (Elt Ideal)) :
    StableHlo.after (hostOps5 (F := Ideal)) V (Proc.devRef .tc main_v80)
      = shapeCast S1x40 (V (Proc.devRef .tc main_arg8)) shapeCasts_S40_S1x40 := by
  after_results_simp
  rfl

/-- A vector laid out as one row and read back as that row is the vector. -/
theorem row1_reshape {b : Nat} (x : FVec Ideal ⟨1, ![b]⟩ .f32) (h : (⟨1, ![b]⟩ : Shape).ShapeCasts ⟨2, ![1, b]⟩) :
    Cert.Gcn.row1 (shapeCast ⟨2, ![1, b]⟩ x h) = x := by
  funext i
  obtain ⟨q, rfl⟩ : ∃ q : Fin b, i = ix1 q := ⟨i 0, eq_ix1 i⟩
  rw [Cert.Gcn.row1_ix1]
  exact shapeCast_a_1a_apply x h 0 q

/-! ## Buffers carried unchanged from boundary to boundary -/

variable (c : Dev nD)

-- the launch arguments at the boundaries where they are read
theorem arg0_at3 : W3 m ρ c (Proc.devRef .tc main_arg0) = m ((c.tc : Thread nD τ).loc main_arg0) :=
  (StableHlo.after_of_forall_not_mem (b := Proc.devRef .tc main_arg0) _ _ (by not_written)).trans
    ((StableHlo.after_of_forall_not_mem (b := Proc.devRef .tc main_arg0) _ _ (by not_written)).trans
      (StableHlo.after_of_forall_not_mem (b := Proc.devRef .tc main_arg0) _ _ (by not_written)))
theorem arg3_at3 : W3 m ρ c (Proc.devRef .tc main_arg3) = m ((c.tc : Thread nD τ).loc main_arg3) :=
  (StableHlo.after_of_forall_not_mem (b := Proc.devRef .tc main_arg3) _ _ (by not_written)).trans
    ((StableHlo.after_of_forall_not_mem (b := Proc.devRef .tc main_arg3) _ _ (by not_written)).trans
      (StableHlo.after_of_forall_not_mem (b := Proc.devRef .tc main_arg3) _ _ (by not_written)))

/-- From region 0's entry back to the launch, for a buffer none of the first three stretches writes. -/
theorem at3_of (b : Ref sig .tc)
    (h0 : ∀ op ∈ (hostOps0 (F := Ideal)), Proc.devRef .tc b ∉ op.writes)
    (h1 : ∀ op ∈ (hostOps0_1 (F := Ideal)), Proc.devRef .tc b ∉ op.writes)
    (h2 : ∀ op ∈ (hostOps0_2 (F := Ideal)), Proc.devRef .tc b ∉ op.writes) :
    W3 m ρ c (Proc.devRef .tc b) = m ((c.tc : Thread nD τ).loc b) :=
  (StableHlo.after_of_forall_not_mem _ _ h2).trans ((StableHlo.after_of_forall_not_mem _ _ h1).trans (StableHlo.after_of_forall_not_mem _ _ h0))

/-- From region 1's entry back to region 0's entry. -/
theorem at5_of (b : Ref sig .tc) (hr : ∀ w, Pipeline.arrRef spec0 w ≠ b)
    (h : ∀ op ∈ (hostOps1 (F := Ideal)), Proc.devRef .tc b ∉ op.writes) :
    W5 m ρ c (Proc.devRef .tc b) = W3 m ρ c (Proc.devRef .tc b) :=
  (StableHlo.after_of_forall_not_mem _ _ h).trans (W4_of_ne m ρ c b hr)

/-- From region 3's entry back to region 1's entry. -/
theorem at8_of (b : Ref sig .tc) (hr1 : ∀ w, Pipeline.arrRef spec1 w ≠ b) (hr2 : ∀ w, Pipeline.arrRef spec2 w ≠ b)
    (h : ∀ op ∈ (hostOps3 (F := Ideal)), Proc.devRef .tc b ∉ op.writes) :
    W8 m ρ c (Proc.devRef .tc b) = W5 m ρ c (Proc.devRef .tc b) :=
  (StableHlo.after_of_forall_not_mem _ _ h).trans ((W7_of_ne m ρ c b hr2).trans (W6_of_ne m ρ c b hr1))

/-- From region 5's entry back to region 3's entry. -/
theorem at11_of (b : Ref sig .tc) (hr3 : ∀ w, Pipeline.arrRef spec3 w ≠ b) (hr4 : ∀ w, Pipeline.arrRef spec4 w ≠ b)
    (h : ∀ op ∈ (hostOps5 (F := Ideal)), Proc.devRef .tc b ∉ op.writes) :
    W11 m ρ c (Proc.devRef .tc b) = W8 m ρ c (Proc.devRef .tc b) :=
  (StableHlo.after_of_forall_not_mem _ _ h).trans ((W10_of_ne m ρ c b hr4).trans (W9_of_ne m ρ c b hr3))

end Cert.KernelIdeal.Walk

end
-- ==== Proof.Dense0.lean ====
/-
  The first dense transform of the kernel program, as one function of whole arrays.

  The region walks twenty points. At point t it loads rows 5000·t … 5000·t + 4999 of the node-feature array
  (100000 × 256) and the whole weight matrix (256 × 64), multiplies the block of rows by the matrix into a zero
  accumulator, and writes the 5000 × 64 product back as rows 5000·t … 5000·t + 4999 of the result. Over the
  extended reals the product of a block of rows is the same rows of the product of the whole array, and the
  twenty row blocks tile the result, so after the region the result array holds
  entry (r, c) = Σ_q x(r, q) · w(q, c) everywhere: the function `Cert.Gcn.dense` of the two arrays as the region
  finds them.
-/
import proofs.«112376_j764504179050_1_alg».proof.Proof.Gen.KernelIdeal.Frame
import proofs.«112376_j764504179050_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Dense0

open Cert.KernelIdeal Cert.KernelIdeal.Gen Idealize.ShloMosaic Idealize.ShloMosaic.TcCoe Idealize.SL.Sem Idealize.ShloMosaic.ValueIdx
open Idealize.ShloMosaic.Pipeline (Dat)

/-- The two zero offsets of a whole-block access, as the constant function. -/
theorem offsets_zero : (![0, 0] : Fin 2 → Nat) = fun _ => 0 := funext fun a => by fin_cases a <;> rfl

/-- A contraction of one axis, whose operand indices at the output entry (r, c) and contraction coordinate q are
    (r, q) on the left and (q, c) on the right, sums exactly the products that `dense` sums. -/
theorem sum_contr_eq_dense {n m b : Nat}
    (D : DotDims (⟨2, ![n, m]⟩ : Shape) (⟨2, ![m, b]⟩ : Shape) (⟨2, ![n, b]⟩ : Shape))
    (hr : D.contr.rank = 1) (hs : D.contr.size ⟨0, by omega⟩ = m)
    (l0 : ∀ (i : (⟨2, ![n, b]⟩ : Shape).Idx) (q : D.contr.Idx), (D.lhsIdx i q 0).val = (i 0).val)
    (l1 : ∀ (i : (⟨2, ![n, b]⟩ : Shape).Idx) (q : D.contr.Idx), (D.lhsIdx i q 1).val = (q ⟨0, by omega⟩).val)
    (r0 : ∀ (i : (⟨2, ![n, b]⟩ : Shape).Idx) (q : D.contr.Idx), (D.rhsIdx i q 0).val = (q ⟨0, by omega⟩).val)
    (r1 : ∀ (i : (⟨2, ![n, b]⟩ : Shape).Idx) (q : D.contr.Idx), (D.rhsIdx i q 1).val = (i 1).val)
    (l : FVec Ideal (⟨2, ![n, m]⟩ : Shape) .f32) (r : FVec Ideal (⟨2, ![m, b]⟩ : Shape) .f32)
    (i : (⟨2, ![n, b]⟩ : Shape).Idx) :
    ∑ q : D.contr.Idx, l (D.lhsIdx i q) * r (D.rhsIdx i q) = Cert.Gcn.dense l r i := by
  unfold Cert.Gcn.dense
  rw [← Equiv.sum_comp (contrEquiv1 D m hr hs).symm]
  refine Finset.sum_congr rfl fun q _ => ?_
  have hq := contrEquiv1_symm_val D m hr hs q
  have el : D.lhsIdx i ((contrEquiv1 D m hr hs).symm q) = ix2 (n0 := n) (n1 := m) (i 0) q :=
    funext fun a => Fin.ext (by
      match a with
      | ⟨0, _⟩ => exact l0 _ _
      | ⟨1, _⟩ => exact (l1 _ _).trans hq)
  have er : D.rhsIdx i ((contrEquiv1 D m hr hs).symm q) = ix2 (n0 := m) (n1 := b) q (i 1) :=
    funext fun a => Fin.ext (by
      match a with
      | ⟨0, _⟩ => exact (r0 _ _).trans hq
      | ⟨1, _⟩ => exact r1 _ _)
  rw [el, er]

/-- The block product's dimension numbers: the second axis of the left block against the first axis of the right one. -/
abbrev dims : DotDims S5000x256 S256x64 S5000x64 := dot_S5000x256_S256x64_S5000x64_1_0_0_1_n_n

/-! The operand indices of the block product, coordinate by coordinate. -/

theorem lhs_0 (i : S5000x64.Idx) (q : dims.contr.Idx) : (dims.lhsIdx i q 0).val = (i 0).val := by
  unfold DotDims.lhsIdx
  rw [dif_neg (show ¬(0 : Fin S5000x256.rank) ∈ dims.lhsBatch by decide), dif_pos (show (0 : Fin S5000x256.rank) ∈ dims.lhsNonContracting by decide)]
  rfl
theorem lhs_1 (i : S5000x64.Idx) (q : dims.contr.Idx) : (dims.lhsIdx i q 1).val = (q ⟨0, by decide⟩).val :=
  dims.lhsIdx_val_of_single rfl i q
theorem rhs_0 (i : S5000x64.Idx) (q : dims.contr.Idx) : (dims.rhsIdx i q 0).val = (q ⟨0, by decide⟩).val :=
  dims.rhsIdx_val_of_single rfl i q
theorem rhs_1 (i : S5000x64.Idx) (q : dims.contr.Idx) : (dims.rhsIdx i q 1).val = (i 1).val := by
  unfold DotDims.rhsIdx
  rw [dif_neg (show ¬(1 : Fin S256x64.rank) ∈ dims.rhsBatch by decide), dif_pos (show (1 : Fin S256x64.rank) ∈ dims.rhsNonContracting by decide)]
  rfl

/-- The body's arithmetic on its two loaded blocks: the narrowing of both operands is the identity over the extended
    reals and the accumulator starts at zero, so the block written is the block of rows times the weight matrix. -/
theorem pay_apply (x0 : Vec Ideal S5000x256 .f32) (x1 : Vec Ideal S256x64 .f32) (j : S5000x64.Idx) :
    k0_pay1 (F := Ideal) x0 x1 j = Cert.Gcn.dense x0 x1 j := by
  unfold k0_pay1
  refine (Ideal.matmul_constant_zero_apply dims none
    (truncf .bf16 x0 bitsLt_bf16_f32) (truncf .bf16 x1 bitsLt_bf16_f32) j).trans ?_
  exact sum_contr_eq_dense dims rfl rfl lhs_0 lhs_1 rhs_0 rhs_1 x0 x1 j

/-- One point of the grid. The left block is read off the node-feature array through `e0` (its rows shifted by
    `o`, its columns kept), the weight matrix through `e1` (nothing moved), and the block written lands through
    `e2` (rows shifted by the same `o`). Then the entry written is the entry of the whole product at its landing
    place: a row of the product only needs that row of the left operand. -/
theorem point_eq (A : FVec Ideal S100000x256 .f32) (W : FVec Ideal S256x64 .f32)
    (e0 : S5000x256.Idx → S100000x256.Idx) (e1 : S256x64.Idx → S256x64.Idx) (e2 : S5000x64.Idx → S100000x64.Idx) (o : Nat)
    (h00 : ∀ y, (e0 y 0).val = o + (y 0).val) (h01 : ∀ y, (e0 y 1).val = (y 1).val)
    (h10 : ∀ y, (e1 y 0).val = (y 0).val) (h11 : ∀ y, (e1 y 1).val = (y 1).val)
    (h20 : ∀ y, (e2 y 0).val = o + (y 0).val) (h21 : ∀ y, (e2 y 1).val = (y 1).val)
    (j : S5000x64.Idx) :
    k0_pay1 (F := Ideal) (fun y => A (e0 y)) (fun y => W (e1 y)) j = Cert.Gcn.dense A W (e2 j) := by
  refine (pay_apply (fun y => A (e0 y)) (fun y => W (e1 y)) j).trans ?_
  unfold Cert.Gcn.dense
  refine Finset.sum_congr rfl fun q _ => ?_
  have el : e0 (ix2 (n0 := 5000) (n1 := 256) (j 0) q) = ix2 (n0 := 100000) (n1 := 256) (e2 j 0) q :=
    funext fun a => Fin.ext (by
      match a with
      | ⟨0, _⟩ => exact (h00 _).trans (h20 j).symm
      | ⟨1, _⟩ => exact h01 _)
  have er : e1 (ix2 (n0 := 256) (n1 := 64) q (j 1)) = ix2 (n0 := 256) (n1 := 64) q (e2 j 1) :=
    funext fun a => Fin.ext (by
      match a with
      | ⟨0, _⟩ => exact h10 _
      | ⟨1, _⟩ => exact (h11 _).trans (h21 j).symm)
  show A (e0 _) * W (e1 _) = _
  rw [el, er]

/-- The printed index maps, decided once over the twenty points: the row blocks of the node features and of the
    result move with the point, their column block is the only one, and the weight matrix is one block. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- What point `t` writes back is block `t` of the whole product of the two arrays as the region finds them. -/
theorem flushed_eq (c : Dev nD) (t : Fin cfg0.N) :
    (dat0 (F := Ideal) V c).flushed 2 t
      = ((cfg0.win 2).blk t).view.read (Elt Ideal) (Cert.Gcn.dense (V c main_arg0) (V c main_arg3)) := by
  show (cfg0.win 2).cut (grid0.coords t) ((dat0 (F := Ideal) V c).after 2 t) = _
  rw [after0_2]
  unfold out0_2
  rw [View.canon_unit_zero offsets_zero]
  simp only [View.ld_unit_zero (S := S5000x256) offsets_zero, View.ld_unit_zero (S := S256x64) offsets_zero]
  obtain ⟨f00, f01, f10, f11, f20, f21⟩ := index_facts t
  funext j
  exact point_eq (V c main_arg0) (V c main_arg3)
    (fun y => ((cfg0.win 0).blk t).view.emb y) (fun y => ((cfg0.win 1).blk t).view.emb y)
    (fun y => ((cfg0.win 2).blk t).view.emb y) (t.val * 5000)
    (fun y => by show win0_0.index t (0 : Fin 2) * 5000 + 1 * (y 0).val = t.val * 5000 + (y 0).val; omega)
    (fun y => by show win0_0.index t (1 : Fin 2) * 256 + 1 * (y 1).val = (y 1).val; omega)
    (fun y => by show win0_1.index t (0 : Fin 2) * 256 + 1 * (y 0).val = (y 0).val; omega)
    (fun y => by show win0_1.index t (1 : Fin 2) * 64 + 1 * (y 1).val = (y 1).val; omega)
    (fun y => by show win0_2.index t (0 : Fin 2) * 5000 + 1 * (y 0).val = t.val * 5000 + (y 0).val; omega)
    (fun y => by show win0_2.index t (1 : Fin 2) * 64 + 1 * (y 1).val = (y 1).val; omega)
    j

/-- An index of the result array is in point `t`'s block iff each coordinate is in the block's range on its axis. -/
theorem mem_blk (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v34).slice (win0_2.rect t)).set ↔ _
  rw [View.set_slice_whole, Rect.mem_set_unit]
  exact Iff.rfl

/-- Every row r of the result lies in the block of point r / 5000, and every point writes its block back. -/
theorem cover (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 20 := N_0
  obtain ⟨t, ht⟩ : ∃ t : Fin cfg0.N, t.val = (i 0).val / 5000 := ⟨⟨(i 0).val / 5000, by omega⟩, rfl⟩
  obtain ⟨f00, f01, f10, f11, f20, f21⟩ := index_facts t
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

/-- The result array after the region: the node features times the weight matrix, whole. -/
theorem final (c : Dev nD) :
    (dat0 (F := Ideal) V c).arrAt 2 cfg0.N = Cert.Gcn.dense (V c main_arg0) (V c main_arg3) :=
  (dat0 (F := Ideal) V c).arrAt_eq_of_cover 2 _ (fun t _ => flushed_eq V c t) cover

end Cert.KernelIdeal.Dense0

end
-- ==== Proof.Dense2.lean ====
/-
  The second dense transform of the kernel program, as one function of whole arrays.

  The region walks twenty points. At point t it loads rows 5000·t … 5000·t + 4999 of the hidden features
  (100000 × 64) and the whole weight matrix (64 × 64), recasts the block to the shape it already has, multiplies
  the block of rows by the matrix into a zero accumulator, and writes the 5000 × 64 product back as the same
  rows of the result. Over the extended reals the product of a block of rows is the same rows of the product of
  the whole array, and the twenty row blocks tile the result, so after the region the result array holds
  entry (r, c) = Σ_q h(r, q) · w(q, c) everywhere: the function `Cert.Gcn.dense` of the two arrays as the region
  finds them.
-/
import proofs.«112376_j764504179050_1_alg».proof.Proof.Gen.KernelIdeal.Frame
import proofs.«112376_j764504179050_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Dense2

open Cert.KernelIdeal Cert.KernelIdeal.Gen Idealize.ShloMosaic Idealize.ShloMosaic.TcCoe Idealize.SL.Sem Idealize.ShloMosaic.ValueIdx
open Idealize.ShloMosaic.Pipeline (Dat)

/-- The two zero offsets of a whole-block access, as the constant function. -/
theorem offsets_zero : (![0, 0] : Fin 2 → Nat) = fun _ => 0 := funext fun a => by fin_cases a <;> rfl

/-- A contraction of one axis, whose operand indices at the output entry (r, c) and contraction coordinate q are
    (r, q) on the left and (q, c) on the right, sums exactly the products that `dense` sums. -/
theorem sum_contr_eq_dense {n m b : Nat}
    (D : DotDims (⟨2, ![n, m]⟩ : Shape) (⟨2, ![m, b]⟩ : Shape) (⟨2, ![n, b]⟩ : Shape))
    (hr : D.contr.rank = 1) (hs : D.contr.size ⟨0, by omega⟩ = m)
    (l0 : ∀ (i : (⟨2, ![n, b]⟩ : Shape).Idx) (q : D.contr.Idx), (D.lhsIdx i q 0).val = (i 0).val)
    (l1 : ∀ (i : (⟨2, ![n, b]⟩ : Shape).Idx) (q : D.contr.Idx), (D.lhsIdx i q 1).val = (q ⟨0, by omega⟩).val)
    (r0 : ∀ (i : (⟨2, ![n, b]⟩ : Shape).Idx) (q : D.contr.Idx), (D.rhsIdx i q 0).val = (q ⟨0, by omega⟩).val)
    (r1 : ∀ (i : (⟨2, ![n, b]⟩ : Shape).Idx) (q : D.contr.Idx), (D.rhsIdx i q 1).val = (i 1).val)
    (l : FVec Ideal (⟨2, ![n, m]⟩ : Shape) .f32) (r : FVec Ideal (⟨2, ![m, b]⟩ : Shape) .f32)
    (i : (⟨2, ![n, b]⟩ : Shape).Idx) :
    ∑ q : D.contr.Idx, l (D.lhsIdx i q) * r (D.rhsIdx i q) = Cert.Gcn.dense l r i := by
  unfold Cert.Gcn.dense
  rw [← Equiv.sum_comp (contrEquiv1 D m hr hs).symm]
  refine Finset.sum_congr rfl fun q _ => ?_
  have hq := contrEquiv1_symm_val D m hr hs q
  have el : D.lhsIdx i ((contrEquiv1 D m hr hs).symm q) = ix2 (n0 := n) (n1 := m) (i 0) q :=
    funext fun a => Fin.ext (by
      match a with
      | ⟨0, _⟩ => exact l0 _ _
      | ⟨1, _⟩ => exact (l1 _ _).trans hq)
  have er : D.rhsIdx i ((contrEquiv1 D m hr hs).symm q) = ix2 (n0 := m) (n1 := b) q (i 1) :=
    funext fun a => Fin.ext (by
      match a with
      | ⟨0, _⟩ => exact (r0 _ _).trans hq
      | ⟨1, _⟩ => exact r1 _ _)
  rw [el, er]

/-- The block product's dimension numbers: the second axis of the left block against the first axis of the right one. -/
abbrev dims : DotDims S5000x64 S64x64 S5000x64 := dot_S5000x64_S64x64_S5000x64_1_0_0_1_n_n

/-! The operand indices of the block product, coordinate by coordinate. -/

theorem lhs_0 (i : S5000x64.Idx) (q : dims.contr.Idx) : (dims.lhsIdx i q 0).val = (i 0).val := by
  unfold DotDims.lhsIdx
  rw [dif_neg (show ¬(0 : Fin S5000x64.rank) ∈ dims.lhsBatch by decide), dif_pos (show (0 : Fin S5000x64.rank) ∈ dims.lhsNonContracting by decide)]
  rfl
theorem lhs_1 (i : S5000x64.Idx) (q : dims.contr.Idx) : (dims.lhsIdx i q 1).val = (q ⟨0, by decide⟩).val :=
  dims.lhsIdx_val_of_single rfl i q
theorem rhs_0 (i : S5000x64.Idx) (q : dims.contr.Idx) : (dims.rhsIdx i q 0).val = (q ⟨0, by decide⟩).val :=
  dims.rhsIdx_val_of_single rfl i q
theorem rhs_1 (i : S5000x64.Idx) (q : dims.contr.Idx) : (dims.rhsIdx i q 1).val = (i 1).val := by
  unfold DotDims.rhsIdx
  rw [dif_neg (show ¬(1 : Fin S64x64.rank) ∈ dims.rhsBatch by decide), dif_pos (show (1 : Fin S64x64.rank) ∈ dims.rhsNonContracting by decide)]
  rfl

/-- The body's arithmetic on its two loaded blocks: the narrowing of both operands is the identity over the extended
    reals and the accumulator starts at zero, so the block written is the block of rows times the weight matrix. -/
theorem pay_apply (x0 : Vec Ideal S5000x64 .f32) (x1 : Vec Ideal S64x64 .f32) (j : S5000x64.Idx) :
    k2_pay1 (F := Ideal) x0 x1 j = Cert.Gcn.dense x0 x1 j := by
  unfold k2_pay1
  rw [show shapeCast S5000x64 x0 shapeCasts_S5000x64_S5000x64 = x0 from shapeCast_self x0 _]
  refine (Ideal.matmul_constant_zero_apply dims none
    (truncf .bf16 x0 bitsLt_bf16_f32) (truncf .bf16 x1 bitsLt_bf16_f32) j).trans ?_
  exact sum_contr_eq_dense dims rfl rfl lhs_0 lhs_1 rhs_0 rhs_1 x0 x1 j

/-- One point of the grid. The left block is read off the node-feature array through `e0` (its rows shifted by
    `o`, its columns kept), the weight matrix through `e1` (nothing moved), and the block written lands through
    `e2` (rows shifted by the same `o`). Then the entry written is the entry of the whole product at its landing
    place: a row of the product only needs that row of the left operand. -/
theorem point_eq (A : FVec Ideal S100000x64 .f32) (W : FVec Ideal S64x64 .f32)
    (e0 : S5000x64.Idx → S100000x64.Idx) (e1 : S64x64.Idx → S64x64.Idx) (e2 : S5000x64.Idx → S100000x64.Idx) (o : Nat)
    (h00 : ∀ y, (e0 y 0).val = o + (y 0).val) (h01 : ∀ y, (e0 y 1).val = (y 1).val)
    (h10 : ∀ y, (e1 y 0).val = (y 0).val) (h11 : ∀ y, (e1 y 1).val = (y 1).val)
    (h20 : ∀ y, (e2 y 0).val = o + (y 0).val) (h21 : ∀ y, (e2 y 1).val = (y 1).val)
    (j : S5000x64.Idx) :
    k2_pay1 (F := Ideal) (fun y => A (e0 y)) (fun y => W (e1 y)) j = Cert.Gcn.dense A W (e2 j) := by
  refine (pay_apply (fun y => A (e0 y)) (fun y => W (e1 y)) j).trans ?_
  unfold Cert.Gcn.dense
  refine Finset.sum_congr rfl fun q _ => ?_
  have el : e0 (ix2 (n0 := 5000) (n1 := 64) (j 0) q) = ix2 (n0 := 100000) (n1 := 64) (e2 j 0) q :=
    funext fun a => Fin.ext (by
      match a with
      | ⟨0, _⟩ => exact (h00 _).trans (h20 j).symm
      | ⟨1, _⟩ => exact h01 _)
  have er : e1 (ix2 (n0 := 64) (n1 := 64) q (j 1)) = ix2 (n0 := 64) (n1 := 64) q (e2 j 1) :=
    funext fun a => Fin.ext (by
      match a with
      | ⟨0, _⟩ => exact h10 _
      | ⟨1, _⟩ => exact (h11 _).trans (h21 j).symm)
  show A (e0 _) * W (e1 _) = _
  rw [el, er]

/-- The printed index maps, decided once over the twenty points: the row blocks of the node features and of the
    result move with the point, their column block is the only one, and the weight matrix is one block. -/
theorem index_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

variable (V : (c : Dev nD) → (b : Ref sig .tc) → Buf (Elt Ideal) ((c : Thread nD τ).loc b))

/-- What point `t` writes back is block `t` of the whole product of the two arrays as the region finds them. -/
theorem flushed_eq (c : Dev nD) (t : Fin cfg2.N) :
    (dat2 (F := Ideal) V c).flushed 2 t
      = ((cfg2.win 2).blk t).view.read (Elt Ideal) (Cert.Gcn.dense (V c main_v49) (V c main_arg5)) := by
  show (cfg2.win 2).cut (grid2.coords t) ((dat2 (F := Ideal) V c).after 2 t) = _
  rw [after2_2]
  unfold out2_2
  rw [View.canon_unit_zero offsets_zero]
  simp only [View.ld_unit_zero (S := S5000x64) offsets_zero, View.ld_unit_zero (S := S64x64) offsets_zero]
  obtain ⟨f00, f01, f10, f11, f20, f21⟩ := index_facts t
  funext j
  exact point_eq (V c main_v49) (V c main_arg5)
    (fun y => ((cfg2.win 0).blk t).view.emb y) (fun y => ((cfg2.win 1).blk t).view.emb y)
    (fun y => ((cfg2.win 2).blk t).view.emb y) (t.val * 5000)
    (fun y => by show win2_0.index t (0 : Fin 2) * 5000 + 1 * (y 0).val = t.val * 5000 + (y 0).val; omega)
    (fun y => by show win2_0.index t (1 : Fin 2) * 64 + 1 * (y 1).val = (y 1).val; omega)
    (fun y => by show win2_1.index t (0 : Fin 2) * 64 + 1 * (y 0).val = (y 0).val; omega)
    (fun y => by show win2_1.index t (1 : Fin 2) * 64 + 1 * (y 1).val = (y 1).val; omega)
    (fun y => by show win2_2.index t (0 : Fin 2) * 5000 + 1 * (y 0).val = t.val * 5000 + (y 0).val; omega)
    (fun y => by show win2_2.index t (1 : Fin 2) * 64 + 1 * (y 1).val = (y 1).val; omega)
    j

/-- An index of the result array is in point `t`'s block iff each coordinate is in the block's range on its axis. -/
theorem mem_blk (t : Fin cfg2.N) (i : S100000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v50).slice (win2_2.rect t)).set ↔ _
  rw [View.set_slice_whole, Rect.mem_set_unit]
  exact Iff.rfl

/-- Every row r of the result lies in the block of point r / 5000, and every point writes its block back. -/
theorem cover (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  have hN : cfg2.N = 20 := N_2
  obtain ⟨t, ht⟩ : ∃ t : Fin cfg2.N, t.val = (i 0).val / 5000 := ⟨⟨(i 0).val / 5000, by omega⟩, rfl⟩
  obtain ⟨f00, f01, f10, f11, f20, f21⟩ := index_facts t
  refine ⟨t, flush2_2 t, ?_⟩
  rw [mem_blk]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 64 ≤ (i 1).val ∧ (i 1).val < win2_2.index t (1 : Fin 2) * 64 + 64; omega

/-- The result array after the region: the node features times the weight matrix, whole. -/
theorem final (c : Dev nD) :
    (dat2 (F := Ideal) V c).arrAt 2 cfg2.N = Cert.Gcn.dense (V c main_v49) (V c main_arg5) :=
  (dat2 (F := Ideal) V c).arrAt_eq_of_cover 2 _ (fun t _ => flushed_eq V c t) cover

end Cert.KernelIdeal.Dense2

end
-- ==== Proof.Dense4.lean ====
/-
  The third dense transform of the kernel program, as one function of whole arrays.

  The region walks twenty points. At point t it loads rows 5000·t … 5000·t + 4999 of the hidden features
  (100000 × 64) and the whole weight matrix (64 × 40, one column per class), recasts the block to the shape it
  already has, multiplies the block of rows by the matrix into a zero accumulator, and writes the 5000 × 40
  product back as the same rows of the result. Over the extended reals the product of a block of rows is the
  same rows of the product of the whole array, and the twenty row blocks tile the result, so after the region
  the result array holds entry (r, c) = Σ_q h(r, q) · w(q, c) everywhere: the function `Cert.Gcn.dense` of the two
  arrays as the region finds them.
-/
import proofs.«112376_j764504179050_1_alg».proof.Proof.Gen.KernelIdeal.Frame
import proofs.«112376_j764504179050_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Dense4

open Cert.KernelIdeal Cert.KernelIdeal.Gen Idealize.ShloMosaic Idealize.ShloMosaic.TcCoe Idealize.SL.Sem Idealize.ShloMosaic.ValueIdx
open Idealize.ShloMosaic.Pipeline (Dat)

/-- The two zero offsets of a whole-block access, as the constant function. -/
theorem offsets_zero : (![0, 0] : Fin 2 → Nat) = fun _ => 0 := funext fun a => by fin_cases a <;> rfl

/-- A contraction of one axis, whose operand indices at the output entry (r, c) and contraction coordinate q are
    (r, q) on the left and (q, c) on the right, sums exactly the products that `dense` sums. -/
theorem sum_contr_eq_dense {n m b : Nat}
    (D : DotDims (⟨2, ![n, m]⟩ : Shape) (⟨2, ![m, b]⟩ : Shape) (⟨2, ![n, b]⟩ : Shape))
    (hr : D.contr.rank = 1) (hs : D.contr.size ⟨0, by omega⟩ = m)
    (l0 : ∀ (i : (⟨2, ![n, b]⟩ : Shape).Idx) (q : D.contr.Idx), (D.lhsIdx i q 0).val = (i 0).val)
    (l1 : ∀ (i : (⟨2, ![n, b]⟩ : Shape).Idx) (q : D.contr.Idx), (D.lhsIdx i q 1).val = (q ⟨0, by omega⟩).val)
    (r0 : ∀ (i : (⟨2, ![n, b]⟩ : Shape).Idx) (q : D.contr.Idx), (D.rhsIdx i q 0).val = (q ⟨0, by omega⟩).val)
    (r1 : ∀ (i : (⟨2, ![n, b]⟩ : Shape).Idx) (q : D.contr.Idx), (D.rhsIdx i q 1).val = (i 1).val)
    (l : FVec Ideal (⟨2, ![n, m]⟩ : Shape) .f32) (r : FVec Ideal (⟨2, ![m, b]⟩ : Shape) .f32)
    (i : (⟨2, ![n, b]⟩ : Shape).Idx) :
    ∑ q : D.contr.Idx, l (D.lhsIdx i q) * r (D.rhsIdx i q) = Cert.Gcn.dense l r i := by
  unfold Cert.Gcn.dense
  rw [← Equiv.sum_comp (contrEquiv1 D m hr hs).symm]
  refine Finset.sum_congr rfl fun q _ => ?_
  have hq := contrEquiv1_symm_val D m hr hs q
  have el : D.lhsIdx i ((contrEquiv1 D m hr hs).symm q) = ix2 (n0 := n) (n1 := m) (i 0) q :=
    funext fun a => Fin.ext (by
      match a with
      | ⟨0, _⟩ => exact l0 _ _
      | ⟨1, _⟩ => exact (l1 _ _).trans hq)
  have er : D.rhsIdx i ((contrEquiv1 D m hr hs).symm q) = ix2 (n0 := m) (n1 := b) q (i 1) :=
    funext fun a => Fin.ext (by
      match a with
      | ⟨0, _⟩ => exact (r0 _ _).trans hq
      | ⟨1, _⟩ => exact r1 _ _)
  rw [el, er]

/-- The block product's dimension numbers: the second axis of the left block against the first axis of the right one. -/
abbrev dims : DotDims S5000x64 S64x40 S5000x40 := dot_S5000x64_S64x40_S5000x40_1_0_0_1_n_n

/-! The operand indices of the block product, coordinate by coordinate. -/

theorem lhs_0 (i : S5000x40.Idx) (q : dims.contr.Idx) : (dims.lhsIdx i q 0).val = (i 0).val := by
  unfold DotDims.lhsIdx
  rw [dif_neg (show ¬(0 : Fin S5000x64.rank) ∈ dims.lhsBatch by decide), dif_pos (show (0 : Fin S5000x64.rank) ∈ dims.lhsNonContracting by decide)]
  rfl
theorem lhs_1 (i : S5000x40.Idx) (q : dims.contr.Idx) : (dims.lhsIdx i q 1).val = (q ⟨0, by decide⟩).val :=
  dims.lhsIdx_val_of_single rfl i q
theorem rhs_0 (i : S5000x40.Idx) (q : dims.contr.Idx) : (dims.rhsIdx i q 0).val = (q ⟨0, by decide⟩).val :=
  dims.rhsIdx_val_of_single rfl i q
theorem rhs_1 (i : S5000x40.Idx) (q : dims.contr.Idx) : (dims.rhsIdx i q 1).val = (i 1).val := by
  unfold DotDims.rhsIdx
  rw [dif_neg (show ¬(1 : Fin S64x40.rank) ∈ dims.rhsBatch by decide), dif_pos (show (1 : Fin S64x40.rank) ∈ dims.rhsNonContracting by decide)]
  rfl

/-- The body's arithmetic on its two loaded blocks: the narrowing of both operands is the identity over the extended
    reals and the accumulator starts at zero, so the block written is the block of rows times the weight matrix. -/
theorem pay_apply (x0 : Vec Ideal S5000x64 .f32) (x1 : Vec Ideal S64x40 .f32) (j : S5000x40.Idx) :
    k4_pay1 (F := Ideal) x0 x1 j = Cert.Gcn.dense x0 x1 j := by
  unfold k4_pay1
  rw [show shapeCast S5000x64 x0 shapeCasts_S5000x64_S5000x64 = x0 from shapeCast_self x0 _]
  refine (Ideal.matmul_constant_zero_apply dims none
    (truncf .bf16 x0 bitsLt_bf16_f32) (truncf .bf16 x1 bitsLt_bf16_f32) j).trans ?_
  exact sum_contr_eq_dense dims rfl rfl lhs_0 lhs_1 rhs_0 rhs_1 x0 x1 j

/-- One point of the grid. The left block is read off the node-feature array through `e0` (its rows shifted by
    `o`, its columns kept), the weight matrix through `e1` (nothing moved), and the block written lands through
    `e2` (rows shifted by the same `o`). Then the entry written is the entry of the whole product at its landing
    place: a row of the product only needs that row of the left operand. -/
theorem point_eq (A : FVec Ideal S100000x64 .f32) (W : FVec Ideal S64x40 .f32)
    (e0 : S5000x64.Idx → S100000x64.Idx) (e1 : S64x40.Idx → S64x40.Idx) (e2 : S5000x40.Idx → S100000x40.Idx) (o : Nat)
    (h00 : ∀ y, (e0 y 0).val = o + (y 0).val) (h01 : ∀ y, (e0 y 1).val = (y 1).val)
    (h10 : ∀ y, (e1 y 0).val = (y 0).val) (h11 : ∀ y, (e1 y 1).val = (y 1).val)
    (h20 : ∀ y, (e2 y 0).val = o + (y 0).val) (h21 : ∀ y, (e2 y 1).val = (y 1).val)
    (j : S5000x40.Idx) :
    k4_pay1 (F := Ideal) (fun y => A (e0 y)) (fun y => W (e1 y)) j = Cert.Gcn.dense A W (e2 j) := by
  refine (pay_apply (fun y => A (e0 y)) (fun y => W (e1 y)) j).trans ?_
  unfold Cert.Gcn.dense
  refine Finset.sum_congr rfl fun q _ => ?_
  have el : e0 (ix2 (n0 := 5000) (n1 := 64) (j 0) q) = ix2 (n0 := 100000) (n1 := 64) (e2 j 0) q :=
    funext fun a => Fin.ext (by
      match a with
      | ⟨0, _⟩ => exact (h00 _).trans (h20 j).symm
      | ⟨1, _⟩ => exact h01 _)
  have er : e1 (ix2 (n0 := 64) (n1 := 40) q (j 1)) = ix2 (n0 := 64) (n1 := 40) q (e2 j 1) :=
    funext fun a => Fin.ext (by
      match a with
      | ⟨0, _⟩ => exact h10 _
      | ⟨1, _⟩ => exact (h11 _).trans (h21 j).symm)
  show A (e0 _) * W (e1 _) = _
  rw [el, er]

/-- The printed index maps, decided once over the twenty points: the row blocks of the node features and of the
    result move with the point, their column block is the only one, and the weight matrix is one block. -/
theorem index_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

variable (V : (c : Dev nD) → (b : Ref sig .tc) → Buf (Elt Ideal) ((c : Thread nD τ).loc b))

/-- What point `t` writes back is block `t` of the whole product of the two arrays as the region finds them. -/
theorem flushed_eq (c : Dev nD) (t : Fin cfg4.N) :
    (dat4 (F := Ideal) V c).flushed 2 t
      = ((cfg4.win 2).blk t).view.read (Elt Ideal) (Cert.Gcn.dense (V c main_v65) (V c main_arg7)) := by
  show (cfg4.win 2).cut (grid4.coords t) ((dat4 (F := Ideal) V c).after 2 t) = _
  rw [after4_2]
  unfold out4_2
  rw [View.canon_unit_zero offsets_zero]
  simp only [View.ld_unit_zero (S := S5000x64) offsets_zero, View.ld_unit_zero (S := S64x40) offsets_zero]
  obtain ⟨f00, f01, f10, f11, f20, f21⟩ := index_facts t
  funext j
  exact point_eq (V c main_v65) (V c main_arg7)
    (fun y => ((cfg4.win 0).blk t).view.emb y) (fun y => ((cfg4.win 1).blk t).view.emb y)
    (fun y => ((cfg4.win 2).blk t).view.emb y) (t.val * 5000)
    (fun y => by show win4_0.index t (0 : Fin 2) * 5000 + 1 * (y 0).val = t.val * 5000 + (y 0).val; omega)
    (fun y => by show win4_0.index t (1 : Fin 2) * 64 + 1 * (y 1).val = (y 1).val; omega)
    (fun y => by show win4_1.index t (0 : Fin 2) * 64 + 1 * (y 0).val = (y 0).val; omega)
    (fun y => by show win4_1.index t (1 : Fin 2) * 40 + 1 * (y 1).val = (y 1).val; omega)
    (fun y => by show win4_2.index t (0 : Fin 2) * 5000 + 1 * (y 0).val = t.val * 5000 + (y 0).val; omega)
    (fun y => by show win4_2.index t (1 : Fin 2) * 40 + 1 * (y 1).val = (y 1).val; omega)
    j

/-- An index of the result array is in point `t`'s block iff each coordinate is in the block's range on its axis. -/
theorem mem_blk (t : Fin cfg4.N) (i : S100000x40.Idx) :
    i ∈ ((cfg4.win 2).blk t).view.set ↔ ∀ a : Fin 2, win4_2.index t a * S5000x40.size a ≤ (i a).val ∧ (i a).val < win4_2.index t a * S5000x40.size a + S5000x40.size a := by
  show i ∈ ((View.whole main_v66).slice (win4_2.rect t)).set ↔ _
  rw [View.set_slice_whole, Rect.mem_set_unit]
  exact Iff.rfl

/-- Every row r of the result lies in the block of point r / 5000, and every point writes its block back. -/
theorem cover (i : S100000x40.Idx) :
    ∃ t : Fin cfg4.N, (cfg4.win 2).flush t = true ∧ i ∈ ((cfg4.win 2).blk t).view.set := by
  have hi0 : (i 0).val < 100000 := (i 0).isLt
  have hi1 : (i 1).val < 40 := (i 1).isLt
  have hN : cfg4.N = 20 := N_4
  obtain ⟨t, ht⟩ : ∃ t : Fin cfg4.N, t.val = (i 0).val / 5000 := ⟨⟨(i 0).val / 5000, by omega⟩, rfl⟩
  obtain ⟨f00, f01, f10, f11, f20, f21⟩ := index_facts t
  refine ⟨t, flush4_2 t, ?_⟩
  rw [mem_blk]
  intro a
  match a with
  | ⟨0, _⟩ => show win4_2.index t (0 : Fin 2) * 5000 ≤ (i 0).val ∧ (i 0).val < win4_2.index t (0 : Fin 2) * 5000 + 5000; omega
  | ⟨1, _⟩ => show win4_2.index t (1 : Fin 2) * 40 ≤ (i 1).val ∧ (i 1).val < win4_2.index t (1 : Fin 2) * 40 + 40; omega

/-- The result array after the region: the node features times the weight matrix, whole. -/
theorem final (c : Dev nD) :
    (dat4 (F := Ideal) V c).arrAt 2 cfg4.N = Cert.Gcn.dense (V c main_v65) (V c main_arg7) :=
  (dat4 (F := Ideal) V c).arrAt_eq_of_cover 2 _ (fun t _ => flushed_eq V c t) cover

end Cert.KernelIdeal.Dense4

end
-- ==== Proof.Relu1.lean ====
/-
  The first hidden layer's bias and activation as one function of whole arrays.

  The region walks the 100000 rows in 20 blocks of 5000. At a point t its body reads rows 5000·t … 5000·t + 4999 of
  the aggregated features and the one row of the bias, adds the bias to every row and takes the maximum with
  zero, and writes the block back to the same rows of the output. An entry (r, c) of the result depends only on
  entry (r, c) of the features and entry c of the bias, so block t of the array function `biasRelu` is that function
  of block t; the 20 blocks tile the rows; hence after the region the output array is `biasRelu` of the two
  arrays as the region found them.
-/
import proofs.«112376_j764504179050_1_alg».proof.Proof.Gen.KernelIdeal.Frame
import proofs.«112376_j764504179050_1_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.Relu1

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

theorem zero_offsets : (![0, 0] : Fin 2 → Nat) = fun _ => 0 := funext fun a => by fin_cases a <;> rfl

/-- The body's arithmetic at (p, q): the block's entry plus the bias row's entry q, then the maximum with zero. -/
theorem pay_ix2 (x0 : Vec Ideal S5000x64 .f32) (x1 : Vec Ideal S1x64 .f32) (p : Fin 5000) (q : Fin 64) :
    k1_pay1 (F := Ideal) x0 x1 (ix2 p q)
      = max (x0 (ix2 p q) + x1 (ix2 (0 : Fin 1) q)) (Ideal.ofBits .f32 0x00000000#32) := by
  have e0 : shapeCast S5000x64 x0 shapeCasts_S5000x64_S5000x64 = x0 := shapeCast_self x0 _
  have e1 : shapeCast S1x64 x1 shapeCasts_S1x64_S1x64 = x1 := shapeCast_self x1 _
  have eb : broadcastTo S5000x64 x1 broadcasts_S1x64_S5000x64 (ix2 p q) = x1 (ix2 (0 : Fin 1) q) :=
    broadcastTo_1b_ab_apply x1 broadcasts_S1x64_S5000x64 p q
  unfold k1_pay1
  rw [e0, e1]
  show max (x0 (ix2 p q) + broadcastTo S5000x64 x1 broadcasts_S1x64_S5000x64 (ix2 p q)) _ = _
  rw [eb]
  rfl

/-- The same against the array function: if the block x0 holds rows 5000·tv … of A0 and x1 the one row of A1, the
    body's value at the block index y is `biasRelu` at the array index i of the same row and column. -/
theorem point (A0 : FVec Ideal ⟨2, ![100000, 64]⟩ .f32) (A1 : FVec Ideal ⟨2, ![1, 64]⟩ .f32)
    (x0 : Vec Ideal S5000x64 .f32) (x1 : Vec Ideal S1x64 .f32) (tv : Nat)
    (h0 : ∀ (p : Fin 5000) (q : Fin 64) (r : Fin 100000), r.val = tv * 5000 + p.val → x0 (ix2 p q) = A0 (ix2 r q))
    (h1 : ∀ q : Fin 64, x1 (ix2 (0 : Fin 1) q) = A1 (ix2 (0 : Fin 1) q))
    (y : S5000x64.Idx) (i : S100000x64.Idx) (hi0 : (i 0).val = tv * 5000 + (y 0).val) (hi1 : (i 1).val = (y 1).val) :
    k1_pay1 (F := Ideal) x0 x1 y = Cert.Gcn.biasRelu A0 (Cert.Gcn.row1 A1) i := by
  obtain ⟨p, q, rfl⟩ : ∃ (p : Fin 5000) (q : Fin 64), y = ix2 p q := ⟨y 0, y 1, eq_ix2 y⟩
  obtain ⟨r, c, rfl⟩ : ∃ (r : Fin 100000) (c : Fin 64), i = ix2 r c := ⟨i 0, i 1, eq_ix2 i⟩
  have hc : c = q := Fin.ext hi1
  subst hc
  rw [pay_ix2, Cert.Gcn.biasRelu_ix2, Cert.Gcn.row1_ix1, h0 p c r hi0, h1 c]

/-- The printed index maps over the grid: windows 0 and 2 sit at block t along the rows, window 1 is one fixed block. -/
theorem index_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Window 0's block at point t is rows 5000·t … of the features as the region finds them. -/
theorem block0 (c : Dev nD) (t : Fin cfg1.N) (p : Fin 5000) (q : Fin 64) (r : Fin 100000) (hr : r.val = t.val * 5000 + p.val) :
    iblk1 V c 0 t (ix2 p q) = V c main_v47 (ix2 r q) := by
  obtain ⟨e0, e1, -⟩ := index_facts t
  show V c main_v47 (((cfg1.win 0).blk t).view.emb (ix2 p q)) = V c main_v47 (ix2 r q)
  refine congrArg _ (funext fun a => Fin.ext ?_)
  match a with
  | ⟨0, _⟩ => show win1_0.index t (0 : Fin 2) * 5000 + 1 * p.val = r.val; omega
  | ⟨1, _⟩ => show win1_0.index t (1 : Fin 2) * 64 + 1 * q.val = q.val; omega

/-- Window 1's block at every point is the whole one-row bias array. -/
theorem block1 (c : Dev nD) (t : Fin cfg1.N) (q : Fin 64) :
    iblk1 V c 1 t (ix2 (0 : Fin 1) q) = V c main_v48 (ix2 (0 : Fin 1) q) := by
  obtain ⟨-, -, e2, e3, -⟩ := index_facts t
  show V c main_v48 (((cfg1.win 1).blk t).view.emb (ix2 (0 : Fin 1) q)) = V c main_v48 (ix2 (0 : Fin 1) q)
  refine congrArg _ (funext fun a => Fin.ext ?_)
  match a with
  | ⟨0, _⟩ => show win1_1.index t (0 : Fin 2) * 1 + 1 * 0 = 0; omega
  | ⟨1, _⟩ => show win1_1.index t (1 : Fin 2) * 64 + 1 * q.val = q.val; omega

/-- What point t writes back is block t of `biasRelu` of the two arrays as the region finds them. -/
theorem flushed_eq (c : Dev nD) (t : Fin cfg1.N) :
    (dat1 V c).flushed 2 t
      = ((cfg1.win 2).blk t).view.read (Elt Ideal) (Cert.Gcn.biasRelu (V c main_v47) (Cert.Gcn.row1 (V c main_v48))) := by
  show (cfg1.win 2).cut (grid1.coords t) ((dat1 V c).after 2 t) = _
  rw [after1_2]
  unfold out1_2
  rw [View.canon_unit_zero zero_offsets]
  simp only [View.ld_unit_zero (S := S5000x64) zero_offsets, View.ld_unit_zero (S := S1x64) zero_offsets]
  obtain ⟨-, -, -, -, e4, e5⟩ := index_facts t
  funext j
  exact point (V c main_v47) (V c main_v48) (iblk1 V c 0 t) (iblk1 V c 1 t) t.val
    (fun p q r hr => block0 V c t p q r hr) (fun q => block1 V c t q) j (((cfg1.win 2).blk t).view.emb j)
    (by show win1_2.index t (0 : Fin 2) * 5000 + 1 * (j 0).val = t.val * 5000 + (j 0).val; omega)
    (by show win1_2.index t (1 : Fin 2) * 64 + 1 * (j 1).val = (j 1).val; omega)

/-- An index of the output array is in point t's block iff each coordinate is in the block's range on its axis. -/
theorem mem_block (t : Fin cfg1.N) (i : S100000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v49).slice (win1_2.rect t)).set ↔ _
  rw [View.set_slice_whole, Rect.mem_set_unit]
  exact Iff.rfl

/-- Every index of the output array is in some point's block: row r is in the block of point r / 5000. -/
theorem cover (i : S100000x64.Idx) : ∃ t : Fin cfg1.N, (cfg1.win 2).flush t = true ∧ i ∈ ((cfg1.win 2).blk t).view.set := by
  have hi0 : (i 0).val < 100000 := (i 0).isLt
  have hi1 : (i 1).val < 64 := (i 1).isLt
  have hN : grid1.N = 20 := N_1
  have ht : (i 0).val / 5000 < cfg1.N := by show (i 0).val / 5000 < grid1.N; omega
  refine ⟨⟨(i 0).val / 5000, ht⟩, flush1_2 _, ?_⟩
  rw [mem_block]
  obtain ⟨-, -, -, -, e4, e5⟩ := index_facts ⟨(i 0).val / 5000, ht⟩
  have e4' : win1_2.index ⟨(i 0).val / 5000, ht⟩ (0 : Fin 2) = (i 0).val / 5000 := e4
  intro a
  match a with
  | ⟨0, _⟩ =>
    show win1_2.index ⟨(i 0).val / 5000, ht⟩ (0 : Fin 2) * 5000 ≤ (i 0).val ∧ (i 0).val < win1_2.index ⟨(i 0).val / 5000, ht⟩ (0 : Fin 2) * 5000 + 5000
    omega
  | ⟨1, _⟩ =>
    show win1_2.index ⟨(i 0).val / 5000, ht⟩ (1 : Fin 2) * 64 ≤ (i 1).val ∧ (i 1).val < win1_2.index ⟨(i 0).val / 5000, ht⟩ (1 : Fin 2) * 64 + 64
    omega

/-- After the region the output array is `biasRelu` of the features and the bias row as the region found them. -/
theorem final (c : Dev nD) :
    (dat1 (F := Ideal) V c).arrAt 2 cfg1.N = Cert.Gcn.biasRelu (V c main_v47) (Cert.Gcn.row1 (V c main_v48)) :=
  (dat1 V c).arrAt_eq_of_cover 2 (Cert.Gcn.biasRelu (V c main_v47) (Cert.Gcn.row1 (V c main_v48)))
    (fun t _ => flushed_eq V c t) cover

end Cert.KernelIdeal.Relu1

end
-- ==== Proof.Relu3.lean ====
/-
  The second hidden layer's bias and activation as one function of whole arrays.

  The region walks the 100000 rows in 20 blocks of 5000. At a point t its body reads rows 5000·t … 5000·t + 4999 of
  the aggregated features and the one row of the bias, adds the bias to every row and takes the maximum with
  zero, and writes the block back to the same rows of the output. An entry (r, c) of the result depends only on
  entry (r, c) of the features and entry c of the bias, so block t of the array function `biasRelu` is that function
  of block t; the 20 blocks tile the rows; hence after the region the output array is `biasRelu` of the two
  arrays as the region found them.
-/
import proofs.«112376_j764504179050_1_alg».proof.Proof.Gen.KernelIdeal.Frame
import proofs.«112376_j764504179050_1_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.Relu3

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

theorem zero_offsets : (![0, 0] : Fin 2 → Nat) = fun _ => 0 := funext fun a => by fin_cases a <;> rfl

/-- The body's arithmetic at (p, q): the block's entry plus the bias row's entry q, then the maximum with zero. -/
theorem pay_ix2 (x0 : Vec Ideal S5000x64 .f32) (x1 : Vec Ideal S1x64 .f32) (p : Fin 5000) (q : Fin 64) :
    k3_pay1 (F := Ideal) x0 x1 (ix2 p q)
      = max (x0 (ix2 p q) + x1 (ix2 (0 : Fin 1) q)) (Ideal.ofBits .f32 0x00000000#32) := by
  have e0 : shapeCast S5000x64 x0 shapeCasts_S5000x64_S5000x64 = x0 := shapeCast_self x0 _
  have e1 : shapeCast S1x64 x1 shapeCasts_S1x64_S1x64 = x1 := shapeCast_self x1 _
  have eb : broadcastTo S5000x64 x1 broadcasts_S1x64_S5000x64 (ix2 p q) = x1 (ix2 (0 : Fin 1) q) :=
    broadcastTo_1b_ab_apply x1 broadcasts_S1x64_S5000x64 p q
  unfold k3_pay1
  rw [e0, e1]
  show max (x0 (ix2 p q) + broadcastTo S5000x64 x1 broadcasts_S1x64_S5000x64 (ix2 p q)) _ = _
  rw [eb]
  rfl

/-- The same against the array function: if the block x0 holds rows 5000·tv … of A0 and x1 the one row of A1, the
    body's value at the block index y is `biasRelu` at the array index i of the same row and column. -/
theorem point (A0 : FVec Ideal ⟨2, ![100000, 64]⟩ .f32) (A1 : FVec Ideal ⟨2, ![1, 64]⟩ .f32)
    (x0 : Vec Ideal S5000x64 .f32) (x1 : Vec Ideal S1x64 .f32) (tv : Nat)
    (h0 : ∀ (p : Fin 5000) (q : Fin 64) (r : Fin 100000), r.val = tv * 5000 + p.val → x0 (ix2 p q) = A0 (ix2 r q))
    (h1 : ∀ q : Fin 64, x1 (ix2 (0 : Fin 1) q) = A1 (ix2 (0 : Fin 1) q))
    (y : S5000x64.Idx) (i : S100000x64.Idx) (hi0 : (i 0).val = tv * 5000 + (y 0).val) (hi1 : (i 1).val = (y 1).val) :
    k3_pay1 (F := Ideal) x0 x1 y = Cert.Gcn.biasRelu A0 (Cert.Gcn.row1 A1) i := by
  obtain ⟨p, q, rfl⟩ : ∃ (p : Fin 5000) (q : Fin 64), y = ix2 p q := ⟨y 0, y 1, eq_ix2 y⟩
  obtain ⟨r, c, rfl⟩ : ∃ (r : Fin 100000) (c : Fin 64), i = ix2 r c := ⟨i 0, i 1, eq_ix2 i⟩
  have hc : c = q := Fin.ext hi1
  subst hc
  rw [pay_ix2, Cert.Gcn.biasRelu_ix2, Cert.Gcn.row1_ix1, h0 p c r hi0, h1 c]

/-- The printed index maps over the grid: windows 0 and 2 sit at block t along the rows, window 1 is one fixed block. -/
theorem index_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- Window 0's block at point t is rows 5000·t … of the features as the region finds them. -/
theorem block0 (c : Dev nD) (t : Fin cfg3.N) (p : Fin 5000) (q : Fin 64) (r : Fin 100000) (hr : r.val = t.val * 5000 + p.val) :
    iblk3 V c 0 t (ix2 p q) = V c main_v63 (ix2 r q) := by
  obtain ⟨e0, e1, -⟩ := index_facts t
  show V c main_v63 (((cfg3.win 0).blk t).view.emb (ix2 p q)) = V c main_v63 (ix2 r q)
  refine congrArg _ (funext fun a => Fin.ext ?_)
  match a with
  | ⟨0, _⟩ => show win3_0.index t (0 : Fin 2) * 5000 + 1 * p.val = r.val; omega
  | ⟨1, _⟩ => show win3_0.index t (1 : Fin 2) * 64 + 1 * q.val = q.val; omega

/-- Window 1's block at every point is the whole one-row bias array. -/
theorem block1 (c : Dev nD) (t : Fin cfg3.N) (q : Fin 64) :
    iblk3 V c 1 t (ix2 (0 : Fin 1) q) = V c main_v64 (ix2 (0 : Fin 1) q) := by
  obtain ⟨-, -, e2, e3, -⟩ := index_facts t
  show V c main_v64 (((cfg3.win 1).blk t).view.emb (ix2 (0 : Fin 1) q)) = V c main_v64 (ix2 (0 : Fin 1) q)
  refine congrArg _ (funext fun a => Fin.ext ?_)
  match a with
  | ⟨0, _⟩ => show win3_1.index t (0 : Fin 2) * 1 + 1 * 0 = 0; omega
  | ⟨1, _⟩ => show win3_1.index t (1 : Fin 2) * 64 + 1 * q.val = q.val; omega

/-- What point t writes back is block t of `biasRelu` of the two arrays as the region finds them. -/
theorem flushed_eq (c : Dev nD) (t : Fin cfg3.N) :
    (dat3 V c).flushed 2 t
      = ((cfg3.win 2).blk t).view.read (Elt Ideal) (Cert.Gcn.biasRelu (V c main_v63) (Cert.Gcn.row1 (V c main_v64))) := by
  show (cfg3.win 2).cut (grid3.coords t) ((dat3 V c).after 2 t) = _
  rw [after3_2]
  unfold out3_2
  rw [View.canon_unit_zero zero_offsets]
  simp only [View.ld_unit_zero (S := S5000x64) zero_offsets, View.ld_unit_zero (S := S1x64) zero_offsets]
  obtain ⟨-, -, -, -, e4, e5⟩ := index_facts t
  funext j
  exact point (V c main_v63) (V c main_v64) (iblk3 V c 0 t) (iblk3 V c 1 t) t.val
    (fun p q r hr => block0 V c t p q r hr) (fun q => block1 V c t q) j (((cfg3.win 2).blk t).view.emb j)
    (by show win3_2.index t (0 : Fin 2) * 5000 + 1 * (j 0).val = t.val * 5000 + (j 0).val; omega)
    (by show win3_2.index t (1 : Fin 2) * 64 + 1 * (j 1).val = (j 1).val; omega)

/-- An index of the output array is in point t's block iff each coordinate is in the block's range on its axis. -/
theorem mem_block (t : Fin cfg3.N) (i : S100000x64.Idx) :
    i ∈ ((cfg3.win 2).blk t).view.set ↔ ∀ a : Fin 2, win3_2.index t a * S5000x64.size a ≤ (i a).val ∧ (i a).val < win3_2.index t a * S5000x64.size a + S5000x64.size a := by
  show i ∈ ((View.whole main_v65).slice (win3_2.rect t)).set ↔ _
  rw [View.set_slice_whole, Rect.mem_set_unit]
  exact Iff.rfl

/-- Every index of the output array is in some point's block: row r is in the block of point r / 5000. -/
theorem cover (i : S100000x64.Idx) : ∃ t : Fin cfg3.N, (cfg3.win 2).flush t = true ∧ i ∈ ((cfg3.win 2).blk t).view.set := by
  have hi0 : (i 0).val < 100000 := (i 0).isLt
  have hi1 : (i 1).val < 64 := (i 1).isLt
  have hN : grid3.N = 20 := N_3
  have ht : (i 0).val / 5000 < cfg3.N := by show (i 0).val / 5000 < grid3.N; omega
  refine ⟨⟨(i 0).val / 5000, ht⟩, flush3_2 _, ?_⟩
  rw [mem_block]
  obtain ⟨-, -, -, -, e4, e5⟩ := index_facts ⟨(i 0).val / 5000, ht⟩
  have e4' : win3_2.index ⟨(i 0).val / 5000, ht⟩ (0 : Fin 2) = (i 0).val / 5000 := e4
  intro a
  match a with
  | ⟨0, _⟩ =>
    show win3_2.index ⟨(i 0).val / 5000, ht⟩ (0 : Fin 2) * 5000 ≤ (i 0).val ∧ (i 0).val < win3_2.index ⟨(i 0).val / 5000, ht⟩ (0 : Fin 2) * 5000 + 5000
    omega
  | ⟨1, _⟩ =>
    show win3_2.index ⟨(i 0).val / 5000, ht⟩ (1 : Fin 2) * 64 ≤ (i 1).val ∧ (i 1).val < win3_2.index ⟨(i 0).val / 5000, ht⟩ (1 : Fin 2) * 64 + 64
    omega

/-- After the region the output array is `biasRelu` of the features and the bias row as the region found them. -/
theorem final (c : Dev nD) :
    (dat3 (F := Ideal) V c).arrAt 2 cfg3.N = Cert.Gcn.biasRelu (V c main_v63) (Cert.Gcn.row1 (V c main_v64)) :=
  (dat3 V c).arrAt_eq_of_cover 2 (Cert.Gcn.biasRelu (V c main_v63) (Cert.Gcn.row1 (V c main_v64)))
    (fun t _ => flushed_eq V c t) cover

end Cert.KernelIdeal.Relu3

end
-- ==== Proof.Lsm5.lean ====
/-
  The last layer's bias and log-softmax as one function of whole arrays.

  The region walks the 100000 rows in 20 blocks of 5000. At a point t its body reads rows 5000·t … 5000·t + 4999 of
  the propagated features (40 columns) and the one row of the bias, adds the bias to every row, and on each row
  takes the maximum M (folded from −∞), the differences g − M, the sum of their exponentials (from 0), its
  logarithm, and writes (g − M) − log Σ back to the same rows of the output. Row p of the result depends only on
  row p of the block and on the bias row, so block t of the array function `biasLogSoftmax` is that function of
  block t; the 20 blocks tile the rows; hence after the region the output array is `biasLogSoftmax` of the two
  arrays as the region found them.
-/
import proofs.«112376_j764504179050_1_alg».proof.Proof.Gen.KernelIdeal.Frame
import proofs.«112376_j764504179050_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Lsm5

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

theorem zero_offsets : (![0, 0] : Fin 2 → Nat) = fun _ => 0 := funext fun a => by fin_cases a <;> rfl

/-! ## A column kept as a unit axis and spread over the columns again -/

/-- An `[a]` array cast to `[a, 1]` reads, at `(i, u)`, the operand at `i`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : Nat) = if (1 : Nat) = 1 then 0 else c.val
    rw [if_pos rfl]

/-- A vector over the 5000 rows, kept as a column and spread over the 40 columns, reads its entry of the row. -/
theorem col_apply (v : FVec Ideal S5000 .f32) (p : Fin 5000) (q : Fin 40) :
    (broadcastTo S5000x40 (shapeCast S5000x1 v shapeCasts_S5000_S5000x1) broadcasts_S5000x1_S5000x40) (ix2 p q) = v (ix1 p) :=
  (broadcastTo_a1_ab_apply (shapeCast S5000x1 v shapeCasts_S5000_S5000x1) broadcasts_S5000x1_S5000x40 p q).trans
    (shapeCast_a_a1_apply v shapeCasts_S5000_S5000x1 p (0 : Fin 1))

/-! ## The two reductions along a row -/

/-- The maximum-reduction of a block along its rows, from −∞, is the specification's row maximum. -/
theorem rmax_apply (g : FVec Ideal S5000x40 .f32) (p : Fin 5000) :
    (multiReduction (F := Ideal) .maximumf [1] S5000 g 0xFF800000#32 reduces_S5000x40_S5000 (.inl rfl) rfl) (ix1 p) = Cert.Gcn.rowMax g p := by
  refine (Ideal.multiReduction_maximumf_single (φ := .f32) (s := S5000x40) (t := S5000) (a := (1 : Fin 2)) g 0xFF800000#32
    reduces_S5000x40_S5000 (.inl rfl) rfl (ix1 p)).trans ?_
  unfold Cert.Gcn.rowMax
  refine congrArg (fun f => Finset.fold max (Ideal.ofBits .f32 0xFF800000#32) f (Finset.univ : Finset (Fin 40))) ?_
  funext k
  exact congrArg g (funext fun a => Fin.ext (by match a with | ⟨0, _⟩ => rfl | ⟨1, _⟩ => rfl))

/-- The add-reduction of a block along its rows, from 0, is the sum over the row's 40 entries. -/
theorem rsum_apply (h : FVec Ideal S5000x40 .f32) (p : Fin 5000) :
    (multiReduction (F := Ideal) .add [1] S5000 h 0x00000000#32 reduces_S5000x40_S5000 (.inl rfl) rfl) (ix1 p) = ∑ k : Fin 40, h (ix2 p k) := by
  refine (Ideal.multiReduction_add_single (φ := .f32) (s := S5000x40) (t := S5000) (a := (1 : Fin 2)) h 0x00000000#32
    reduces_S5000x40_S5000 (.inl rfl) rfl (ix1 p)).trans ?_
  refine Finset.sum_congr rfl fun k _ => ?_
  exact congrArg h (funext fun a => Fin.ext (by match a with | ⟨0, _⟩ => rfl | ⟨1, _⟩ => rfl))

/-! ## The body's arithmetic -/

/-- The body's tree of operations after the bias, on any block g: entry (p, q) is the specification's log-softmax. -/
theorem lsm_ix2 (g : FVec Ideal S5000x40 .f32) (p : Fin 5000) (q : Fin 40) :
    (subf (subf g (broadcastTo S5000x40 (shapeCast S5000x1 (multiReduction (F := Ideal) .maximumf [1] S5000 g 0xFF800000#32 reduces_S5000x40_S5000 (.inl rfl) rfl) shapeCasts_S5000_S5000x1) broadcasts_S5000x1_S5000x40)) (broadcastTo S5000x40 (log (shapeCast S5000x1 (multiReduction (F := Ideal) .add [1] S5000 (exp (subf g (broadcastTo S5000x40 (shapeCast S5000x1 (multiReduction (F := Ideal) .maximumf [1] S5000 g 0xFF800000#32 reduces_S5000x40_S5000 (.inl rfl) rfl) shapeCasts_S5000_S5000x1) broadcasts_S5000x1_S5000x40))) 0x00000000#32 reduces_S5000x40_S5000 (.inl rfl) rfl) shapeCasts_S5000_S5000x1)) broadcasts_S5000x1_S5000x40)) (ix2 p q) = Cert.Gcn.logSoftmax g (ix2 p q) := by
  have hM : ∀ k : Fin 40, (broadcastTo S5000x40 (shapeCast S5000x1 (multiReduction (F := Ideal) .maximumf [1] S5000 g 0xFF800000#32 reduces_S5000x40_S5000 (.inl rfl) rfl) shapeCasts_S5000_S5000x1) broadcasts_S5000x1_S5000x40) (ix2 p k) = Cert.Gcn.rowMax g p :=
    fun k => (col_apply (multiReduction (F := Ideal) .maximumf [1] S5000 g 0xFF800000#32 reduces_S5000x40_S5000 (.inl rfl) rfl) p k).trans (rmax_apply g p)
  have hS : (broadcastTo S5000x40 (log (shapeCast S5000x1 (multiReduction (F := Ideal) .add [1] S5000 (exp (subf g (broadcastTo S5000x40 (shapeCast S5000x1 (multiReduction (F := Ideal) .maximumf [1] S5000 g 0xFF800000#32 reduces_S5000x40_S5000 (.inl rfl) rfl) shapeCasts_S5000_S5000x1) broadcasts_S5000x1_S5000x40))) 0x00000000#32 reduces_S5000x40_S5000 (.inl rfl) rfl) shapeCasts_S5000_S5000x1)) broadcasts_S5000x1_S5000x40) (ix2 p q) = Ideal.log (Cert.Gcn.rowExpSum g p) := by
    refine (broadcastTo_a1_ab_apply _ broadcasts_S5000x1_S5000x40 p q).trans ?_
    refine congrArg Ideal.log ?_
    refine (shapeCast_a_a1_apply _ shapeCasts_S5000_S5000x1 p (0 : Fin 1)).trans ?_
    refine (rsum_apply (exp (subf g (broadcastTo S5000x40 (shapeCast S5000x1 (multiReduction (F := Ideal) .maximumf [1] S5000 g 0xFF800000#32 reduces_S5000x40_S5000 (.inl rfl) rfl) shapeCasts_S5000_S5000x1) broadcasts_S5000x1_S5000x40))) p).trans ?_
    unfold Cert.Gcn.rowExpSum
    refine Finset.sum_congr rfl fun k _ => ?_
    exact congrArg Ideal.exp (congrArg (fun z : EReal => g (ix2 p k) - z) (hM k))
  rw [Cert.Gcn.logSoftmax_ix2]
  exact congrArg₂ (fun a b : EReal => a - b) (congrArg (fun z : EReal => g (ix2 p q) - z) (hM q)) hS

/-- A block with the bias row added to every row. -/
def biased (x0 : Vec Ideal S5000x40 .f32) (x1 : Vec Ideal S1x40 .f32) : FVec Ideal S5000x40 .f32 :=
  fun i => x0 i + x1 (ix2 (0 : Fin 1) (i 1))

theorem biased_ix2 (x0 : Vec Ideal S5000x40 .f32) (x1 : Vec Ideal S1x40 .f32) (p : Fin 5000) (q : Fin 40) :
    biased x0 x1 (ix2 p q) = x0 (ix2 p q) + x1 (ix2 (0 : Fin 1) q) := rfl

/-- The body's value at (p, q): the log-softmax, along row p, of the block with the bias row added. -/
theorem pay_ix2 (x0 : Vec Ideal S5000x40 .f32) (x1 : Vec Ideal S1x40 .f32) (p : Fin 5000) (q : Fin 40) :
    k5_pay1 (F := Ideal) x0 x1 (ix2 p q) = Cert.Gcn.logSoftmax (biased x0 x1) (ix2 p q) := by
  have e0 : shapeCast S5000x40 x0 shapeCasts_S5000x40_S5000x40 = x0 := shapeCast_self x0 _
  have e1 : shapeCast S1x40 x1 shapeCasts_S1x40_S1x40 = x1 := shapeCast_self x1 _
  have eg : addf x0 (broadcastTo S5000x40 x1 broadcasts_S1x40_S5000x40) = biased x0 x1 := by
    funext i
    obtain ⟨a, b, rfl⟩ : ∃ (a : Fin 5000) (b : Fin 40), i = ix2 a b := ⟨i 0, i 1, eq_ix2 i⟩
    exact congrArg (fun z : EReal => x0 (ix2 a b) + z) (broadcastTo_1b_ab_apply x1 broadcasts_S1x40_S5000x40 a b)
  unfold k5_pay1
  rw [e0, e1, eg]
  exact lsm_ix2 (biased x0 x1) p q

/-- The log-softmax at a row depends only on that row: two arrays that agree along a row of each have the same
    log-softmax there. -/
theorem logSoftmax_congr_row {n m : Nat} (g : FVec Ideal ⟨2, ![n, 40]⟩ .f32) (g' : FVec Ideal ⟨2, ![m, 40]⟩ .f32)
    (p : Fin n) (r : Fin m) (h : ∀ k : Fin 40, g (ix2 p k) = g' (ix2 r k)) (c : Fin 40) :
    Cert.Gcn.logSoftmax g (ix2 p c) = Cert.Gcn.logSoftmax g' (ix2 r c) := by
  have hrow : (fun k : Fin 40 => g (ix2 p k)) = fun k : Fin 40 => g' (ix2 r k) := funext h
  have hM : Cert.Gcn.rowMax g p = Cert.Gcn.rowMax g' r :=
    congrArg (fun f : Fin 40 → EReal => Finset.fold max (Ideal.ofBits .f32 0xFF800000#32) f (Finset.univ : Finset (Fin 40))) hrow
  have hS : Cert.Gcn.rowExpSum g p = Cert.Gcn.rowExpSum g' r := by
    unfold Cert.Gcn.rowExpSum
    rw [hM]
    exact Finset.sum_congr rfl fun k _ => by rw [h k]
  rw [Cert.Gcn.logSoftmax_ix2, Cert.Gcn.logSoftmax_ix2, hM, hS, h c]

/-- The same against the array function: if the block x0 holds rows 5000·tv … of A0 and x1 the one row of A1, the
    body's value at the block index y is `biasLogSoftmax` at the array index i of the same row and column. -/
theorem point (A0 : FVec Ideal ⟨2, ![100000, 40]⟩ .f32) (A1 : FVec Ideal ⟨2, ![1, 40]⟩ .f32)
    (x0 : Vec Ideal S5000x40 .f32) (x1 : Vec Ideal S1x40 .f32) (tv : Nat)
    (h0 : ∀ (p : Fin 5000) (q : Fin 40) (r : Fin 100000), r.val = tv * 5000 + p.val → x0 (ix2 p q) = A0 (ix2 r q))
    (h1 : ∀ q : Fin 40, x1 (ix2 (0 : Fin 1) q) = A1 (ix2 (0 : Fin 1) q))
    (y : S5000x40.Idx) (i : S100000x40.Idx) (hi0 : (i 0).val = tv * 5000 + (y 0).val) (hi1 : (i 1).val = (y 1).val) :
    k5_pay1 (F := Ideal) x0 x1 y = Cert.Gcn.biasLogSoftmax A0 (Cert.Gcn.row1 A1) i := by
  obtain ⟨p, q, rfl⟩ : ∃ (p : Fin 5000) (q : Fin 40), y = ix2 p q := ⟨y 0, y 1, eq_ix2 y⟩
  obtain ⟨r, c, rfl⟩ : ∃ (r : Fin 100000) (c : Fin 40), i = ix2 r c := ⟨i 0, i 1, eq_ix2 i⟩
  have hc : c = q := Fin.ext hi1
  subst hc
  rw [pay_ix2]
  exact logSoftmax_congr_row (biased x0 x1) (Cert.Gcn.addBias A0 (Cert.Gcn.row1 A1)) p r
    (fun k => by rw [biased_ix2, Cert.Gcn.addBias_ix2, Cert.Gcn.row1_ix1, h0 p k r hi0, h1 k]) c

/-! ## The blocks -/

/-- The printed index maps over the grid: windows 0 and 2 sit at block t along the rows, window 1 is one fixed block. -/
theorem index_facts : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- Window 0's block at point t is rows 5000·t … of the features as the region finds them. -/
theorem block0 (c : Dev nD) (t : Fin cfg5.N) (p : Fin 5000) (q : Fin 40) (r : Fin 100000) (hr : r.val = t.val * 5000 + p.val) :
    iblk5 V c 0 t (ix2 p q) = V c main_v79 (ix2 r q) := by
  obtain ⟨e0, e1, -⟩ := index_facts t
  show V c main_v79 (((cfg5.win 0).blk t).view.emb (ix2 p q)) = V c main_v79 (ix2 r q)
  refine congrArg _ (funext fun a => Fin.ext ?_)
  match a with
  | ⟨0, _⟩ => show win5_0.index t (0 : Fin 2) * 5000 + 1 * p.val = r.val; omega
  | ⟨1, _⟩ => show win5_0.index t (1 : Fin 2) * 40 + 1 * q.val = q.val; omega

/-- Window 1's block at every point is the whole one-row bias array. -/
theorem block1 (c : Dev nD) (t : Fin cfg5.N) (q : Fin 40) :
    iblk5 V c 1 t (ix2 (0 : Fin 1) q) = V c main_v80 (ix2 (0 : Fin 1) q) := by
  obtain ⟨-, -, e2, e3, -⟩ := index_facts t
  show V c main_v80 (((cfg5.win 1).blk t).view.emb (ix2 (0 : Fin 1) q)) = V c main_v80 (ix2 (0 : Fin 1) q)
  refine congrArg _ (funext fun a => Fin.ext ?_)
  match a with
  | ⟨0, _⟩ => show win5_1.index t (0 : Fin 2) * 1 + 1 * 0 = 0; omega
  | ⟨1, _⟩ => show win5_1.index t (1 : Fin 2) * 40 + 1 * q.val = q.val; omega

/-- What point t writes back is block t of `biasLogSoftmax` of the two arrays as the region finds them. -/
theorem flushed_eq (c : Dev nD) (t : Fin cfg5.N) :
    (dat5 V c).flushed 2 t
      = ((cfg5.win 2).blk t).view.read (Elt Ideal) (Cert.Gcn.biasLogSoftmax (V c main_v79) (Cert.Gcn.row1 (V c main_v80))) := by
  show (cfg5.win 2).cut (grid5.coords t) ((dat5 V c).after 2 t) = _
  rw [after5_2]
  unfold out5_2
  rw [View.canon_unit_zero zero_offsets]
  simp only [View.ld_unit_zero (S := S5000x40) zero_offsets, View.ld_unit_zero (S := S1x40) zero_offsets]
  obtain ⟨-, -, -, -, e4, e5⟩ := index_facts t
  funext j
  exact point (V c main_v79) (V c main_v80) (iblk5 V c 0 t) (iblk5 V c 1 t) t.val
    (fun p q r hr => block0 V c t p q r hr) (fun q => block1 V c t q) j (((cfg5.win 2).blk t).view.emb j)
    (by show win5_2.index t (0 : Fin 2) * 5000 + 1 * (j 0).val = t.val * 5000 + (j 0).val; omega)
    (by show win5_2.index t (1 : Fin 2) * 40 + 1 * (j 1).val = (j 1).val; omega)

/-- An index of the output array is in point t's block iff each coordinate is in the block's range on its axis. -/
theorem mem_block (t : Fin cfg5.N) (i : S100000x40.Idx) :
    i ∈ ((cfg5.win 2).blk t).view.set ↔ ∀ a : Fin 2, win5_2.index t a * S5000x40.size a ≤ (i a).val ∧ (i a).val < win5_2.index t a * S5000x40.size a + S5000x40.size a := by
  show i ∈ ((View.whole main_v81).slice (win5_2.rect t)).set ↔ _
  rw [View.set_slice_whole, Rect.mem_set_unit]
  exact Iff.rfl

/-- Every index of the output array is in some point's block: row r is in the block of point r / 5000. -/
theorem cover (i : S100000x40.Idx) : ∃ t : Fin cfg5.N, (cfg5.win 2).flush t = true ∧ i ∈ ((cfg5.win 2).blk t).view.set := by
  have hi0 : (i 0).val < 100000 := (i 0).isLt
  have hi1 : (i 1).val < 40 := (i 1).isLt
  have hN : grid5.N = 20 := N_5
  have ht : (i 0).val / 5000 < cfg5.N := by show (i 0).val / 5000 < grid5.N; omega
  refine ⟨⟨(i 0).val / 5000, ht⟩, flush5_2 _, ?_⟩
  rw [mem_block]
  obtain ⟨-, -, -, -, e4, e5⟩ := index_facts ⟨(i 0).val / 5000, ht⟩
  have e4' : win5_2.index ⟨(i 0).val / 5000, ht⟩ (0 : Fin 2) = (i 0).val / 5000 := e4
  intro a
  match a with
  | ⟨0, _⟩ =>
    show win5_2.index ⟨(i 0).val / 5000, ht⟩ (0 : Fin 2) * 5000 ≤ (i 0).val ∧ (i 0).val < win5_2.index ⟨(i 0).val / 5000, ht⟩ (0 : Fin 2) * 5000 + 5000
    omega
  | ⟨1, _⟩ =>
    show win5_2.index ⟨(i 0).val / 5000, ht⟩ (1 : Fin 2) * 40 ≤ (i 1).val ∧ (i 1).val < win5_2.index ⟨(i 0).val / 5000, ht⟩ (1 : Fin 2) * 40 + 40
    omega

/-- After the region the output array is `biasLogSoftmax` of the features and the bias row as the region found them. -/
theorem final (c : Dev nD) :
    (dat5 (F := Ideal) V c).arrAt 2 cfg5.N = (Cert.Gcn.biasLogSoftmax (V c main_v79) (Cert.Gcn.row1 (V c main_v80))) :=
  (dat5 V c).arrAt_eq_of_cover 2 (Cert.Gcn.biasLogSoftmax (V c main_v79) (Cert.Gcn.row1 (V c main_v80)))
    (fun t _ => flushed_eq V c t) cover

end Cert.KernelIdeal.Lsm5

end
-- ==== Proof.Net.lean ====
/-
  The whole network as one function of the nine argument arrays.

  With src, dst the edges' endpoints (self-loops appended) and nrm the symmetric normalisation of the edge weights —
  the three host computations both programs make first, named here by the reference's stages for them —, the
  result is
      logSoftmax-with-bias ( P ( dense ( relu-with-bias ( P ( dense ( relu-with-bias ( P ( dense x W0 ) ) b0 ) W1 ) ) b1 ) W2 ) ) b2
  where P is the propagation step along the edges. Each program is shown equal to this function of its own
  arguments; the two programs' arguments agree; so their results agree.
-/
import proofs.«112376_j764504179050_1_alg».proof.Proof.RefRead
import proofs.«112376_j764504179050_1_alg».proof.Proof.Propagate
import proofs.«112376_j764504179050_1_alg».proof.Proof.Spec

noncomputable section

namespace Cert.ReferenceIdeal.Net

open Cert.ReferenceIdeal Cert.ReferenceIdeal.ReadP Cert.ReferenceIdeal.Propagate Idealize.ShloMosaic Idealize.ShloMosaic.TcCoe

/-- The first layer's output: dense, propagate, bias, relu. -/
def layer1 (x0 : (⟨S100000x256, .f32⟩ : BufTy).Contents (Elt Ideal)) (x1 : (⟨S2x1600000, .i32⟩ : BufTy).Contents (Elt Ideal))
    (x2 : (⟨S1600000, .f32⟩ : BufTy).Contents (Elt Ideal)) (x3 : (⟨S256x64, .f32⟩ : BufTy).Contents (Elt Ideal))
    (x4 : (⟨S64, .f32⟩ : BufTy).Contents (Elt Ideal)) : (⟨S100000x64, .f32⟩ : BufTy).Contents (Elt Ideal) :=
  Cert.Gcn.biasRelu (n := 100000) (b := 64)
    (prop64 (val_main_v3 (F := Ideal) x1) (val_main_v7 (F := Ideal) x1) (val_main_v33 (F := Ideal) x1 x2)
      (Cert.Gcn.dense (n := 100000) (k := 256) (b := 64) x0 x3)) x4

/-- The second layer's output. -/
def layer2 (x0 : (⟨S100000x256, .f32⟩ : BufTy).Contents (Elt Ideal)) (x1 : (⟨S2x1600000, .i32⟩ : BufTy).Contents (Elt Ideal))
    (x2 : (⟨S1600000, .f32⟩ : BufTy).Contents (Elt Ideal)) (x3 : (⟨S256x64, .f32⟩ : BufTy).Contents (Elt Ideal))
    (x4 : (⟨S64, .f32⟩ : BufTy).Contents (Elt Ideal)) (x5 : (⟨S64x64, .f32⟩ : BufTy).Contents (Elt Ideal))
    (x6 : (⟨S64, .f32⟩ : BufTy).Contents (Elt Ideal)) : (⟨S100000x64, .f32⟩ : BufTy).Contents (Elt Ideal) :=
  Cert.Gcn.biasRelu (n := 100000) (b := 64)
    (prop64 (val_main_v3 (F := Ideal) x1) (val_main_v7 (F := Ideal) x1) (val_main_v33 (F := Ideal) x1 x2)
      (Cert.Gcn.dense (n := 100000) (k := 64) (b := 64) (layer1 x0 x1 x2 x3 x4) x5)) x6

/-- The network's output. -/
def net (x0 : (⟨S100000x256, .f32⟩ : BufTy).Contents (Elt Ideal)) (x1 : (⟨S2x1600000, .i32⟩ : BufTy).Contents (Elt Ideal))
    (x2 : (⟨S1600000, .f32⟩ : BufTy).Contents (Elt Ideal)) (x3 : (⟨S256x64, .f32⟩ : BufTy).Contents (Elt Ideal))
    (x4 : (⟨S64, .f32⟩ : BufTy).Contents (Elt Ideal)) (x5 : (⟨S64x64, .f32⟩ : BufTy).Contents (Elt Ideal))
    (x6 : (⟨S64, .f32⟩ : BufTy).Contents (Elt Ideal)) (x7 : (⟨S64x40, .f32⟩ : BufTy).Contents (Elt Ideal))
    (x8 : (⟨S40, .f32⟩ : BufTy).Contents (Elt Ideal)) : (⟨S100000x40, .f32⟩ : BufTy).Contents (Elt Ideal) :=
  Cert.Gcn.biasLogSoftmax (n := 100000) (b := 40)
    (prop40 (val_main_v3 (F := Ideal) x1) (val_main_v7 (F := Ideal) x1) (val_main_v33 (F := Ideal) x1 x2)
      (Cert.Gcn.dense (n := 100000) (k := 64) (b := 40) (layer2 x0 x1 x2 x3 x4 x5 x6) x7)) x8

end Cert.ReferenceIdeal.Net

end
-- ==== Proof.KernelValue.lean ====
/-
  The kernel program's result, boundary by boundary, is the network function of the launch arguments.

  The kernel program alternates host stretches and six regions. Region 0 multiplies the node features by the first
  weight matrix; the stretch after it propagates the product along the edges and lays the first bias out as a
  row; region 1 adds the bias and takes the maximum with zero; region 2 multiplies by the second weight matrix;
  the next stretch propagates and lays out the second bias; region 3 adds it and takes the maximum with zero;
  region 4 multiplies by the last weight matrix; the last stretch propagates and lays out the last bias; region
  5 adds it and takes the logarithm of the softmax of each row. Each region is known as one function of the
  arrays it finds, each stretch as one function of the buffers it starts from. What is left is bookkeeping: a
  buffer that no later stretch and no later region writes is found where it is read as it was left. The edges'
  endpoints and weights are left by the first stretches (assumed here to be the reference's values of the same
  three arrays) and the weights and biases are launch arguments. Substituting boundary by boundary gives the last
  region's output as the network function.
-/
import proofs.«112376_j764504179050_1_alg».proof.Proof.Gen.KernelIdeal.Frame
import proofs.«112376_j764504179050_1_alg».proof.Proof.KernelWalk
import proofs.«112376_j764504179050_1_alg».proof.Proof.Dense0
import proofs.«112376_j764504179050_1_alg».proof.Proof.Dense2
import proofs.«112376_j764504179050_1_alg».proof.Proof.Dense4
import proofs.«112376_j764504179050_1_alg».proof.Proof.Relu1
import proofs.«112376_j764504179050_1_alg».proof.Proof.Relu3
import proofs.«112376_j764504179050_1_alg».proof.Proof.Lsm5
import proofs.«112376_j764504179050_1_alg».proof.Proof.Propagate
import proofs.«112376_j764504179050_1_alg».proof.Proof.Net
import proofs.«112376_j764504179050_1_alg».proof.Proof.RefRead

set_option maxRecDepth 16384

noncomputable section

namespace Cert.KernelIdeal.Value'

open Cert.KernelIdeal Cert.KernelIdeal.Gen Cert.KernelIdeal.Walk Idealize.ShloMosaic Idealize.ShloMosaic.TcCoe Idealize.SL.Sem
open Cert.ReferenceIdeal.Propagate (prop64 prop40)

variable (m : (ℓ : Loc nD τ sig) → Buf (Elt Ideal) ℓ) (ρ : Dev nD → PrngReg) (c : Dev nD)

/-! ## Equal inputs, equal propagation -/

theorem prop64_congr {s s' d d' : (⟨Cert.ReferenceIdeal.S1700000, .i32⟩ : BufTy).Contents (Elt Ideal)}
    {n n' : (⟨Cert.ReferenceIdeal.S1700000, .f32⟩ : BufTy).Contents (Elt Ideal)}
    {h h' : (⟨Cert.ReferenceIdeal.S100000x64, .f32⟩ : BufTy).Contents (Elt Ideal)}
    (hs : s = s') (hd : d = d') (hn : n = n') (hh : h = h') : prop64 s d n h = prop64 s' d' n' h' := by
  subst hs hd hn hh; rfl

theorem prop40_congr {s s' d d' : (⟨Cert.ReferenceIdeal.S1700000, .i32⟩ : BufTy).Contents (Elt Ideal)}
    {n n' : (⟨Cert.ReferenceIdeal.S1700000, .f32⟩ : BufTy).Contents (Elt Ideal)}
    {h h' : (⟨Cert.ReferenceIdeal.S100000x40, .f32⟩ : BufTy).Contents (Elt Ideal)}
    (hs : s = s') (hd : d = d') (hn : n = n') (hh : h = h') : prop40 s d n h = prop40 s' d' n' h' := by
  subst hs hd hn hh; rfl

/-! ## Buffers found as they were left -/

/-- At region 2's exit, back to region 0's entry. -/
theorem at7_of (b : Ref sig .tc) (hr0 : ∀ w, Pipeline.arrRef spec0 w ≠ b) (hr1 : ∀ w, Pipeline.arrRef spec1 w ≠ b)
    (hr2 : ∀ w, Pipeline.arrRef spec2 w ≠ b) (h1 : ∀ op ∈ (hostOps1 (F := Ideal)), Proc.devRef .tc b ∉ op.writes) :
    W7 m ρ c (Proc.devRef .tc b) = W3 m ρ c (Proc.devRef .tc b) :=
  (W7_of_ne m ρ c b hr2).trans ((W6_of_ne m ρ c b hr1).trans (at5_of m ρ c b hr0 h1))

/-- At region 4's exit, back to region 0's entry. -/
theorem at10_of (b : Ref sig .tc) (hr0 : ∀ w, Pipeline.arrRef spec0 w ≠ b) (hr1 : ∀ w, Pipeline.arrRef spec1 w ≠ b)
    (hr2 : ∀ w, Pipeline.arrRef spec2 w ≠ b) (hr3 : ∀ w, Pipeline.arrRef spec3 w ≠ b) (hr4 : ∀ w, Pipeline.arrRef spec4 w ≠ b)
    (h1 : ∀ op ∈ (hostOps1 (F := Ideal)), Proc.devRef .tc b ∉ op.writes)
    (h3 : ∀ op ∈ (hostOps3 (F := Ideal)), Proc.devRef .tc b ∉ op.writes) :
    W10 m ρ c (Proc.devRef .tc b) = W3 m ρ c (Proc.devRef .tc b) :=
  (W10_of_ne m ρ c b hr4).trans ((W9_of_ne m ρ c b hr3).trans ((at8_of m ρ c b hr1 hr2 h3).trans (at5_of m ρ c b hr0 h1)))

/-! The edges' endpoints and weights at the three boundaries where a stretch reads them. -/

theorem src7 : W7 m ρ c (Proc.devRef .tc main_v3) = W3 m ρ c (Proc.devRef .tc main_v3) := at7_of m ρ c main_v3 (by decide) (by decide) (by decide) (by not_written)
theorem dst7 : W7 m ρ c (Proc.devRef .tc main_v7) = W3 m ρ c (Proc.devRef .tc main_v7) := at7_of m ρ c main_v7 (by decide) (by decide) (by decide) (by not_written)
theorem nrm7 : W7 m ρ c (Proc.devRef .tc main_v33) = W3 m ρ c (Proc.devRef .tc main_v33) := at7_of m ρ c main_v33 (by decide) (by decide) (by decide) (by not_written)
theorem src10 : W10 m ρ c (Proc.devRef .tc main_v3) = W3 m ρ c (Proc.devRef .tc main_v3) := at10_of m ρ c main_v3 (by decide) (by decide) (by decide) (by decide) (by decide) (by not_written) (by not_written)
theorem dst10 : W10 m ρ c (Proc.devRef .tc main_v7) = W3 m ρ c (Proc.devRef .tc main_v7) := at10_of m ρ c main_v7 (by decide) (by decide) (by decide) (by decide) (by decide) (by not_written) (by not_written)
theorem nrm10 : W10 m ρ c (Proc.devRef .tc main_v33) = W3 m ρ c (Proc.devRef .tc main_v33) := at10_of m ρ c main_v33 (by decide) (by decide) (by decide) (by decide) (by decide) (by not_written) (by not_written)

/-! The weight and bias arguments at the boundaries where they are read. -/

theorem arg4_at4 : W4 m ρ c (Proc.devRef .tc main_arg4) = (m ((c.tc : Thread nD τ).loc main_arg4)) :=
  (W4_of_ne m ρ c main_arg4 (by decide)).trans (at3_of m ρ c main_arg4 (by not_written) (by not_written) (by not_written))
theorem arg5_at6 : W6 m ρ c (Proc.devRef .tc main_arg5) = (m ((c.tc : Thread nD τ).loc main_arg5)) :=
  (W6_of_ne m ρ c main_arg5 (by decide)).trans ((at5_of m ρ c main_arg5 (by decide) (by not_written)).trans (at3_of m ρ c main_arg5 (by not_written) (by not_written) (by not_written)))
theorem arg6_at7 : W7 m ρ c (Proc.devRef .tc main_arg6) = (m ((c.tc : Thread nD τ).loc main_arg6)) :=
  (at7_of m ρ c main_arg6 (by decide) (by decide) (by decide) (by not_written)).trans (at3_of m ρ c main_arg6 (by not_written) (by not_written) (by not_written))
theorem arg7_at9 : W9 m ρ c (Proc.devRef .tc main_arg7) = (m ((c.tc : Thread nD τ).loc main_arg7)) :=
  (W9_of_ne m ρ c main_arg7 (by decide)).trans ((at8_of m ρ c main_arg7 (by decide) (by decide) (by not_written)).trans
    ((at5_of m ρ c main_arg7 (by decide) (by not_written)).trans (at3_of m ρ c main_arg7 (by not_written) (by not_written) (by not_written))))
theorem arg8_at10 : W10 m ρ c (Proc.devRef .tc main_arg8) = (m ((c.tc : Thread nD τ).loc main_arg8)) :=
  (at10_of m ρ c main_arg8 (by decide) (by decide) (by decide) (by decide) (by decide) (by not_written) (by not_written)).trans (at3_of m ρ c main_arg8 (by not_written) (by not_written) (by not_written))

/-! ## The first layer -/

/-- Region 0 leaves the node features times the first weight matrix. -/
theorem L34 : W4 m ρ c (Proc.devRef .tc main_v34) = Cert.Gcn.dense (n := 100000) (k := 256) (b := 64) (m ((c.tc : Thread nD τ).loc main_arg0)) (m ((c.tc : Thread nD τ).loc main_arg3)) :=
  (W4_arr m ρ c 2).trans ((Dense0.final (V3 m ρ) c).trans
    (congrArg₂ (Cert.Gcn.dense (n := 100000) (k := 256) (b := 64)) (arg0_at3 m ρ c) (arg3_at3 m ρ c)))

/-- The stretch after it leaves the propagated product … -/
theorem L47 (hsrc : W3 m ρ c (Proc.devRef .tc main_v3) = Cert.ReferenceIdeal.ReadP.val_main_v3 (F := Ideal) (m ((c.tc : Thread nD τ).loc main_arg1)))
    (hdst : W3 m ρ c (Proc.devRef .tc main_v7) = Cert.ReferenceIdeal.ReadP.val_main_v7 (F := Ideal) (m ((c.tc : Thread nD τ).loc main_arg1)))
    (hnrm : W3 m ρ c (Proc.devRef .tc main_v33) = Cert.ReferenceIdeal.ReadP.val_main_v33 (F := Ideal) (m ((c.tc : Thread nD τ).loc main_arg1)) (m ((c.tc : Thread nD τ).loc main_arg2))) :
    W5 m ρ c (Proc.devRef .tc main_v47) = prop64 (Cert.ReferenceIdeal.ReadP.val_main_v3 (F := Ideal) (m ((c.tc : Thread nD τ).loc main_arg1))) (Cert.ReferenceIdeal.ReadP.val_main_v7 (F := Ideal) (m ((c.tc : Thread nD τ).loc main_arg1))) (Cert.ReferenceIdeal.ReadP.val_main_v33 (F := Ideal) (m ((c.tc : Thread nD τ).loc main_arg1)) (m ((c.tc : Thread nD τ).loc main_arg2))) (Cert.Gcn.dense (n := 100000) (k := 256) (b := 64) (m ((c.tc : Thread nD τ).loc main_arg0)) (m ((c.tc : Thread nD τ).loc main_arg3))) :=
  (stretch1_features (W4 m ρ c)).trans (prop64_congr
    ((W4_of_ne m ρ c main_v3 (by decide)).trans hsrc) ((W4_of_ne m ρ c main_v7 (by decide)).trans hdst)
    ((W4_of_ne m ρ c main_v33 (by decide)).trans hnrm) (L34 m ρ c))

/-- … and the first bias as a row. -/
theorem L48 : Cert.Gcn.row1 (b := 64) (W5 m ρ c (Proc.devRef .tc main_v48)) = (m ((c.tc : Thread nD τ).loc main_arg4)) :=
  (congrArg (Cert.Gcn.row1 (b := 64)) (stretch1_bias (W4 m ρ c))).trans
    ((row1_reshape (b := 64) (W4 m ρ c (Proc.devRef .tc main_arg4)) shapeCasts_S64_S1x64).trans (arg4_at4 m ρ c))

/-- Region 1 leaves the first layer's output. -/
theorem L49 (hsrc : W3 m ρ c (Proc.devRef .tc main_v3) = Cert.ReferenceIdeal.ReadP.val_main_v3 (F := Ideal) (m ((c.tc : Thread nD τ).loc main_arg1)))
    (hdst : W3 m ρ c (Proc.devRef .tc main_v7) = Cert.ReferenceIdeal.ReadP.val_main_v7 (F := Ideal) (m ((c.tc : Thread nD τ).loc main_arg1)))
    (hnrm : W3 m ρ c (Proc.devRef .tc main_v33) = Cert.ReferenceIdeal.ReadP.val_main_v33 (F := Ideal) (m ((c.tc : Thread nD τ).loc main_arg1)) (m ((c.tc : Thread nD τ).loc main_arg2))) :
    W6 m ρ c (Proc.devRef .tc main_v49) = Cert.ReferenceIdeal.Net.layer1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) :=
  (W6_arr m ρ c 2).trans ((Relu1.final (V5 m ρ) c).trans
    (congrArg₂ (Cert.Gcn.biasRelu (n := 100000) (b := 64)) (L47 m ρ c hsrc hdst hnrm) (L48 m ρ c)))

/-! ## The second layer -/

theorem L50 (hsrc : W3 m ρ c (Proc.devRef .tc main_v3) = Cert.ReferenceIdeal.ReadP.val_main_v3 (F := Ideal) (m ((c.tc : Thread nD τ).loc main_arg1)))
    (hdst : W3 m ρ c (Proc.devRef .tc main_v7) = Cert.ReferenceIdeal.ReadP.val_main_v7 (F := Ideal) (m ((c.tc : Thread nD τ).loc main_arg1)))
    (hnrm : W3 m ρ c (Proc.devRef .tc main_v33) = Cert.ReferenceIdeal.ReadP.val_main_v33 (F := Ideal) (m ((c.tc : Thread nD τ).loc main_arg1)) (m ((c.tc : Thread nD τ).loc main_arg2))) :
    W7 m ρ c (Proc.devRef .tc main_v50) = Cert.Gcn.dense (n := 100000) (k := 64) (b := 64) (Cert.ReferenceIdeal.Net.layer1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (m ((c.tc : Thread nD τ).loc main_arg5)) :=
  (W7_arr m ρ c 2).trans ((Dense2.final (V6 m ρ) c).trans
    (congrArg₂ (Cert.Gcn.dense (n := 100000) (k := 64) (b := 64)) (L49 m ρ c hsrc hdst hnrm) (arg5_at6 m ρ c)))

theorem L63 (hsrc : W3 m ρ c (Proc.devRef .tc main_v3) = Cert.ReferenceIdeal.ReadP.val_main_v3 (F := Ideal) (m ((c.tc : Thread nD τ).loc main_arg1)))
    (hdst : W3 m ρ c (Proc.devRef .tc main_v7) = Cert.ReferenceIdeal.ReadP.val_main_v7 (F := Ideal) (m ((c.tc : Thread nD τ).loc main_arg1)))
    (hnrm : W3 m ρ c (Proc.devRef .tc main_v33) = Cert.ReferenceIdeal.ReadP.val_main_v33 (F := Ideal) (m ((c.tc : Thread nD τ).loc main_arg1)) (m ((c.tc : Thread nD τ).loc main_arg2))) :
    W8 m ρ c (Proc.devRef .tc main_v63) = prop64 (Cert.ReferenceIdeal.ReadP.val_main_v3 (F := Ideal) (m ((c.tc : Thread nD τ).loc main_arg1))) (Cert.ReferenceIdeal.ReadP.val_main_v7 (F := Ideal) (m ((c.tc : Thread nD τ).loc main_arg1))) (Cert.ReferenceIdeal.ReadP.val_main_v33 (F := Ideal) (m ((c.tc : Thread nD τ).loc main_arg1)) (m ((c.tc : Thread nD τ).loc main_arg2)))
      (Cert.Gcn.dense (n := 100000) (k := 64) (b := 64) (Cert.ReferenceIdeal.Net.layer1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (m ((c.tc : Thread nD τ).loc main_arg5))) :=
  (stretch3_features (W7 m ρ c)).trans (prop64_congr
    ((src7 m ρ c).trans hsrc) ((dst7 m ρ c).trans hdst) ((nrm7 m ρ c).trans hnrm) (L50 m ρ c hsrc hdst hnrm))

theorem L64 : Cert.Gcn.row1 (b := 64) (W8 m ρ c (Proc.devRef .tc main_v64)) = (m ((c.tc : Thread nD τ).loc main_arg6)) :=
  (congrArg (Cert.Gcn.row1 (b := 64)) (stretch3_bias (W7 m ρ c))).trans
    ((row1_reshape (b := 64) (W7 m ρ c (Proc.devRef .tc main_arg6)) shapeCasts_S64_S1x64).trans (arg6_at7 m ρ c))

/-- Region 3 leaves the second layer's output. -/
theorem L65 (hsrc : W3 m ρ c (Proc.devRef .tc main_v3) = Cert.ReferenceIdeal.ReadP.val_main_v3 (F := Ideal) (m ((c.tc : Thread nD τ).loc main_arg1)))
    (hdst : W3 m ρ c (Proc.devRef .tc main_v7) = Cert.ReferenceIdeal.ReadP.val_main_v7 (F := Ideal) (m ((c.tc : Thread nD τ).loc main_arg1)))
    (hnrm : W3 m ρ c (Proc.devRef .tc main_v33) = Cert.ReferenceIdeal.ReadP.val_main_v33 (F := Ideal) (m ((c.tc : Thread nD τ).loc main_arg1)) (m ((c.tc : Thread nD τ).loc main_arg2))) :
    W9 m ρ c (Proc.devRef .tc main_v65) = Cert.ReferenceIdeal.Net.layer2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) :=
  (W9_arr m ρ c 2).trans ((Relu3.final (V8 m ρ) c).trans
    (congrArg₂ (Cert.Gcn.biasRelu (n := 100000) (b := 64)) (L63 m ρ c hsrc hdst hnrm) (L64 m ρ c)))

/-! ## The last layer -/

theorem L66 (hsrc : W3 m ρ c (Proc.devRef .tc main_v3) = Cert.ReferenceIdeal.ReadP.val_main_v3 (F := Ideal) (m ((c.tc : Thread nD τ).loc main_arg1)))
    (hdst : W3 m ρ c (Proc.devRef .tc main_v7) = Cert.ReferenceIdeal.ReadP.val_main_v7 (F := Ideal) (m ((c.tc : Thread nD τ).loc main_arg1)))
    (hnrm : W3 m ρ c (Proc.devRef .tc main_v33) = Cert.ReferenceIdeal.ReadP.val_main_v33 (F := Ideal) (m ((c.tc : Thread nD τ).loc main_arg1)) (m ((c.tc : Thread nD τ).loc main_arg2))) :
    W10 m ρ c (Proc.devRef .tc main_v66) = Cert.Gcn.dense (n := 100000) (k := 64) (b := 40) (Cert.ReferenceIdeal.Net.layer2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) (m ((c.tc : Thread nD τ).loc main_arg7)) :=
  (W10_arr m ρ c 2).trans ((Dense4.final (V9 m ρ) c).trans
    (congrArg₂ (Cert.Gcn.dense (n := 100000) (k := 64) (b := 40)) (L65 m ρ c hsrc hdst hnrm) (arg7_at9 m ρ c)))

theorem L79 (hsrc : W3 m ρ c (Proc.devRef .tc main_v3) = Cert.ReferenceIdeal.ReadP.val_main_v3 (F := Ideal) (m ((c.tc : Thread nD τ).loc main_arg1)))
    (hdst : W3 m ρ c (Proc.devRef .tc main_v7) = Cert.ReferenceIdeal.ReadP.val_main_v7 (F := Ideal) (m ((c.tc : Thread nD τ).loc main_arg1)))
    (hnrm : W3 m ρ c (Proc.devRef .tc main_v33) = Cert.ReferenceIdeal.ReadP.val_main_v33 (F := Ideal) (m ((c.tc : Thread nD τ).loc main_arg1)) (m ((c.tc : Thread nD τ).loc main_arg2))) :
    W11 m ρ c (Proc.devRef .tc main_v79) = prop40 (Cert.ReferenceIdeal.ReadP.val_main_v3 (F := Ideal) (m ((c.tc : Thread nD τ).loc main_arg1))) (Cert.ReferenceIdeal.ReadP.val_main_v7 (F := Ideal) (m ((c.tc : Thread nD τ).loc main_arg1))) (Cert.ReferenceIdeal.ReadP.val_main_v33 (F := Ideal) (m ((c.tc : Thread nD τ).loc main_arg1)) (m ((c.tc : Thread nD τ).loc main_arg2)))
      (Cert.Gcn.dense (n := 100000) (k := 64) (b := 40) (Cert.ReferenceIdeal.Net.layer2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) (m ((c.tc : Thread nD τ).loc main_arg7))) :=
  (stretch5_features (W10 m ρ c)).trans (prop40_congr
    ((src10 m ρ c).trans hsrc) ((dst10 m ρ c).trans hdst) ((nrm10 m ρ c).trans hnrm) (L66 m ρ c hsrc hdst hnrm))

theorem L80 : Cert.Gcn.row1 (b := 40) (W11 m ρ c (Proc.devRef .tc main_v80)) = (m ((c.tc : Thread nD τ).loc main_arg8)) :=
  (congrArg (Cert.Gcn.row1 (b := 40)) (stretch5_bias (W10 m ρ c))).trans
    ((row1_reshape (b := 40) (W10 m ρ c (Proc.devRef .tc main_arg8)) shapeCasts_S40_S1x40).trans (arg8_at10 m ρ c))

/-- Region 5 leaves the network function of the launch arguments. -/
theorem result_eq (hsrc : W3 m ρ c (Proc.devRef .tc main_v3) = Cert.ReferenceIdeal.ReadP.val_main_v3 (F := Ideal) (m ((c.tc : Thread nD τ).loc main_arg1)))
    (hdst : W3 m ρ c (Proc.devRef .tc main_v7) = Cert.ReferenceIdeal.ReadP.val_main_v7 (F := Ideal) (m ((c.tc : Thread nD τ).loc main_arg1)))
    (hnrm : W3 m ρ c (Proc.devRef .tc main_v33) = Cert.ReferenceIdeal.ReadP.val_main_v33 (F := Ideal) (m ((c.tc : Thread nD τ).loc main_arg1)) (m ((c.tc : Thread nD τ).loc main_arg2))) :
    W12 m ρ c (Proc.devRef .tc main_v81) = Cert.ReferenceIdeal.Net.net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) :=
  (W12_arr m ρ c 2).trans ((Lsm5.final (V11 m ρ) c).trans
    (congrArg₂ (Cert.Gcn.biasLogSoftmax (n := 100000) (b := 40)) (L79 m ρ c hsrc hdst hnrm) (L80 m ρ c)))

end Cert.KernelIdeal.Value'

end
-- ==== Proof.RefValue.lean ====
/-
  The reference program's fold, read at its result buffer, is its last stage.

  The reference program is a straight line of 126 host operations; running it folds their results into the
  buffer contents. The claim is that what the fold leaves in the result buffer is the last stage of the chain of
  stage definitions, as a function of the contents of the nine argument buffers. The line is read in fourteen
  consecutive stretches. Each stretch ends at one value the later ones consume: the edges' sources, their
  destinations, the padded edge weights, the inverse square roots of the degrees, the edges' normalisation, and
  then three times a contraction, a propagation along the edges and a bias with its activation. For each
  stretch two things are shown over any starting contents: what it leaves in the buffer it ends at, given what
  its input buffers hold (the operations' results substituted into each other are literally the stage
  definitions unfolded; the value casts of an outlined call's typed references are identities), and that it
  changes none of the buffers it does not write. The values are then carried from the stretch that produces
  them to the stretches that read them, the arguments from the start to where they are read.
-/
import proofs.«112376_j764504179050_1_alg».proof.Proof.RefRun
import proofs.«112376_j764504179050_1_alg».proof.Proof.RefRead
import Idealize.ShloMosaic.Lib.StableHlo.Run
import Idealize.ShloMosaic.PureOps.Ideal

set_option maxRecDepth 16384

noncomputable section

namespace Cert.ReferenceIdeal.RefValue

open Cert.ReferenceIdeal Cert.ReferenceIdeal.Gen Idealize.ShloMosaic Idealize.ShloMosaic.TcCoe Idealize.SL.Sem Idealize.ShloMosaic.StableHlo

/-- Running two lists of operations one after the other is running their concatenation. -/
theorem after_append (l₁ l₂ : List (HloOp τ sig (Elt Ideal))) (V : Valuation τ sig (Elt Ideal)) :
    after (l₁ ++ l₂) V = after l₂ (after l₁ V) := by
  induction l₁ generalizing V with
  | nil => rfl
  | cons op l ih => exact ih _

/-- A list of operations run as its first `n` operations and then the rest. -/
theorem after_take_drop (l : List (HloOp τ sig (Elt Ideal))) (n : Nat) (V : Valuation τ sig (Elt Ideal)) :
    after l V = after (l.drop n) (after (l.take n) V) := by
  conv_lhs => rw [← List.take_append_drop n l]
  exact after_append _ _ _

/-- The same from position `j` on: the next `n` operations, then the rest from position `k = j + n`. -/
theorem after_drop_split (l : List (HloOp τ sig (Elt Ideal))) (j n k : Nat) (hk : j + n = k) (W : Valuation τ sig (Elt Ideal)) :
    after (l.drop j) W = after (l.drop k) (after ((l.drop j).take n) W) := by
  subst hk
  rw [after_take_drop (l.drop j) n W, List.drop_drop]

/-! ## The value casts of the typed references are identities -/

theorem ofBuf_cst_3 (P : (⟨S_, .f32⟩ : BufTy).Contents (Elt Ideal)) : (TRef.of (sig := sig) (T := ⟨S_, .f32⟩) main_cst_3).ofBuf (Val := Elt Ideal) P = P := rfl
theorem toBuf_cst_3 (P : (⟨S_, .f32⟩ : BufTy).Contents (Elt Ideal)) : (TRef.of (sig := sig) (T := ⟨S_, .f32⟩) main_cst_3).toBuf (Val := Elt Ideal) P = P := rfl
theorem ofBuf_call0_v0 (P : (⟨S_, .f32⟩ : BufTy).Contents (Elt Ideal)) : (TRef.of (sig := sig) (T := ⟨S_, .f32⟩) main_call0_v0).ofBuf (Val := Elt Ideal) P = P := rfl
theorem toBuf_call0_v0 (P : (⟨S_, .f32⟩ : BufTy).Contents (Elt Ideal)) : (TRef.of (sig := sig) (T := ⟨S_, .f32⟩) main_call0_v0).toBuf (Val := Elt Ideal) P = P := rfl
theorem ofBuf_call0_v1 (P : (⟨S100000, .f32⟩ : BufTy).Contents (Elt Ideal)) : (TRef.of (sig := sig) (T := ⟨S100000, .f32⟩) main_call0_v1).ofBuf (Val := Elt Ideal) P = P := rfl
theorem toBuf_call0_v1 (P : (⟨S100000, .f32⟩ : BufTy).Contents (Elt Ideal)) : (TRef.of (sig := sig) (T := ⟨S100000, .f32⟩) main_call0_v1).toBuf (Val := Elt Ideal) P = P := rfl
theorem ofBuf_v14 (P : (⟨S100000, .i1⟩ : BufTy).Contents (Elt Ideal)) : (TRef.of (sig := sig) (T := ⟨S100000, .i1⟩) main_v14).ofBuf (Val := Elt Ideal) P = P := rfl
theorem toBuf_v14 (P : (⟨S100000, .i1⟩ : BufTy).Contents (Elt Ideal)) : (TRef.of (sig := sig) (T := ⟨S100000, .i1⟩) main_v14).toBuf (Val := Elt Ideal) P = P := rfl
theorem ofBuf_v16 (P : (⟨S100000, .f32⟩ : BufTy).Contents (Elt Ideal)) : (TRef.of (sig := sig) (T := ⟨S100000, .f32⟩) main_v16).ofBuf (Val := Elt Ideal) P = P := rfl
theorem toBuf_v16 (P : (⟨S100000, .f32⟩ : BufTy).Contents (Elt Ideal)) : (TRef.of (sig := sig) (T := ⟨S100000, .f32⟩) main_v16).toBuf (Val := Elt Ideal) P = P := rfl
theorem ofBuf_v17 (P : (⟨S100000, .f32⟩ : BufTy).Contents (Elt Ideal)) : (TRef.of (sig := sig) (T := ⟨S100000, .f32⟩) main_v17).ofBuf (Val := Elt Ideal) P = P := rfl
theorem toBuf_v17 (P : (⟨S100000, .f32⟩ : BufTy).Contents (Elt Ideal)) : (TRef.of (sig := sig) (T := ⟨S100000, .f32⟩) main_v17).toBuf (Val := Elt Ideal) P = P := rfl
theorem ofBuf_call1_cst (P : (⟨S_, .f32⟩ : BufTy).Contents (Elt Ideal)) : (TRef.of (sig := sig) (T := ⟨S_, .f32⟩) main_call1_cst).ofBuf (Val := Elt Ideal) P = P := rfl
theorem toBuf_call1_cst (P : (⟨S_, .f32⟩ : BufTy).Contents (Elt Ideal)) : (TRef.of (sig := sig) (T := ⟨S_, .f32⟩) main_call1_cst).toBuf (Val := Elt Ideal) P = P := rfl
theorem ofBuf_call1_v0 (P : (⟨S100000x64, .f32⟩ : BufTy).Contents (Elt Ideal)) : (TRef.of (sig := sig) (T := ⟨S100000x64, .f32⟩) main_call1_v0).ofBuf (Val := Elt Ideal) P = P := rfl
theorem toBuf_call1_v0 (P : (⟨S100000x64, .f32⟩ : BufTy).Contents (Elt Ideal)) : (TRef.of (sig := sig) (T := ⟨S100000x64, .f32⟩) main_call1_v0).toBuf (Val := Elt Ideal) P = P := rfl
theorem ofBuf_v50 (P : (⟨S100000x64, .f32⟩ : BufTy).Contents (Elt Ideal)) : (TRef.of (sig := sig) (T := ⟨S100000x64, .f32⟩) main_v50).ofBuf (Val := Elt Ideal) P = P := rfl
theorem toBuf_v50 (P : (⟨S100000x64, .f32⟩ : BufTy).Contents (Elt Ideal)) : (TRef.of (sig := sig) (T := ⟨S100000x64, .f32⟩) main_v50).toBuf (Val := Elt Ideal) P = P := rfl
theorem ofBuf_v51 (P : (⟨S100000x64, .f32⟩ : BufTy).Contents (Elt Ideal)) : (TRef.of (sig := sig) (T := ⟨S100000x64, .f32⟩) main_v51).ofBuf (Val := Elt Ideal) P = P := rfl
theorem toBuf_v51 (P : (⟨S100000x64, .f32⟩ : BufTy).Contents (Elt Ideal)) : (TRef.of (sig := sig) (T := ⟨S100000x64, .f32⟩) main_v51).toBuf (Val := Elt Ideal) P = P := rfl
theorem ofBuf_call2_cst (P : (⟨S_, .f32⟩ : BufTy).Contents (Elt Ideal)) : (TRef.of (sig := sig) (T := ⟨S_, .f32⟩) main_call2_cst).ofBuf (Val := Elt Ideal) P = P := rfl
theorem toBuf_call2_cst (P : (⟨S_, .f32⟩ : BufTy).Contents (Elt Ideal)) : (TRef.of (sig := sig) (T := ⟨S_, .f32⟩) main_call2_cst).toBuf (Val := Elt Ideal) P = P := rfl
theorem ofBuf_call2_v0 (P : (⟨S100000x64, .f32⟩ : BufTy).Contents (Elt Ideal)) : (TRef.of (sig := sig) (T := ⟨S100000x64, .f32⟩) main_call2_v0).ofBuf (Val := Elt Ideal) P = P := rfl
theorem toBuf_call2_v0 (P : (⟨S100000x64, .f32⟩ : BufTy).Contents (Elt Ideal)) : (TRef.of (sig := sig) (T := ⟨S100000x64, .f32⟩) main_call2_v0).toBuf (Val := Elt Ideal) P = P := rfl
theorem ofBuf_v68 (P : (⟨S100000x64, .f32⟩ : BufTy).Contents (Elt Ideal)) : (TRef.of (sig := sig) (T := ⟨S100000x64, .f32⟩) main_v68).ofBuf (Val := Elt Ideal) P = P := rfl
theorem toBuf_v68 (P : (⟨S100000x64, .f32⟩ : BufTy).Contents (Elt Ideal)) : (TRef.of (sig := sig) (T := ⟨S100000x64, .f32⟩) main_v68).toBuf (Val := Elt Ideal) P = P := rfl
theorem ofBuf_v69 (P : (⟨S100000x64, .f32⟩ : BufTy).Contents (Elt Ideal)) : (TRef.of (sig := sig) (T := ⟨S100000x64, .f32⟩) main_v69).ofBuf (Val := Elt Ideal) P = P := rfl
theorem toBuf_v69 (P : (⟨S100000x64, .f32⟩ : BufTy).Contents (Elt Ideal)) : (TRef.of (sig := sig) (T := ⟨S100000x64, .f32⟩) main_v69).toBuf (Val := Elt Ideal) P = P := rfl
theorem ofBuf_call3_cst (P : (⟨S_, .f32⟩ : BufTy).Contents (Elt Ideal)) : (TRef.of (sig := sig) (T := ⟨S_, .f32⟩) main_call3_cst).ofBuf (Val := Elt Ideal) P = P := rfl
theorem toBuf_call3_cst (P : (⟨S_, .f32⟩ : BufTy).Contents (Elt Ideal)) : (TRef.of (sig := sig) (T := ⟨S_, .f32⟩) main_call3_cst).toBuf (Val := Elt Ideal) P = P := rfl
theorem ofBuf_v86 (P : (⟨S100000x40, .f32⟩ : BufTy).Contents (Elt Ideal)) : (TRef.of (sig := sig) (T := ⟨S100000x40, .f32⟩) main_v86).ofBuf (Val := Elt Ideal) P = P := rfl
theorem toBuf_v86 (P : (⟨S100000x40, .f32⟩ : BufTy).Contents (Elt Ideal)) : (TRef.of (sig := sig) (T := ⟨S100000x40, .f32⟩) main_v86).toBuf (Val := Elt Ideal) P = P := rfl
theorem ofBuf_call3_v0 (P : (⟨S100000, .f32⟩ : BufTy).Contents (Elt Ideal)) : (TRef.of (sig := sig) (T := ⟨S100000, .f32⟩) main_call3_v0).ofBuf (Val := Elt Ideal) P = P := rfl
theorem toBuf_call3_v0 (P : (⟨S100000, .f32⟩ : BufTy).Contents (Elt Ideal)) : (TRef.of (sig := sig) (T := ⟨S100000, .f32⟩) main_call3_v0).toBuf (Val := Elt Ideal) P = P := rfl
theorem ofBuf_call3_cst_0 (P : (⟨S_, .f32⟩ : BufTy).Contents (Elt Ideal)) : (TRef.of (sig := sig) (T := ⟨S_, .f32⟩) main_call3_cst_0).ofBuf (Val := Elt Ideal) P = P := rfl
theorem toBuf_call3_cst_0 (P : (⟨S_, .f32⟩ : BufTy).Contents (Elt Ideal)) : (TRef.of (sig := sig) (T := ⟨S_, .f32⟩) main_call3_cst_0).toBuf (Val := Elt Ideal) P = P := rfl
theorem ofBuf_call3_v1 (P : (⟨S100000, .f32⟩ : BufTy).Contents (Elt Ideal)) : (TRef.of (sig := sig) (T := ⟨S100000, .f32⟩) main_call3_v1).ofBuf (Val := Elt Ideal) P = P := rfl
theorem toBuf_call3_v1 (P : (⟨S100000, .f32⟩ : BufTy).Contents (Elt Ideal)) : (TRef.of (sig := sig) (T := ⟨S100000, .f32⟩) main_call3_v1).toBuf (Val := Elt Ideal) P = P := rfl
theorem ofBuf_call3_v2 (P : (⟨S100000, .f32⟩ : BufTy).Contents (Elt Ideal)) : (TRef.of (sig := sig) (T := ⟨S100000, .f32⟩) main_call3_v2).ofBuf (Val := Elt Ideal) P = P := rfl
theorem toBuf_call3_v2 (P : (⟨S100000, .f32⟩ : BufTy).Contents (Elt Ideal)) : (TRef.of (sig := sig) (T := ⟨S100000, .f32⟩) main_call3_v2).toBuf (Val := Elt Ideal) P = P := rfl
theorem ofBuf_call3_v3 (P : (⟨S100000x1, .f32⟩ : BufTy).Contents (Elt Ideal)) : (TRef.of (sig := sig) (T := ⟨S100000x1, .f32⟩) main_call3_v3).ofBuf (Val := Elt Ideal) P = P := rfl
theorem toBuf_call3_v3 (P : (⟨S100000x1, .f32⟩ : BufTy).Contents (Elt Ideal)) : (TRef.of (sig := sig) (T := ⟨S100000x1, .f32⟩) main_call3_v3).toBuf (Val := Elt Ideal) P = P := rfl
theorem ofBuf_call3_v4 (P : (⟨S100000x40, .f32⟩ : BufTy).Contents (Elt Ideal)) : (TRef.of (sig := sig) (T := ⟨S100000x40, .f32⟩) main_call3_v4).ofBuf (Val := Elt Ideal) P = P := rfl
theorem toBuf_call3_v4 (P : (⟨S100000x40, .f32⟩ : BufTy).Contents (Elt Ideal)) : (TRef.of (sig := sig) (T := ⟨S100000x40, .f32⟩) main_call3_v4).toBuf (Val := Elt Ideal) P = P := rfl
theorem ofBuf_call3_v5 (P : (⟨S100000x40, .f32⟩ : BufTy).Contents (Elt Ideal)) : (TRef.of (sig := sig) (T := ⟨S100000x40, .f32⟩) main_call3_v5).ofBuf (Val := Elt Ideal) P = P := rfl
theorem toBuf_call3_v5 (P : (⟨S100000x40, .f32⟩ : BufTy).Contents (Elt Ideal)) : (TRef.of (sig := sig) (T := ⟨S100000x40, .f32⟩) main_call3_v5).toBuf (Val := Elt Ideal) P = P := rfl
theorem ofBuf_call3_v6 (P : (⟨S100000x40, .f32⟩ : BufTy).Contents (Elt Ideal)) : (TRef.of (sig := sig) (T := ⟨S100000x40, .f32⟩) main_call3_v6).ofBuf (Val := Elt Ideal) P = P := rfl
theorem toBuf_call3_v6 (P : (⟨S100000x40, .f32⟩ : BufTy).Contents (Elt Ideal)) : (TRef.of (sig := sig) (T := ⟨S100000x40, .f32⟩) main_call3_v6).toBuf (Val := Elt Ideal) P = P := rfl
theorem ofBuf_call3_cst_1 (P : (⟨S_, .f32⟩ : BufTy).Contents (Elt Ideal)) : (TRef.of (sig := sig) (T := ⟨S_, .f32⟩) main_call3_cst_1).ofBuf (Val := Elt Ideal) P = P := rfl
theorem toBuf_call3_cst_1 (P : (⟨S_, .f32⟩ : BufTy).Contents (Elt Ideal)) : (TRef.of (sig := sig) (T := ⟨S_, .f32⟩) main_call3_cst_1).toBuf (Val := Elt Ideal) P = P := rfl
theorem ofBuf_call3_v7 (P : (⟨S100000, .f32⟩ : BufTy).Contents (Elt Ideal)) : (TRef.of (sig := sig) (T := ⟨S100000, .f32⟩) main_call3_v7).ofBuf (Val := Elt Ideal) P = P := rfl
theorem toBuf_call3_v7 (P : (⟨S100000, .f32⟩ : BufTy).Contents (Elt Ideal)) : (TRef.of (sig := sig) (T := ⟨S100000, .f32⟩) main_call3_v7).toBuf (Val := Elt Ideal) P = P := rfl
theorem ofBuf_call3_v8 (P : (⟨S100000x1, .f32⟩ : BufTy).Contents (Elt Ideal)) : (TRef.of (sig := sig) (T := ⟨S100000x1, .f32⟩) main_call3_v8).ofBuf (Val := Elt Ideal) P = P := rfl
theorem toBuf_call3_v8 (P : (⟨S100000x1, .f32⟩ : BufTy).Contents (Elt Ideal)) : (TRef.of (sig := sig) (T := ⟨S100000x1, .f32⟩) main_call3_v8).toBuf (Val := Elt Ideal) P = P := rfl
theorem ofBuf_call3_v9 (P : (⟨S100000x1, .f32⟩ : BufTy).Contents (Elt Ideal)) : (TRef.of (sig := sig) (T := ⟨S100000x1, .f32⟩) main_call3_v9).ofBuf (Val := Elt Ideal) P = P := rfl
theorem toBuf_call3_v9 (P : (⟨S100000x1, .f32⟩ : BufTy).Contents (Elt Ideal)) : (TRef.of (sig := sig) (T := ⟨S100000x1, .f32⟩) main_call3_v9).toBuf (Val := Elt Ideal) P = P := rfl
theorem ofBuf_call3_v10 (P : (⟨S100000x40, .f32⟩ : BufTy).Contents (Elt Ideal)) : (TRef.of (sig := sig) (T := ⟨S100000x40, .f32⟩) main_call3_v10).ofBuf (Val := Elt Ideal) P = P := rfl
theorem toBuf_call3_v10 (P : (⟨S100000x40, .f32⟩ : BufTy).Contents (Elt Ideal)) : (TRef.of (sig := sig) (T := ⟨S100000x40, .f32⟩) main_call3_v10).toBuf (Val := Elt Ideal) P = P := rfl
theorem ofBuf_v87 (P : (⟨S100000x40, .f32⟩ : BufTy).Contents (Elt Ideal)) : (TRef.of (sig := sig) (T := ⟨S100000x40, .f32⟩) main_v87).ofBuf (Val := Elt Ideal) P = P := rfl
theorem toBuf_v87 (P : (⟨S100000x40, .f32⟩ : BufTy).Contents (Elt Ideal)) : (TRef.of (sig := sig) (T := ⟨S100000x40, .f32⟩) main_v87).toBuf (Val := Elt Ideal) P = P := rfl

/-! ## What each stretch leaves in the buffer it ends at -/

set_option maxHeartbeats 4000000 in
theorem c1_val (V : Valuation τ sig (Elt Ideal)) :
    after ((RunP.ops (F := Ideal)).take 4) V (Proc.devRef .tc main_v3) = ReadP.val_main_v3 (F := Ideal) (V (Proc.devRef .tc main_arg1)) := by
  simp only [RunP.ops, List.drop_succ_cons, List.drop_zero, List.take_succ_cons, List.take_zero]
  after_results_simp
  rfl

set_option maxHeartbeats 4000000 in
theorem c2_val (V : Valuation τ sig (Elt Ideal)) :
    after (((RunP.ops (F := Ideal)).drop 4).take 4) V (Proc.devRef .tc main_v7) = ReadP.val_main_v7 (F := Ideal) (V (Proc.devRef .tc main_arg1)) := by
  simp only [RunP.ops, List.drop_succ_cons, List.drop_zero, List.take_succ_cons, List.take_zero]
  after_results_simp
  rfl

set_option maxHeartbeats 4000000 in
theorem c3_val (V : Valuation τ sig (Elt Ideal)) :
    after (((RunP.ops (F := Ideal)).drop 8).take 3) V (Proc.devRef .tc main_v9) = ReadP.val_main_v9 (F := Ideal) (V (Proc.devRef .tc main_arg2)) := by
  simp only [RunP.ops, List.drop_succ_cons, List.drop_zero, List.take_succ_cons, List.take_zero]
  after_results_simp
  rfl

set_option maxHeartbeats 4000000 in
theorem c4_val (V : Valuation τ sig (Elt Ideal)) (x1 : (⟨S2x1600000, .i32⟩ : BufTy).Contents (Elt Ideal)) (x2 : (⟨S1600000, .f32⟩ : BufTy).Contents (Elt Ideal))
    (hv7 : V (Proc.devRef .tc main_v7) = ReadP.val_main_v7 (F := Ideal) x1)
    (hv9 : V (Proc.devRef .tc main_v9) = ReadP.val_main_v9 (F := Ideal) x2) :
    after (((RunP.ops (F := Ideal)).drop 11).take 14) V (Proc.devRef .tc main_v17) = ReadP.val_main_v17 (F := Ideal) x1 x2 := by
  simp only [RunP.ops, List.drop_succ_cons, List.drop_zero, List.take_succ_cons, List.take_zero]
  after_results_simp
  repeat (first | rw [ofBuf_cst_3] | rw [toBuf_cst_3] | rw [ofBuf_call0_v0] | rw [toBuf_call0_v0] | rw [ofBuf_call0_v1] | rw [toBuf_call0_v1] | rw [ofBuf_v14] | rw [toBuf_v14] | rw [ofBuf_v16] | rw [toBuf_v16] | rw [ofBuf_v17] | rw [toBuf_v17])
  rw [hv7, hv9]
  unfold ReadP.val_main_v17 ReadP.val_main_call0_v1 ReadP.val_main_call0_v0 ReadP.val_main_cst_3 ReadP.val_main_v16 ReadP.val_main_v15 ReadP.val_main_cst_2 ReadP.val_main_v14 ReadP.val_main_v13 ReadP.val_main_cst_1 ReadP.val_main_v12 ReadP.val_main_v11 ReadP.val_main_v10 ReadP.val_main_cst_0
  generalize ReadP.val_main_v7 (F := Ideal) x1 = av7
  generalize ReadP.val_main_v9 (F := Ideal) x2 = av9
  rfl

set_option maxHeartbeats 4000000 in
theorem c5_val (V : Valuation τ sig (Elt Ideal)) (x1 : (⟨S2x1600000, .i32⟩ : BufTy).Contents (Elt Ideal)) (x2 : (⟨S1600000, .f32⟩ : BufTy).Contents (Elt Ideal))
    (hv3 : V (Proc.devRef .tc main_v3) = ReadP.val_main_v3 (F := Ideal) x1)
    (hv7 : V (Proc.devRef .tc main_v7) = ReadP.val_main_v7 (F := Ideal) x1)
    (hv9 : V (Proc.devRef .tc main_v9) = ReadP.val_main_v9 (F := Ideal) x2)
    (hv17 : V (Proc.devRef .tc main_v17) = ReadP.val_main_v17 (F := Ideal) x1 x2) :
    after (((RunP.ops (F := Ideal)).drop 25).take 20) V (Proc.devRef .tc main_v33) = ReadP.val_main_v33 (F := Ideal) x1 x2 := by
  simp only [RunP.ops, List.drop_succ_cons, List.drop_zero, List.take_succ_cons, List.take_zero]
  after_results_simp
  rw [hv3, hv7, hv9, hv17]
  unfold ReadP.val_main_v33 ReadP.val_main_v32 ReadP.val_main_v31 ReadP.val_main_v30 ReadP.val_main_v29 ReadP.val_main_v28 ReadP.val_main_c_6 ReadP.val_main_v27 ReadP.val_main_v26 ReadP.val_main_c_5 ReadP.val_main_v25 ReadP.val_main_v24 ReadP.val_main_v23 ReadP.val_main_v22 ReadP.val_main_v21 ReadP.val_main_v20 ReadP.val_main_c_4 ReadP.val_main_v19 ReadP.val_main_v18 ReadP.val_main_c
  generalize ReadP.val_main_v3 (F := Ideal) x1 = av3
  generalize ReadP.val_main_v7 (F := Ideal) x1 = av7
  generalize ReadP.val_main_v9 (F := Ideal) x2 = av9
  generalize ReadP.val_main_v17 (F := Ideal) x1 x2 = av17
  rfl

set_option maxHeartbeats 4000000 in
theorem c6_val (V : Valuation τ sig (Elt Ideal)) :
    after (((RunP.ops (F := Ideal)).drop 45).take 1) V (Proc.devRef .tc main_v34) = ReadP.val_main_v34 (F := Ideal) (V (Proc.devRef .tc main_arg0)) (V (Proc.devRef .tc main_arg3)) := by
  simp only [RunP.ops, List.drop_succ_cons, List.drop_zero, List.take_succ_cons, List.take_zero]
  after_results_simp
  rfl

set_option maxHeartbeats 4000000 in
theorem c7_val (V : Valuation τ sig (Elt Ideal)) (x0 : (⟨S100000x256, .f32⟩ : BufTy).Contents (Elt Ideal)) (x1 : (⟨S2x1600000, .i32⟩ : BufTy).Contents (Elt Ideal)) (x2 : (⟨S1600000, .f32⟩ : BufTy).Contents (Elt Ideal)) (x3 : (⟨S256x64, .f32⟩ : BufTy).Contents (Elt Ideal))
    (hv3 : V (Proc.devRef .tc main_v3) = ReadP.val_main_v3 (F := Ideal) x1)
    (hv7 : V (Proc.devRef .tc main_v7) = ReadP.val_main_v7 (F := Ideal) x1)
    (hv33 : V (Proc.devRef .tc main_v33) = ReadP.val_main_v33 (F := Ideal) x1 x2)
    (hv34 : V (Proc.devRef .tc main_v34) = ReadP.val_main_v34 (F := Ideal) x0 x3) :
    after (((RunP.ops (F := Ideal)).drop 46).take 16) V (Proc.devRef .tc main_v47) = ReadP.val_main_v47 (F := Ideal) x0 x1 x2 x3 := by
  simp only [RunP.ops, List.drop_succ_cons, List.drop_zero, List.take_succ_cons, List.take_zero]
  after_results_simp
  rw [hv3, hv7, hv33, hv34]
  unfold ReadP.val_main_v47 ReadP.val_main_v46 ReadP.val_main_v45 ReadP.val_main_v44 ReadP.val_main_v43 ReadP.val_main_v42 ReadP.val_main_v41 ReadP.val_main_v40 ReadP.val_main_v39 ReadP.val_main_v38 ReadP.val_main_v37 ReadP.val_main_v36 ReadP.val_main_v35 ReadP.val_main_cst_9 ReadP.val_main_c_7 ReadP.val_main_c_8
  generalize ReadP.val_main_v3 (F := Ideal) x1 = av3
  generalize ReadP.val_main_v7 (F := Ideal) x1 = av7
  generalize ReadP.val_main_v33 (F := Ideal) x1 x2 = av33
  generalize ReadP.val_main_v34 (F := Ideal) x0 x3 = av34
  rfl

set_option maxHeartbeats 4000000 in
theorem c8_val (V : Valuation τ sig (Elt Ideal)) (x0 : (⟨S100000x256, .f32⟩ : BufTy).Contents (Elt Ideal)) (x1 : (⟨S2x1600000, .i32⟩ : BufTy).Contents (Elt Ideal)) (x2 : (⟨S1600000, .f32⟩ : BufTy).Contents (Elt Ideal)) (x3 : (⟨S256x64, .f32⟩ : BufTy).Contents (Elt Ideal)) (x4 : (⟨S64, .f32⟩ : BufTy).Contents (Elt Ideal))
    (hv47 : V (Proc.devRef .tc main_v47) = ReadP.val_main_v47 (F := Ideal) x0 x1 x2 x3)
    (ha4 : V (Proc.devRef .tc main_arg4) = x4) :
    after (((RunP.ops (F := Ideal)).drop 62).take 6) V (Proc.devRef .tc main_v51) = ReadP.val_main_v51 (F := Ideal) x0 x1 x2 x3 x4 := by
  simp only [RunP.ops, List.drop_succ_cons, List.drop_zero, List.take_succ_cons, List.take_zero]
  after_results_simp
  repeat (first | rw [ofBuf_call1_cst] | rw [toBuf_call1_cst] | rw [ofBuf_call1_v0] | rw [toBuf_call1_v0] | rw [ofBuf_v50] | rw [toBuf_v50] | rw [ofBuf_v51] | rw [toBuf_v51])
  rw [hv47, ha4]
  unfold ReadP.val_main_v51 ReadP.val_main_v50 ReadP.val_main_v49 ReadP.val_main_v48 ReadP.val_main_call1_v0 ReadP.val_main_call1_cst
  generalize ReadP.val_main_v47 (F := Ideal) x0 x1 x2 x3 = av47
  rfl

set_option maxHeartbeats 4000000 in
theorem c9_val (V : Valuation τ sig (Elt Ideal)) (x0 : (⟨S100000x256, .f32⟩ : BufTy).Contents (Elt Ideal)) (x1 : (⟨S2x1600000, .i32⟩ : BufTy).Contents (Elt Ideal)) (x2 : (⟨S1600000, .f32⟩ : BufTy).Contents (Elt Ideal)) (x3 : (⟨S256x64, .f32⟩ : BufTy).Contents (Elt Ideal)) (x4 : (⟨S64, .f32⟩ : BufTy).Contents (Elt Ideal)) (x5 : (⟨S64x64, .f32⟩ : BufTy).Contents (Elt Ideal))
    (hv51 : V (Proc.devRef .tc main_v51) = ReadP.val_main_v51 (F := Ideal) x0 x1 x2 x3 x4)
    (ha5 : V (Proc.devRef .tc main_arg5) = x5) :
    after (((RunP.ops (F := Ideal)).drop 68).take 1) V (Proc.devRef .tc main_v52) = ReadP.val_main_v52 (F := Ideal) x0 x1 x2 x3 x4 x5 := by
  simp only [RunP.ops, List.drop_succ_cons, List.drop_zero, List.take_succ_cons, List.take_zero]
  after_results_simp
  rw [hv51, ha5]
  unfold ReadP.val_main_v52
  generalize ReadP.val_main_v51 (F := Ideal) x0 x1 x2 x3 x4 = av51
  rfl

set_option maxHeartbeats 4000000 in
theorem c10_val (V : Valuation τ sig (Elt Ideal)) (x0 : (⟨S100000x256, .f32⟩ : BufTy).Contents (Elt Ideal)) (x1 : (⟨S2x1600000, .i32⟩ : BufTy).Contents (Elt Ideal)) (x2 : (⟨S1600000, .f32⟩ : BufTy).Contents (Elt Ideal)) (x3 : (⟨S256x64, .f32⟩ : BufTy).Contents (Elt Ideal)) (x4 : (⟨S64, .f32⟩ : BufTy).Contents (Elt Ideal)) (x5 : (⟨S64x64, .f32⟩ : BufTy).Contents (Elt Ideal))
    (hv3 : V (Proc.devRef .tc main_v3) = ReadP.val_main_v3 (F := Ideal) x1)
    (hv7 : V (Proc.devRef .tc main_v7) = ReadP.val_main_v7 (F := Ideal) x1)
    (hv33 : V (Proc.devRef .tc main_v33) = ReadP.val_main_v33 (F := Ideal) x1 x2)
    (hv52 : V (Proc.devRef .tc main_v52) = ReadP.val_main_v52 (F := Ideal) x0 x1 x2 x3 x4 x5) :
    after (((RunP.ops (F := Ideal)).drop 69).take 16) V (Proc.devRef .tc main_v65) = ReadP.val_main_v65 (F := Ideal) x0 x1 x2 x3 x4 x5 := by
  simp only [RunP.ops, List.drop_succ_cons, List.drop_zero, List.take_succ_cons, List.take_zero]
  after_results_simp
  rw [hv3, hv7, hv33, hv52]
  unfold ReadP.val_main_v65 ReadP.val_main_v64 ReadP.val_main_v63 ReadP.val_main_v62 ReadP.val_main_v61 ReadP.val_main_v60 ReadP.val_main_v59 ReadP.val_main_v58 ReadP.val_main_v57 ReadP.val_main_v56 ReadP.val_main_v55 ReadP.val_main_v54 ReadP.val_main_v53 ReadP.val_main_cst_12 ReadP.val_main_c_10 ReadP.val_main_c_11
  generalize ReadP.val_main_v3 (F := Ideal) x1 = av3
  generalize ReadP.val_main_v7 (F := Ideal) x1 = av7
  generalize ReadP.val_main_v33 (F := Ideal) x1 x2 = av33
  generalize ReadP.val_main_v52 (F := Ideal) x0 x1 x2 x3 x4 x5 = av52
  rfl

set_option maxHeartbeats 4000000 in
theorem c11_val (V : Valuation τ sig (Elt Ideal)) (x0 : (⟨S100000x256, .f32⟩ : BufTy).Contents (Elt Ideal)) (x1 : (⟨S2x1600000, .i32⟩ : BufTy).Contents (Elt Ideal)) (x2 : (⟨S1600000, .f32⟩ : BufTy).Contents (Elt Ideal)) (x3 : (⟨S256x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal))
    (hv65 : V (Proc.devRef .tc main_v65) = ReadP.val_main_v65 (F := Ideal) x0 x1 x2 x3 x4 x5)
    (ha6 : V (Proc.devRef .tc main_arg6) = x6) :
    after (((RunP.ops (F := Ideal)).drop 85).take 6) V (Proc.devRef .tc main_v69) = ReadP.val_main_v69 (F := Ideal) x0 x1 x2 x3 x4 x5 x6 := by
  simp only [RunP.ops, List.drop_succ_cons, List.drop_zero, List.take_succ_cons, List.take_zero]
  after_results_simp
  repeat (first | rw [ofBuf_call2_cst] | rw [toBuf_call2_cst] | rw [ofBuf_call2_v0] | rw [toBuf_call2_v0] | rw [ofBuf_v68] | rw [toBuf_v68] | rw [ofBuf_v69] | rw [toBuf_v69])
  rw [hv65, ha6]
  unfold ReadP.val_main_v69 ReadP.val_main_v68 ReadP.val_main_v67 ReadP.val_main_v66 ReadP.val_main_call2_v0 ReadP.val_main_call2_cst
  generalize ReadP.val_main_v65 (F := Ideal) x0 x1 x2 x3 x4 x5 = av65
  rfl

set_option maxHeartbeats 4000000 in
theorem c12_val (V : Valuation τ sig (Elt Ideal)) (x0 : (⟨S100000x256, .f32⟩ : BufTy).Contents (Elt Ideal)) (x1 : (⟨S2x1600000, .i32⟩ : BufTy).Contents (Elt Ideal)) (x2 : (⟨S1600000, .f32⟩ : BufTy).Contents (Elt Ideal)) (x3 : (⟨S256x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x40, .f32⟩ : BufTy).Contents (Elt Ideal))
    (hv69 : V (Proc.devRef .tc main_v69) = ReadP.val_main_v69 (F := Ideal) x0 x1 x2 x3 x4 x5 x6)
    (ha7 : V (Proc.devRef .tc main_arg7) = x7) :
    after (((RunP.ops (F := Ideal)).drop 91).take 1) V (Proc.devRef .tc main_v70) = ReadP.val_main_v70 (F := Ideal) x0 x1 x2 x3 x4 x5 x6 x7 := by
  simp only [RunP.ops, List.drop_succ_cons, List.drop_zero, List.take_succ_cons, List.take_zero]
  after_results_simp
  rw [hv69, ha7]
  unfold ReadP.val_main_v70
  generalize ReadP.val_main_v69 (F := Ideal) x0 x1 x2 x3 x4 x5 x6 = av69
  rfl

set_option maxHeartbeats 4000000 in
theorem c13_val (V : Valuation τ sig (Elt Ideal)) (x0 : (⟨S100000x256, .f32⟩ : BufTy).Contents (Elt Ideal)) (x1 : (⟨S2x1600000, .i32⟩ : BufTy).Contents (Elt Ideal)) (x2 : (⟨S1600000, .f32⟩ : BufTy).Contents (Elt Ideal)) (x3 : (⟨S256x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x40, .f32⟩ : BufTy).Contents (Elt Ideal))
    (hv3 : V (Proc.devRef .tc main_v3) = ReadP.val_main_v3 (F := Ideal) x1)
    (hv7 : V (Proc.devRef .tc main_v7) = ReadP.val_main_v7 (F := Ideal) x1)
    (hv33 : V (Proc.devRef .tc main_v33) = ReadP.val_main_v33 (F := Ideal) x1 x2)
    (hv70 : V (Proc.devRef .tc main_v70) = ReadP.val_main_v70 (F := Ideal) x0 x1 x2 x3 x4 x5 x6 x7) :
    after (((RunP.ops (F := Ideal)).drop 92).take 16) V (Proc.devRef .tc main_v83) = ReadP.val_main_v83 (F := Ideal) x0 x1 x2 x3 x4 x5 x6 x7 := by
  simp only [RunP.ops, List.drop_succ_cons, List.drop_zero, List.take_succ_cons, List.take_zero]
  after_results_simp
  rw [hv3, hv7, hv33, hv70]
  unfold ReadP.val_main_v83 ReadP.val_main_v82 ReadP.val_main_v81 ReadP.val_main_v80 ReadP.val_main_v79 ReadP.val_main_v78 ReadP.val_main_v77 ReadP.val_main_v76 ReadP.val_main_v75 ReadP.val_main_v74 ReadP.val_main_v73 ReadP.val_main_v72 ReadP.val_main_v71 ReadP.val_main_cst_15 ReadP.val_main_c_13 ReadP.val_main_c_14
  generalize ReadP.val_main_v3 (F := Ideal) x1 = av3
  generalize ReadP.val_main_v7 (F := Ideal) x1 = av7
  generalize ReadP.val_main_v33 (F := Ideal) x1 x2 = av33
  generalize ReadP.val_main_v70 (F := Ideal) x0 x1 x2 x3 x4 x5 x6 x7 = av70
  rfl

set_option maxHeartbeats 4000000 in
theorem c14_val (V : Valuation τ sig (Elt Ideal)) (x0 : (⟨S100000x256, .f32⟩ : BufTy).Contents (Elt Ideal)) (x1 : (⟨S2x1600000, .i32⟩ : BufTy).Contents (Elt Ideal)) (x2 : (⟨S1600000, .f32⟩ : BufTy).Contents (Elt Ideal)) (x3 : (⟨S256x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x40, .f32⟩ : BufTy).Contents (Elt Ideal)) (x8 : (⟨S40, .f32⟩ : BufTy).Contents (Elt Ideal))
    (hv83 : V (Proc.devRef .tc main_v83) = ReadP.val_main_v83 (F := Ideal) x0 x1 x2 x3 x4 x5 x6 x7)
    (ha8 : V (Proc.devRef .tc main_arg8) = x8) :
    after ((RunP.ops (F := Ideal)).drop 108) V (Proc.devRef .tc main_v87) = ReadP.val_main_v87 (F := Ideal) x0 x1 x2 x3 x4 x5 x6 x7 x8 := by
  simp only [RunP.ops, List.drop_succ_cons, List.drop_zero, List.take_succ_cons, List.take_zero]
  after_results_simp
  repeat (first | rw [ofBuf_call3_cst] | rw [toBuf_call3_cst] | rw [ofBuf_v86] | rw [toBuf_v86] | rw [ofBuf_call3_v0] | rw [toBuf_call3_v0] | rw [ofBuf_call3_cst_0] | rw [toBuf_call3_cst_0] | rw [ofBuf_call3_v1] | rw [toBuf_call3_v1] | rw [ofBuf_call3_v2] | rw [toBuf_call3_v2] | rw [ofBuf_call3_v3] | rw [toBuf_call3_v3] | rw [ofBuf_call3_v4] | rw [toBuf_call3_v4] | rw [ofBuf_call3_v5] | rw [toBuf_call3_v5] | rw [ofBuf_call3_v6] | rw [toBuf_call3_v6] | rw [ofBuf_call3_cst_1] | rw [toBuf_call3_cst_1] | rw [ofBuf_call3_v7] | rw [toBuf_call3_v7] | rw [ofBuf_call3_v8] | rw [toBuf_call3_v8] | rw [ofBuf_call3_v9] | rw [toBuf_call3_v9] | rw [ofBuf_call3_v10] | rw [toBuf_call3_v10] | rw [ofBuf_v87] | rw [toBuf_v87])
  rw [hv83, ha8]
  unfold ReadP.val_main_v87 ReadP.val_main_call3_v10 ReadP.val_main_call3_v9 ReadP.val_main_call3_v8 ReadP.val_main_call3_v7 ReadP.val_main_call3_v6 ReadP.val_main_call3_cst_1 ReadP.val_main_call3_v5 ReadP.val_main_call3_v4 ReadP.val_main_call3_v3 ReadP.val_main_call3_v2 ReadP.val_main_call3_v1 ReadP.val_main_call3_cst_0 ReadP.val_main_call3_v0 ReadP.val_main_call3_cst ReadP.val_main_v86 ReadP.val_main_v85 ReadP.val_main_v84
  generalize ReadP.val_main_v83 (F := Ideal) x0 x1 x2 x3 x4 x5 x6 x7 = av83
  rfl

/-! ## What each stretch writes, and so what it keeps -/

/-- The buffers the operations 0 … 3 write. -/
abbrev W1 : List (Ref sig .tc) := [main_v0, main_v1, main_v2, main_v3]
theorem c1_writes : ((RunP.ops (F := Ideal)).take 4).Forall fun op => op.writes ⊆ (W1.map (Proc.devRef (τ := τ) .tc)).toFinset := by
  simp only [RunP.ops, List.drop_succ_cons, List.drop_zero, List.take_succ_cons, List.take_zero, List.Forall]
  repeat' apply And.intro
  all_goals (simp only [nullary_writes, unary_writes, binary_writes, ternary_writes, reshape_writes, Finset.singleton_subset_iff, List.mem_toFinset]; exact List.mem_map_of_mem (by decide))
theorem c1_keep (V : Valuation τ sig (Elt Ideal)) (r : Ref sig .tc) (hr : r ∉ W1) :
    after ((RunP.ops (F := Ideal)).take 4) V (Proc.devRef .tc r) = V (Proc.devRef .tc r) :=
  after_of_writes_sub _ V c1_writes hr

/-- The buffers the operations 4 … 7 write. -/
abbrev W2 : List (Ref sig .tc) := [main_v4, main_v5, main_v6, main_v7]
theorem c2_writes : (((RunP.ops (F := Ideal)).drop 4).take 4).Forall fun op => op.writes ⊆ (W2.map (Proc.devRef (τ := τ) .tc)).toFinset := by
  simp only [RunP.ops, List.drop_succ_cons, List.drop_zero, List.take_succ_cons, List.take_zero, List.Forall]
  repeat' apply And.intro
  all_goals (simp only [nullary_writes, unary_writes, binary_writes, ternary_writes, reshape_writes, Finset.singleton_subset_iff, List.mem_toFinset]; exact List.mem_map_of_mem (by decide))
theorem c2_keep (V : Valuation τ sig (Elt Ideal)) (r : Ref sig .tc) (hr : r ∉ W2) :
    after (((RunP.ops (F := Ideal)).drop 4).take 4) V (Proc.devRef .tc r) = V (Proc.devRef .tc r) :=
  after_of_writes_sub _ V c2_writes hr

/-- The buffers the operations 8 … 10 write. -/
abbrev W3 : List (Ref sig .tc) := [main_cst, main_v8, main_v9]
theorem c3_writes : (((RunP.ops (F := Ideal)).drop 8).take 3).Forall fun op => op.writes ⊆ (W3.map (Proc.devRef (τ := τ) .tc)).toFinset := by
  simp only [RunP.ops, List.drop_succ_cons, List.drop_zero, List.take_succ_cons, List.take_zero, List.Forall]
  repeat' apply And.intro
  all_goals (simp only [nullary_writes, unary_writes, binary_writes, ternary_writes, reshape_writes, Finset.singleton_subset_iff, List.mem_toFinset]; exact List.mem_map_of_mem (by decide))
theorem c3_keep (V : Valuation τ sig (Elt Ideal)) (r : Ref sig .tc) (hr : r ∉ W3) :
    after (((RunP.ops (F := Ideal)).drop 8).take 3) V (Proc.devRef .tc r) = V (Proc.devRef .tc r) :=
  after_of_writes_sub _ V c3_writes hr

/-- The buffers the operations 11 … 24 write. -/
abbrev W4 : List (Ref sig .tc) := [main_cst_0, main_v10, main_v11, main_v12, main_cst_1, main_v13, main_v14, main_cst_2, main_v15, main_v16, main_cst_3, main_call0_v0, main_call0_v1, main_v17]
theorem c4_writes : (((RunP.ops (F := Ideal)).drop 11).take 14).Forall fun op => op.writes ⊆ (W4.map (Proc.devRef (τ := τ) .tc)).toFinset := by
  simp only [RunP.ops, List.drop_succ_cons, List.drop_zero, List.take_succ_cons, List.take_zero, List.Forall]
  repeat' apply And.intro
  all_goals (simp only [nullary_writes, unary_writes, binary_writes, ternary_writes, reshape_writes, Finset.singleton_subset_iff, List.mem_toFinset]; exact List.mem_map_of_mem (by decide))
theorem c4_keep (V : Valuation τ sig (Elt Ideal)) (r : Ref sig .tc) (hr : r ∉ W4) :
    after (((RunP.ops (F := Ideal)).drop 11).take 14) V (Proc.devRef .tc r) = V (Proc.devRef .tc r) :=
  after_of_writes_sub _ V c4_writes hr

/-- The buffers the operations 25 … 44 write. -/
abbrev W5 : List (Ref sig .tc) := [main_c, main_v18, main_v19, main_c_4, main_v20, main_v21, main_v22, main_v23, main_v24, main_v25, main_c_5, main_v26, main_v27, main_c_6, main_v28, main_v29, main_v30, main_v31, main_v32, main_v33]
theorem c5_writes : (((RunP.ops (F := Ideal)).drop 25).take 20).Forall fun op => op.writes ⊆ (W5.map (Proc.devRef (τ := τ) .tc)).toFinset := by
  simp only [RunP.ops, List.drop_succ_cons, List.drop_zero, List.take_succ_cons, List.take_zero, List.Forall]
  repeat' apply And.intro
  all_goals (simp only [nullary_writes, unary_writes, binary_writes, ternary_writes, reshape_writes, Finset.singleton_subset_iff, List.mem_toFinset]; exact List.mem_map_of_mem (by decide))
theorem c5_keep (V : Valuation τ sig (Elt Ideal)) (r : Ref sig .tc) (hr : r ∉ W5) :
    after (((RunP.ops (F := Ideal)).drop 25).take 20) V (Proc.devRef .tc r) = V (Proc.devRef .tc r) :=
  after_of_writes_sub _ V c5_writes hr

/-- The buffers the operations 45 … 45 write. -/
abbrev W6 : List (Ref sig .tc) := [main_v34]
theorem c6_writes : (((RunP.ops (F := Ideal)).drop 45).take 1).Forall fun op => op.writes ⊆ (W6.map (Proc.devRef (τ := τ) .tc)).toFinset := by
  simp only [RunP.ops, List.drop_succ_cons, List.drop_zero, List.take_succ_cons, List.take_zero, List.Forall]
  repeat' apply And.intro
  all_goals (simp only [nullary_writes, unary_writes, binary_writes, ternary_writes, reshape_writes, Finset.singleton_subset_iff, List.mem_toFinset]; exact List.mem_map_of_mem (by decide))
theorem c6_keep (V : Valuation τ sig (Elt Ideal)) (r : Ref sig .tc) (hr : r ∉ W6) :
    after (((RunP.ops (F := Ideal)).drop 45).take 1) V (Proc.devRef .tc r) = V (Proc.devRef .tc r) :=
  after_of_writes_sub _ V c6_writes hr

/-- The buffers the operations 46 … 61 write. -/
abbrev W7 : List (Ref sig .tc) := [main_c_7, main_v35, main_v36, main_c_8, main_v37, main_v38, main_v39, main_v40, main_v41, main_v42, main_v43, main_v44, main_cst_9, main_v45, main_v46, main_v47]
theorem c7_writes : (((RunP.ops (F := Ideal)).drop 46).take 16).Forall fun op => op.writes ⊆ (W7.map (Proc.devRef (τ := τ) .tc)).toFinset := by
  simp only [RunP.ops, List.drop_succ_cons, List.drop_zero, List.take_succ_cons, List.take_zero, List.Forall]
  repeat' apply And.intro
  all_goals (simp only [nullary_writes, unary_writes, binary_writes, ternary_writes, reshape_writes, Finset.singleton_subset_iff, List.mem_toFinset]; exact List.mem_map_of_mem (by decide))
theorem c7_keep (V : Valuation τ sig (Elt Ideal)) (r : Ref sig .tc) (hr : r ∉ W7) :
    after (((RunP.ops (F := Ideal)).drop 46).take 16) V (Proc.devRef .tc r) = V (Proc.devRef .tc r) :=
  after_of_writes_sub _ V c7_writes hr

/-- The buffers the operations 62 … 67 write. -/
abbrev W8 : List (Ref sig .tc) := [main_v48, main_v49, main_v50, main_call1_cst, main_call1_v0, main_v51]
theorem c8_writes : (((RunP.ops (F := Ideal)).drop 62).take 6).Forall fun op => op.writes ⊆ (W8.map (Proc.devRef (τ := τ) .tc)).toFinset := by
  simp only [RunP.ops, List.drop_succ_cons, List.drop_zero, List.take_succ_cons, List.take_zero, List.Forall]
  repeat' apply And.intro
  all_goals (simp only [nullary_writes, unary_writes, binary_writes, ternary_writes, reshape_writes, Finset.singleton_subset_iff, List.mem_toFinset]; exact List.mem_map_of_mem (by decide))
theorem c8_keep (V : Valuation τ sig (Elt Ideal)) (r : Ref sig .tc) (hr : r ∉ W8) :
    after (((RunP.ops (F := Ideal)).drop 62).take 6) V (Proc.devRef .tc r) = V (Proc.devRef .tc r) :=
  after_of_writes_sub _ V c8_writes hr

/-- The buffers the operations 68 … 68 write. -/
abbrev W9 : List (Ref sig .tc) := [main_v52]
theorem c9_writes : (((RunP.ops (F := Ideal)).drop 68).take 1).Forall fun op => op.writes ⊆ (W9.map (Proc.devRef (τ := τ) .tc)).toFinset := by
  simp only [RunP.ops, List.drop_succ_cons, List.drop_zero, List.take_succ_cons, List.take_zero, List.Forall]
  repeat' apply And.intro
  all_goals (simp only [nullary_writes, unary_writes, binary_writes, ternary_writes, reshape_writes, Finset.singleton_subset_iff, List.mem_toFinset]; exact List.mem_map_of_mem (by decide))
theorem c9_keep (V : Valuation τ sig (Elt Ideal)) (r : Ref sig .tc) (hr : r ∉ W9) :
    after (((RunP.ops (F := Ideal)).drop 68).take 1) V (Proc.devRef .tc r) = V (Proc.devRef .tc r) :=
  after_of_writes_sub _ V c9_writes hr

/-- The buffers the operations 69 … 84 write. -/
abbrev W10 : List (Ref sig .tc) := [main_c_10, main_v53, main_v54, main_c_11, main_v55, main_v56, main_v57, main_v58, main_v59, main_v60, main_v61, main_v62, main_cst_12, main_v63, main_v64, main_v65]
theorem c10_writes : (((RunP.ops (F := Ideal)).drop 69).take 16).Forall fun op => op.writes ⊆ (W10.map (Proc.devRef (τ := τ) .tc)).toFinset := by
  simp only [RunP.ops, List.drop_succ_cons, List.drop_zero, List.take_succ_cons, List.take_zero, List.Forall]
  repeat' apply And.intro
  all_goals (simp only [nullary_writes, unary_writes, binary_writes, ternary_writes, reshape_writes, Finset.singleton_subset_iff, List.mem_toFinset]; exact List.mem_map_of_mem (by decide))
theorem c10_keep (V : Valuation τ sig (Elt Ideal)) (r : Ref sig .tc) (hr : r ∉ W10) :
    after (((RunP.ops (F := Ideal)).drop 69).take 16) V (Proc.devRef .tc r) = V (Proc.devRef .tc r) :=
  after_of_writes_sub _ V c10_writes hr

/-- The buffers the operations 85 … 90 write. -/
abbrev W11 : List (Ref sig .tc) := [main_v66, main_v67, main_v68, main_call2_cst, main_call2_v0, main_v69]
theorem c11_writes : (((RunP.ops (F := Ideal)).drop 85).take 6).Forall fun op => op.writes ⊆ (W11.map (Proc.devRef (τ := τ) .tc)).toFinset := by
  simp only [RunP.ops, List.drop_succ_cons, List.drop_zero, List.take_succ_cons, List.take_zero, List.Forall]
  repeat' apply And.intro
  all_goals (simp only [nullary_writes, unary_writes, binary_writes, ternary_writes, reshape_writes, Finset.singleton_subset_iff, List.mem_toFinset]; exact List.mem_map_of_mem (by decide))
theorem c11_keep (V : Valuation τ sig (Elt Ideal)) (r : Ref sig .tc) (hr : r ∉ W11) :
    after (((RunP.ops (F := Ideal)).drop 85).take 6) V (Proc.devRef .tc r) = V (Proc.devRef .tc r) :=
  after_of_writes_sub _ V c11_writes hr

/-- The buffers the operations 91 … 91 write. -/
abbrev W12 : List (Ref sig .tc) := [main_v70]
theorem c12_writes : (((RunP.ops (F := Ideal)).drop 91).take 1).Forall fun op => op.writes ⊆ (W12.map (Proc.devRef (τ := τ) .tc)).toFinset := by
  simp only [RunP.ops, List.drop_succ_cons, List.drop_zero, List.take_succ_cons, List.take_zero, List.Forall]
  repeat' apply And.intro
  all_goals (simp only [nullary_writes, unary_writes, binary_writes, ternary_writes, reshape_writes, Finset.singleton_subset_iff, List.mem_toFinset]; exact List.mem_map_of_mem (by decide))
theorem c12_keep (V : Valuation τ sig (Elt Ideal)) (r : Ref sig .tc) (hr : r ∉ W12) :
    after (((RunP.ops (F := Ideal)).drop 91).take 1) V (Proc.devRef .tc r) = V (Proc.devRef .tc r) :=
  after_of_writes_sub _ V c12_writes hr

/-- The buffers the operations 92 … 107 write. -/
abbrev W13 : List (Ref sig .tc) := [main_c_13, main_v71, main_v72, main_c_14, main_v73, main_v74, main_v75, main_v76, main_v77, main_v78, main_v79, main_v80, main_cst_15, main_v81, main_v82, main_v83]
theorem c13_writes : (((RunP.ops (F := Ideal)).drop 92).take 16).Forall fun op => op.writes ⊆ (W13.map (Proc.devRef (τ := τ) .tc)).toFinset := by
  simp only [RunP.ops, List.drop_succ_cons, List.drop_zero, List.take_succ_cons, List.take_zero, List.Forall]
  repeat' apply And.intro
  all_goals (simp only [nullary_writes, unary_writes, binary_writes, ternary_writes, reshape_writes, Finset.singleton_subset_iff, List.mem_toFinset]; exact List.mem_map_of_mem (by decide))
theorem c13_keep (V : Valuation τ sig (Elt Ideal)) (r : Ref sig .tc) (hr : r ∉ W13) :
    after (((RunP.ops (F := Ideal)).drop 92).take 16) V (Proc.devRef .tc r) = V (Proc.devRef .tc r) :=
  after_of_writes_sub _ V c13_writes hr

/-! ## The boundaries between the stretches -/

def B1 (V : Valuation τ sig (Elt Ideal)) : Valuation τ sig (Elt Ideal) := after ((RunP.ops (F := Ideal)).take 4) V
def B2 (V : Valuation τ sig (Elt Ideal)) : Valuation τ sig (Elt Ideal) := after (((RunP.ops (F := Ideal)).drop 4).take 4) (B1 V)
def B3 (V : Valuation τ sig (Elt Ideal)) : Valuation τ sig (Elt Ideal) := after (((RunP.ops (F := Ideal)).drop 8).take 3) (B2 V)
def B4 (V : Valuation τ sig (Elt Ideal)) : Valuation τ sig (Elt Ideal) := after (((RunP.ops (F := Ideal)).drop 11).take 14) (B3 V)
def B5 (V : Valuation τ sig (Elt Ideal)) : Valuation τ sig (Elt Ideal) := after (((RunP.ops (F := Ideal)).drop 25).take 20) (B4 V)
def B6 (V : Valuation τ sig (Elt Ideal)) : Valuation τ sig (Elt Ideal) := after (((RunP.ops (F := Ideal)).drop 45).take 1) (B5 V)
def B7 (V : Valuation τ sig (Elt Ideal)) : Valuation τ sig (Elt Ideal) := after (((RunP.ops (F := Ideal)).drop 46).take 16) (B6 V)
def B8 (V : Valuation τ sig (Elt Ideal)) : Valuation τ sig (Elt Ideal) := after (((RunP.ops (F := Ideal)).drop 62).take 6) (B7 V)
def B9 (V : Valuation τ sig (Elt Ideal)) : Valuation τ sig (Elt Ideal) := after (((RunP.ops (F := Ideal)).drop 68).take 1) (B8 V)
def B10 (V : Valuation τ sig (Elt Ideal)) : Valuation τ sig (Elt Ideal) := after (((RunP.ops (F := Ideal)).drop 69).take 16) (B9 V)
def B11 (V : Valuation τ sig (Elt Ideal)) : Valuation τ sig (Elt Ideal) := after (((RunP.ops (F := Ideal)).drop 85).take 6) (B10 V)
def B12 (V : Valuation τ sig (Elt Ideal)) : Valuation τ sig (Elt Ideal) := after (((RunP.ops (F := Ideal)).drop 91).take 1) (B11 V)
def B13 (V : Valuation τ sig (Elt Ideal)) : Valuation τ sig (Elt Ideal) := after (((RunP.ops (F := Ideal)).drop 92).take 16) (B12 V)
def B14 (V : Valuation τ sig (Elt Ideal)) : Valuation τ sig (Elt Ideal) := after ((RunP.ops (F := Ideal)).drop 108) (B13 V)

/-- The whole fold is the fourteen stretches one after the other. -/
theorem fold_eq (V : Valuation τ sig (Elt Ideal)) : after (RunP.ops (F := Ideal)) V = B14 V :=
  (after_take_drop (RunP.ops (F := Ideal)) 4 V).trans <|
  (after_drop_split (RunP.ops (F := Ideal)) 4 4 8 rfl (B1 V)).trans <|
  (after_drop_split (RunP.ops (F := Ideal)) 8 3 11 rfl (B2 V)).trans <|
  (after_drop_split (RunP.ops (F := Ideal)) 11 14 25 rfl (B3 V)).trans <|
  (after_drop_split (RunP.ops (F := Ideal)) 25 20 45 rfl (B4 V)).trans <|
  (after_drop_split (RunP.ops (F := Ideal)) 45 1 46 rfl (B5 V)).trans <|
  (after_drop_split (RunP.ops (F := Ideal)) 46 16 62 rfl (B6 V)).trans <|
  (after_drop_split (RunP.ops (F := Ideal)) 62 6 68 rfl (B7 V)).trans <|
  (after_drop_split (RunP.ops (F := Ideal)) 68 1 69 rfl (B8 V)).trans <|
  (after_drop_split (RunP.ops (F := Ideal)) 69 16 85 rfl (B9 V)).trans <|
  (after_drop_split (RunP.ops (F := Ideal)) 85 6 91 rfl (B10 V)).trans <|
  (after_drop_split (RunP.ops (F := Ideal)) 91 1 92 rfl (B11 V)).trans <|
  (after_drop_split (RunP.ops (F := Ideal)) 92 16 108 rfl (B12 V)).trans <|
  rfl

/-! The launch arguments are written by nothing: at every boundary they are as launched. -/

theorem B1_arg0 (V : Valuation τ sig (Elt Ideal)) : B1 V (Proc.devRef .tc main_arg0) = V (Proc.devRef .tc main_arg0) := (c1_keep V main_arg0 (by decide))
theorem B1_arg1 (V : Valuation τ sig (Elt Ideal)) : B1 V (Proc.devRef .tc main_arg1) = V (Proc.devRef .tc main_arg1) := (c1_keep V main_arg1 (by decide))
theorem B1_arg2 (V : Valuation τ sig (Elt Ideal)) : B1 V (Proc.devRef .tc main_arg2) = V (Proc.devRef .tc main_arg2) := (c1_keep V main_arg2 (by decide))
theorem B1_arg3 (V : Valuation τ sig (Elt Ideal)) : B1 V (Proc.devRef .tc main_arg3) = V (Proc.devRef .tc main_arg3) := (c1_keep V main_arg3 (by decide))
theorem B1_arg4 (V : Valuation τ sig (Elt Ideal)) : B1 V (Proc.devRef .tc main_arg4) = V (Proc.devRef .tc main_arg4) := (c1_keep V main_arg4 (by decide))
theorem B1_arg5 (V : Valuation τ sig (Elt Ideal)) : B1 V (Proc.devRef .tc main_arg5) = V (Proc.devRef .tc main_arg5) := (c1_keep V main_arg5 (by decide))
theorem B1_arg6 (V : Valuation τ sig (Elt Ideal)) : B1 V (Proc.devRef .tc main_arg6) = V (Proc.devRef .tc main_arg6) := (c1_keep V main_arg6 (by decide))
theorem B1_arg7 (V : Valuation τ sig (Elt Ideal)) : B1 V (Proc.devRef .tc main_arg7) = V (Proc.devRef .tc main_arg7) := (c1_keep V main_arg7 (by decide))
theorem B1_arg8 (V : Valuation τ sig (Elt Ideal)) : B1 V (Proc.devRef .tc main_arg8) = V (Proc.devRef .tc main_arg8) := (c1_keep V main_arg8 (by decide))
theorem B2_arg0 (V : Valuation τ sig (Elt Ideal)) : B2 V (Proc.devRef .tc main_arg0) = V (Proc.devRef .tc main_arg0) := (c2_keep (B1 V) main_arg0 (by decide)).trans (B1_arg0 V)
theorem B2_arg2 (V : Valuation τ sig (Elt Ideal)) : B2 V (Proc.devRef .tc main_arg2) = V (Proc.devRef .tc main_arg2) := (c2_keep (B1 V) main_arg2 (by decide)).trans (B1_arg2 V)
theorem B2_arg3 (V : Valuation τ sig (Elt Ideal)) : B2 V (Proc.devRef .tc main_arg3) = V (Proc.devRef .tc main_arg3) := (c2_keep (B1 V) main_arg3 (by decide)).trans (B1_arg3 V)
theorem B2_arg4 (V : Valuation τ sig (Elt Ideal)) : B2 V (Proc.devRef .tc main_arg4) = V (Proc.devRef .tc main_arg4) := (c2_keep (B1 V) main_arg4 (by decide)).trans (B1_arg4 V)
theorem B2_arg5 (V : Valuation τ sig (Elt Ideal)) : B2 V (Proc.devRef .tc main_arg5) = V (Proc.devRef .tc main_arg5) := (c2_keep (B1 V) main_arg5 (by decide)).trans (B1_arg5 V)
theorem B2_arg6 (V : Valuation τ sig (Elt Ideal)) : B2 V (Proc.devRef .tc main_arg6) = V (Proc.devRef .tc main_arg6) := (c2_keep (B1 V) main_arg6 (by decide)).trans (B1_arg6 V)
theorem B2_arg7 (V : Valuation τ sig (Elt Ideal)) : B2 V (Proc.devRef .tc main_arg7) = V (Proc.devRef .tc main_arg7) := (c2_keep (B1 V) main_arg7 (by decide)).trans (B1_arg7 V)
theorem B2_arg8 (V : Valuation τ sig (Elt Ideal)) : B2 V (Proc.devRef .tc main_arg8) = V (Proc.devRef .tc main_arg8) := (c2_keep (B1 V) main_arg8 (by decide)).trans (B1_arg8 V)
theorem B3_arg0 (V : Valuation τ sig (Elt Ideal)) : B3 V (Proc.devRef .tc main_arg0) = V (Proc.devRef .tc main_arg0) := (c3_keep (B2 V) main_arg0 (by decide)).trans (B2_arg0 V)
theorem B3_arg3 (V : Valuation τ sig (Elt Ideal)) : B3 V (Proc.devRef .tc main_arg3) = V (Proc.devRef .tc main_arg3) := (c3_keep (B2 V) main_arg3 (by decide)).trans (B2_arg3 V)
theorem B3_arg4 (V : Valuation τ sig (Elt Ideal)) : B3 V (Proc.devRef .tc main_arg4) = V (Proc.devRef .tc main_arg4) := (c3_keep (B2 V) main_arg4 (by decide)).trans (B2_arg4 V)
theorem B3_arg5 (V : Valuation τ sig (Elt Ideal)) : B3 V (Proc.devRef .tc main_arg5) = V (Proc.devRef .tc main_arg5) := (c3_keep (B2 V) main_arg5 (by decide)).trans (B2_arg5 V)
theorem B3_arg6 (V : Valuation τ sig (Elt Ideal)) : B3 V (Proc.devRef .tc main_arg6) = V (Proc.devRef .tc main_arg6) := (c3_keep (B2 V) main_arg6 (by decide)).trans (B2_arg6 V)
theorem B3_arg7 (V : Valuation τ sig (Elt Ideal)) : B3 V (Proc.devRef .tc main_arg7) = V (Proc.devRef .tc main_arg7) := (c3_keep (B2 V) main_arg7 (by decide)).trans (B2_arg7 V)
theorem B3_arg8 (V : Valuation τ sig (Elt Ideal)) : B3 V (Proc.devRef .tc main_arg8) = V (Proc.devRef .tc main_arg8) := (c3_keep (B2 V) main_arg8 (by decide)).trans (B2_arg8 V)
theorem B4_arg0 (V : Valuation τ sig (Elt Ideal)) : B4 V (Proc.devRef .tc main_arg0) = V (Proc.devRef .tc main_arg0) := (c4_keep (B3 V) main_arg0 (by decide)).trans (B3_arg0 V)
theorem B4_arg3 (V : Valuation τ sig (Elt Ideal)) : B4 V (Proc.devRef .tc main_arg3) = V (Proc.devRef .tc main_arg3) := (c4_keep (B3 V) main_arg3 (by decide)).trans (B3_arg3 V)
theorem B4_arg4 (V : Valuation τ sig (Elt Ideal)) : B4 V (Proc.devRef .tc main_arg4) = V (Proc.devRef .tc main_arg4) := (c4_keep (B3 V) main_arg4 (by decide)).trans (B3_arg4 V)
theorem B4_arg5 (V : Valuation τ sig (Elt Ideal)) : B4 V (Proc.devRef .tc main_arg5) = V (Proc.devRef .tc main_arg5) := (c4_keep (B3 V) main_arg5 (by decide)).trans (B3_arg5 V)
theorem B4_arg6 (V : Valuation τ sig (Elt Ideal)) : B4 V (Proc.devRef .tc main_arg6) = V (Proc.devRef .tc main_arg6) := (c4_keep (B3 V) main_arg6 (by decide)).trans (B3_arg6 V)
theorem B4_arg7 (V : Valuation τ sig (Elt Ideal)) : B4 V (Proc.devRef .tc main_arg7) = V (Proc.devRef .tc main_arg7) := (c4_keep (B3 V) main_arg7 (by decide)).trans (B3_arg7 V)
theorem B4_arg8 (V : Valuation τ sig (Elt Ideal)) : B4 V (Proc.devRef .tc main_arg8) = V (Proc.devRef .tc main_arg8) := (c4_keep (B3 V) main_arg8 (by decide)).trans (B3_arg8 V)
theorem B5_arg0 (V : Valuation τ sig (Elt Ideal)) : B5 V (Proc.devRef .tc main_arg0) = V (Proc.devRef .tc main_arg0) := (c5_keep (B4 V) main_arg0 (by decide)).trans (B4_arg0 V)
theorem B5_arg3 (V : Valuation τ sig (Elt Ideal)) : B5 V (Proc.devRef .tc main_arg3) = V (Proc.devRef .tc main_arg3) := (c5_keep (B4 V) main_arg3 (by decide)).trans (B4_arg3 V)
theorem B5_arg4 (V : Valuation τ sig (Elt Ideal)) : B5 V (Proc.devRef .tc main_arg4) = V (Proc.devRef .tc main_arg4) := (c5_keep (B4 V) main_arg4 (by decide)).trans (B4_arg4 V)
theorem B5_arg5 (V : Valuation τ sig (Elt Ideal)) : B5 V (Proc.devRef .tc main_arg5) = V (Proc.devRef .tc main_arg5) := (c5_keep (B4 V) main_arg5 (by decide)).trans (B4_arg5 V)
theorem B5_arg6 (V : Valuation τ sig (Elt Ideal)) : B5 V (Proc.devRef .tc main_arg6) = V (Proc.devRef .tc main_arg6) := (c5_keep (B4 V) main_arg6 (by decide)).trans (B4_arg6 V)
theorem B5_arg7 (V : Valuation τ sig (Elt Ideal)) : B5 V (Proc.devRef .tc main_arg7) = V (Proc.devRef .tc main_arg7) := (c5_keep (B4 V) main_arg7 (by decide)).trans (B4_arg7 V)
theorem B5_arg8 (V : Valuation τ sig (Elt Ideal)) : B5 V (Proc.devRef .tc main_arg8) = V (Proc.devRef .tc main_arg8) := (c5_keep (B4 V) main_arg8 (by decide)).trans (B4_arg8 V)
theorem B6_arg4 (V : Valuation τ sig (Elt Ideal)) : B6 V (Proc.devRef .tc main_arg4) = V (Proc.devRef .tc main_arg4) := (c6_keep (B5 V) main_arg4 (by decide)).trans (B5_arg4 V)
theorem B6_arg5 (V : Valuation τ sig (Elt Ideal)) : B6 V (Proc.devRef .tc main_arg5) = V (Proc.devRef .tc main_arg5) := (c6_keep (B5 V) main_arg5 (by decide)).trans (B5_arg5 V)
theorem B6_arg6 (V : Valuation τ sig (Elt Ideal)) : B6 V (Proc.devRef .tc main_arg6) = V (Proc.devRef .tc main_arg6) := (c6_keep (B5 V) main_arg6 (by decide)).trans (B5_arg6 V)
theorem B6_arg7 (V : Valuation τ sig (Elt Ideal)) : B6 V (Proc.devRef .tc main_arg7) = V (Proc.devRef .tc main_arg7) := (c6_keep (B5 V) main_arg7 (by decide)).trans (B5_arg7 V)
theorem B6_arg8 (V : Valuation τ sig (Elt Ideal)) : B6 V (Proc.devRef .tc main_arg8) = V (Proc.devRef .tc main_arg8) := (c6_keep (B5 V) main_arg8 (by decide)).trans (B5_arg8 V)
theorem B7_arg4 (V : Valuation τ sig (Elt Ideal)) : B7 V (Proc.devRef .tc main_arg4) = V (Proc.devRef .tc main_arg4) := (c7_keep (B6 V) main_arg4 (by decide)).trans (B6_arg4 V)
theorem B7_arg5 (V : Valuation τ sig (Elt Ideal)) : B7 V (Proc.devRef .tc main_arg5) = V (Proc.devRef .tc main_arg5) := (c7_keep (B6 V) main_arg5 (by decide)).trans (B6_arg5 V)
theorem B7_arg6 (V : Valuation τ sig (Elt Ideal)) : B7 V (Proc.devRef .tc main_arg6) = V (Proc.devRef .tc main_arg6) := (c7_keep (B6 V) main_arg6 (by decide)).trans (B6_arg6 V)
theorem B7_arg7 (V : Valuation τ sig (Elt Ideal)) : B7 V (Proc.devRef .tc main_arg7) = V (Proc.devRef .tc main_arg7) := (c7_keep (B6 V) main_arg7 (by decide)).trans (B6_arg7 V)
theorem B7_arg8 (V : Valuation τ sig (Elt Ideal)) : B7 V (Proc.devRef .tc main_arg8) = V (Proc.devRef .tc main_arg8) := (c7_keep (B6 V) main_arg8 (by decide)).trans (B6_arg8 V)
theorem B8_arg5 (V : Valuation τ sig (Elt Ideal)) : B8 V (Proc.devRef .tc main_arg5) = V (Proc.devRef .tc main_arg5) := (c8_keep (B7 V) main_arg5 (by decide)).trans (B7_arg5 V)
theorem B8_arg6 (V : Valuation τ sig (Elt Ideal)) : B8 V (Proc.devRef .tc main_arg6) = V (Proc.devRef .tc main_arg6) := (c8_keep (B7 V) main_arg6 (by decide)).trans (B7_arg6 V)
theorem B8_arg7 (V : Valuation τ sig (Elt Ideal)) : B8 V (Proc.devRef .tc main_arg7) = V (Proc.devRef .tc main_arg7) := (c8_keep (B7 V) main_arg7 (by decide)).trans (B7_arg7 V)
theorem B8_arg8 (V : Valuation τ sig (Elt Ideal)) : B8 V (Proc.devRef .tc main_arg8) = V (Proc.devRef .tc main_arg8) := (c8_keep (B7 V) main_arg8 (by decide)).trans (B7_arg8 V)
theorem B9_arg6 (V : Valuation τ sig (Elt Ideal)) : B9 V (Proc.devRef .tc main_arg6) = V (Proc.devRef .tc main_arg6) := (c9_keep (B8 V) main_arg6 (by decide)).trans (B8_arg6 V)
theorem B9_arg7 (V : Valuation τ sig (Elt Ideal)) : B9 V (Proc.devRef .tc main_arg7) = V (Proc.devRef .tc main_arg7) := (c9_keep (B8 V) main_arg7 (by decide)).trans (B8_arg7 V)
theorem B9_arg8 (V : Valuation τ sig (Elt Ideal)) : B9 V (Proc.devRef .tc main_arg8) = V (Proc.devRef .tc main_arg8) := (c9_keep (B8 V) main_arg8 (by decide)).trans (B8_arg8 V)
theorem B10_arg6 (V : Valuation τ sig (Elt Ideal)) : B10 V (Proc.devRef .tc main_arg6) = V (Proc.devRef .tc main_arg6) := (c10_keep (B9 V) main_arg6 (by decide)).trans (B9_arg6 V)
theorem B10_arg7 (V : Valuation τ sig (Elt Ideal)) : B10 V (Proc.devRef .tc main_arg7) = V (Proc.devRef .tc main_arg7) := (c10_keep (B9 V) main_arg7 (by decide)).trans (B9_arg7 V)
theorem B10_arg8 (V : Valuation τ sig (Elt Ideal)) : B10 V (Proc.devRef .tc main_arg8) = V (Proc.devRef .tc main_arg8) := (c10_keep (B9 V) main_arg8 (by decide)).trans (B9_arg8 V)
theorem B11_arg7 (V : Valuation τ sig (Elt Ideal)) : B11 V (Proc.devRef .tc main_arg7) = V (Proc.devRef .tc main_arg7) := (c11_keep (B10 V) main_arg7 (by decide)).trans (B10_arg7 V)
theorem B11_arg8 (V : Valuation τ sig (Elt Ideal)) : B11 V (Proc.devRef .tc main_arg8) = V (Proc.devRef .tc main_arg8) := (c11_keep (B10 V) main_arg8 (by decide)).trans (B10_arg8 V)
theorem B12_arg8 (V : Valuation τ sig (Elt Ideal)) : B12 V (Proc.devRef .tc main_arg8) = V (Proc.devRef .tc main_arg8) := (c12_keep (B11 V) main_arg8 (by decide)).trans (B11_arg8 V)
theorem B13_arg8 (V : Valuation τ sig (Elt Ideal)) : B13 V (Proc.devRef .tc main_arg8) = V (Proc.devRef .tc main_arg8) := (c13_keep (B12 V) main_arg8 (by decide)).trans (B12_arg8 V)

/-! Each stretch's result at the boundary after it, and at the later boundaries where it is read. -/

theorem B1_v3 (V : Valuation τ sig (Elt Ideal)) : B1 V (Proc.devRef .tc main_v3) = ReadP.val_main_v3 (F := Ideal) (V (Proc.devRef .tc main_arg1)) := c1_val V
theorem B2_v3 (V : Valuation τ sig (Elt Ideal)) : B2 V (Proc.devRef .tc main_v3) = ReadP.val_main_v3 (F := Ideal) (V (Proc.devRef .tc main_arg1)) := (c2_keep (B1 V) main_v3 (by decide)).trans (B1_v3 V)
theorem B2_v7 (V : Valuation τ sig (Elt Ideal)) : B2 V (Proc.devRef .tc main_v7) = ReadP.val_main_v7 (F := Ideal) (V (Proc.devRef .tc main_arg1)) :=
  (c2_val (B1 V)).trans (congrArg (fun a => ReadP.val_main_v7 (F := Ideal) a) (B1_arg1 V))
theorem B3_v3 (V : Valuation τ sig (Elt Ideal)) : B3 V (Proc.devRef .tc main_v3) = ReadP.val_main_v3 (F := Ideal) (V (Proc.devRef .tc main_arg1)) := (c3_keep (B2 V) main_v3 (by decide)).trans (B2_v3 V)
theorem B3_v7 (V : Valuation τ sig (Elt Ideal)) : B3 V (Proc.devRef .tc main_v7) = ReadP.val_main_v7 (F := Ideal) (V (Proc.devRef .tc main_arg1)) := (c3_keep (B2 V) main_v7 (by decide)).trans (B2_v7 V)
theorem B3_v9 (V : Valuation τ sig (Elt Ideal)) : B3 V (Proc.devRef .tc main_v9) = ReadP.val_main_v9 (F := Ideal) (V (Proc.devRef .tc main_arg2)) :=
  (c3_val (B2 V)).trans (congrArg (fun a => ReadP.val_main_v9 (F := Ideal) a) (B2_arg2 V))
theorem B4_v3 (V : Valuation τ sig (Elt Ideal)) : B4 V (Proc.devRef .tc main_v3) = ReadP.val_main_v3 (F := Ideal) (V (Proc.devRef .tc main_arg1)) := (c4_keep (B3 V) main_v3 (by decide)).trans (B3_v3 V)
theorem B4_v7 (V : Valuation τ sig (Elt Ideal)) : B4 V (Proc.devRef .tc main_v7) = ReadP.val_main_v7 (F := Ideal) (V (Proc.devRef .tc main_arg1)) := (c4_keep (B3 V) main_v7 (by decide)).trans (B3_v7 V)
theorem B4_v9 (V : Valuation τ sig (Elt Ideal)) : B4 V (Proc.devRef .tc main_v9) = ReadP.val_main_v9 (F := Ideal) (V (Proc.devRef .tc main_arg2)) := (c4_keep (B3 V) main_v9 (by decide)).trans (B3_v9 V)
theorem B4_v17 (V : Valuation τ sig (Elt Ideal)) : B4 V (Proc.devRef .tc main_v17) = ReadP.val_main_v17 (F := Ideal) (V (Proc.devRef .tc main_arg1)) (V (Proc.devRef .tc main_arg2)) :=
  c4_val (B3 V) (V (Proc.devRef .tc main_arg1)) (V (Proc.devRef .tc main_arg2)) (B3_v7 V) (B3_v9 V)
theorem B5_v3 (V : Valuation τ sig (Elt Ideal)) : B5 V (Proc.devRef .tc main_v3) = ReadP.val_main_v3 (F := Ideal) (V (Proc.devRef .tc main_arg1)) := (c5_keep (B4 V) main_v3 (by decide)).trans (B4_v3 V)
theorem B5_v7 (V : Valuation τ sig (Elt Ideal)) : B5 V (Proc.devRef .tc main_v7) = ReadP.val_main_v7 (F := Ideal) (V (Proc.devRef .tc main_arg1)) := (c5_keep (B4 V) main_v7 (by decide)).trans (B4_v7 V)
theorem B5_v33 (V : Valuation τ sig (Elt Ideal)) : B5 V (Proc.devRef .tc main_v33) = ReadP.val_main_v33 (F := Ideal) (V (Proc.devRef .tc main_arg1)) (V (Proc.devRef .tc main_arg2)) :=
  c5_val (B4 V) (V (Proc.devRef .tc main_arg1)) (V (Proc.devRef .tc main_arg2)) (B4_v3 V) (B4_v7 V) (B4_v9 V) (B4_v17 V)
theorem B6_v3 (V : Valuation τ sig (Elt Ideal)) : B6 V (Proc.devRef .tc main_v3) = ReadP.val_main_v3 (F := Ideal) (V (Proc.devRef .tc main_arg1)) := (c6_keep (B5 V) main_v3 (by decide)).trans (B5_v3 V)
theorem B6_v7 (V : Valuation τ sig (Elt Ideal)) : B6 V (Proc.devRef .tc main_v7) = ReadP.val_main_v7 (F := Ideal) (V (Proc.devRef .tc main_arg1)) := (c6_keep (B5 V) main_v7 (by decide)).trans (B5_v7 V)
theorem B6_v33 (V : Valuation τ sig (Elt Ideal)) : B6 V (Proc.devRef .tc main_v33) = ReadP.val_main_v33 (F := Ideal) (V (Proc.devRef .tc main_arg1)) (V (Proc.devRef .tc main_arg2)) := (c6_keep (B5 V) main_v33 (by decide)).trans (B5_v33 V)
theorem B6_v34 (V : Valuation τ sig (Elt Ideal)) : B6 V (Proc.devRef .tc main_v34) = ReadP.val_main_v34 (F := Ideal) (V (Proc.devRef .tc main_arg0)) (V (Proc.devRef .tc main_arg3)) :=
  (c6_val (B5 V)).trans (congrArg₂ (fun a b => ReadP.val_main_v34 (F := Ideal) a b) (B5_arg0 V) (B5_arg3 V))
theorem B7_v3 (V : Valuation τ sig (Elt Ideal)) : B7 V (Proc.devRef .tc main_v3) = ReadP.val_main_v3 (F := Ideal) (V (Proc.devRef .tc main_arg1)) := (c7_keep (B6 V) main_v3 (by decide)).trans (B6_v3 V)
theorem B7_v7 (V : Valuation τ sig (Elt Ideal)) : B7 V (Proc.devRef .tc main_v7) = ReadP.val_main_v7 (F := Ideal) (V (Proc.devRef .tc main_arg1)) := (c7_keep (B6 V) main_v7 (by decide)).trans (B6_v7 V)
theorem B7_v33 (V : Valuation τ sig (Elt Ideal)) : B7 V (Proc.devRef .tc main_v33) = ReadP.val_main_v33 (F := Ideal) (V (Proc.devRef .tc main_arg1)) (V (Proc.devRef .tc main_arg2)) := (c7_keep (B6 V) main_v33 (by decide)).trans (B6_v33 V)
theorem B7_v47 (V : Valuation τ sig (Elt Ideal)) : B7 V (Proc.devRef .tc main_v47) = ReadP.val_main_v47 (F := Ideal) (V (Proc.devRef .tc main_arg0)) (V (Proc.devRef .tc main_arg1)) (V (Proc.devRef .tc main_arg2)) (V (Proc.devRef .tc main_arg3)) :=
  c7_val (B6 V) (V (Proc.devRef .tc main_arg0)) (V (Proc.devRef .tc main_arg1)) (V (Proc.devRef .tc main_arg2)) (V (Proc.devRef .tc main_arg3)) (B6_v3 V) (B6_v7 V) (B6_v33 V) (B6_v34 V)
theorem B8_v3 (V : Valuation τ sig (Elt Ideal)) : B8 V (Proc.devRef .tc main_v3) = ReadP.val_main_v3 (F := Ideal) (V (Proc.devRef .tc main_arg1)) := (c8_keep (B7 V) main_v3 (by decide)).trans (B7_v3 V)
theorem B8_v7 (V : Valuation τ sig (Elt Ideal)) : B8 V (Proc.devRef .tc main_v7) = ReadP.val_main_v7 (F := Ideal) (V (Proc.devRef .tc main_arg1)) := (c8_keep (B7 V) main_v7 (by decide)).trans (B7_v7 V)
theorem B8_v33 (V : Valuation τ sig (Elt Ideal)) : B8 V (Proc.devRef .tc main_v33) = ReadP.val_main_v33 (F := Ideal) (V (Proc.devRef .tc main_arg1)) (V (Proc.devRef .tc main_arg2)) := (c8_keep (B7 V) main_v33 (by decide)).trans (B7_v33 V)
theorem B8_v51 (V : Valuation τ sig (Elt Ideal)) : B8 V (Proc.devRef .tc main_v51) = ReadP.val_main_v51 (F := Ideal) (V (Proc.devRef .tc main_arg0)) (V (Proc.devRef .tc main_arg1)) (V (Proc.devRef .tc main_arg2)) (V (Proc.devRef .tc main_arg3)) (V (Proc.devRef .tc main_arg4)) :=
  c8_val (B7 V) (V (Proc.devRef .tc main_arg0)) (V (Proc.devRef .tc main_arg1)) (V (Proc.devRef .tc main_arg2)) (V (Proc.devRef .tc main_arg3)) (V (Proc.devRef .tc main_arg4)) (B7_v47 V) (B7_arg4 V)
theorem B9_v3 (V : Valuation τ sig (Elt Ideal)) : B9 V (Proc.devRef .tc main_v3) = ReadP.val_main_v3 (F := Ideal) (V (Proc.devRef .tc main_arg1)) := (c9_keep (B8 V) main_v3 (by decide)).trans (B8_v3 V)
theorem B9_v7 (V : Valuation τ sig (Elt Ideal)) : B9 V (Proc.devRef .tc main_v7) = ReadP.val_main_v7 (F := Ideal) (V (Proc.devRef .tc main_arg1)) := (c9_keep (B8 V) main_v7 (by decide)).trans (B8_v7 V)
theorem B9_v33 (V : Valuation τ sig (Elt Ideal)) : B9 V (Proc.devRef .tc main_v33) = ReadP.val_main_v33 (F := Ideal) (V (Proc.devRef .tc main_arg1)) (V (Proc.devRef .tc main_arg2)) := (c9_keep (B8 V) main_v33 (by decide)).trans (B8_v33 V)
theorem B9_v52 (V : Valuation τ sig (Elt Ideal)) : B9 V (Proc.devRef .tc main_v52) = ReadP.val_main_v52 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) :=
  c9_val (B8 V) (V (Proc.devRef .tc main_arg0)) (V (Proc.devRef .tc main_arg1)) (V (Proc.devRef .tc main_arg2)) (V (Proc.devRef .tc main_arg3)) (V (Proc.devRef .tc main_arg4)) (V (Proc.devRef .tc main_arg5)) (B8_v51 V) (B8_arg5 V)
theorem B10_v3 (V : Valuation τ sig (Elt Ideal)) : B10 V (Proc.devRef .tc main_v3) = ReadP.val_main_v3 (F := Ideal) (V (Proc.devRef .tc main_arg1)) := (c10_keep (B9 V) main_v3 (by decide)).trans (B9_v3 V)
theorem B10_v7 (V : Valuation τ sig (Elt Ideal)) : B10 V (Proc.devRef .tc main_v7) = ReadP.val_main_v7 (F := Ideal) (V (Proc.devRef .tc main_arg1)) := (c10_keep (B9 V) main_v7 (by decide)).trans (B9_v7 V)
theorem B10_v33 (V : Valuation τ sig (Elt Ideal)) : B10 V (Proc.devRef .tc main_v33) = ReadP.val_main_v33 (F := Ideal) (V (Proc.devRef .tc main_arg1)) (V (Proc.devRef .tc main_arg2)) := (c10_keep (B9 V) main_v33 (by decide)).trans (B9_v33 V)
theorem B10_v65 (V : Valuation τ sig (Elt Ideal)) : B10 V (Proc.devRef .tc main_v65) = ReadP.val_main_v65 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) :=
  c10_val (B9 V) (V (Proc.devRef .tc main_arg0)) (V (Proc.devRef .tc main_arg1)) (V (Proc.devRef .tc main_arg2)) (V (Proc.devRef .tc main_arg3)) (V (Proc.devRef .tc main_arg4)) (V (Proc.devRef .tc main_arg5)) (B9_v3 V) (B9_v7 V) (B9_v33 V) (B9_v52 V)
theorem B11_v3 (V : Valuation τ sig (Elt Ideal)) : B11 V (Proc.devRef .tc main_v3) = ReadP.val_main_v3 (F := Ideal) (V (Proc.devRef .tc main_arg1)) := (c11_keep (B10 V) main_v3 (by decide)).trans (B10_v3 V)
theorem B11_v7 (V : Valuation τ sig (Elt Ideal)) : B11 V (Proc.devRef .tc main_v7) = ReadP.val_main_v7 (F := Ideal) (V (Proc.devRef .tc main_arg1)) := (c11_keep (B10 V) main_v7 (by decide)).trans (B10_v7 V)
theorem B11_v33 (V : Valuation τ sig (Elt Ideal)) : B11 V (Proc.devRef .tc main_v33) = ReadP.val_main_v33 (F := Ideal) (V (Proc.devRef .tc main_arg1)) (V (Proc.devRef .tc main_arg2)) := (c11_keep (B10 V) main_v33 (by decide)).trans (B10_v33 V)
theorem B11_v69 (V : Valuation τ sig (Elt Ideal)) : B11 V (Proc.devRef .tc main_v69) = ReadP.val_main_v69 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) :=
  c11_val (B10 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (B10_v65 V) (B10_arg6 V)
theorem B12_v3 (V : Valuation τ sig (Elt Ideal)) : B12 V (Proc.devRef .tc main_v3) = ReadP.val_main_v3 (F := Ideal) (V (Proc.devRef .tc main_arg1)) := (c12_keep (B11 V) main_v3 (by decide)).trans (B11_v3 V)
theorem B12_v7 (V : Valuation τ sig (Elt Ideal)) : B12 V (Proc.devRef .tc main_v7) = ReadP.val_main_v7 (F := Ideal) (V (Proc.devRef .tc main_arg1)) := (c12_keep (B11 V) main_v7 (by decide)).trans (B11_v7 V)
theorem B12_v33 (V : Valuation τ sig (Elt Ideal)) : B12 V (Proc.devRef .tc main_v33) = ReadP.val_main_v33 (F := Ideal) (V (Proc.devRef .tc main_arg1)) (V (Proc.devRef .tc main_arg2)) := (c12_keep (B11 V) main_v33 (by decide)).trans (B11_v33 V)
theorem B12_v70 (V : Valuation τ sig (Elt Ideal)) : B12 V (Proc.devRef .tc main_v70) = ReadP.val_main_v70 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) :=
  c12_val (B11 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (B11_v69 V) (B11_arg7 V)
theorem B13_v83 (V : Valuation τ sig (Elt Ideal)) : B13 V (Proc.devRef .tc main_v83) = ReadP.val_main_v83 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) :=
  c13_val (B12 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (B12_v3 V) (B12_v7 V) (B12_v33 V) (B12_v70 V)

/-- The reference's fold at its result buffer is the last stage, as a function of the nine argument buffers. -/
theorem value (V : Valuation τ sig (Elt Ideal)) :
    after (RunP.ops (F := Ideal)) V (Proc.devRef .tc main_v87) = ReadP.val_main_v87 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) :=
  (congrFun (fold_eq V) (Proc.devRef .tc main_v87)).trans
    (c14_val (B13 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (B13_v83 V) (B13_arg8 V))

end Cert.ReferenceIdeal.RefValue

end
-- ==== Proof.RefDense.lean ====
/-
  The reference's three dense transforms.

  Each of the three contractions of the reference program multiplies the rows of a node-feature array by a
  weight matrix: it contracts the second axis of its left operand with the first axis of its right operand and
  has no batch axis. Over the extended reals such a contraction is, entry by entry, the plain sum
  Σ_q l(r, q) · w(q, c), which is the function `Cert.Gcn.dense`. The only work is to replace the sum over the
  one-axis contraction index set by the sum over that axis' coordinate.
-/
import proofs.«112376_j764504179050_1_alg».proof.Proof.RefRead
import proofs.«112376_j764504179050_1_alg».proof.Proof.Spec
import Idealize.ShloMosaic.Lib.ValueIdx
import Idealize.ShloMosaic.PureOps.Ideal.Laws

set_option maxRecDepth 16384

noncomputable section

namespace Cert.ReferenceIdeal.RefDense

open Cert.ReferenceIdeal Cert.ReferenceIdeal.ReadP Idealize.ShloMosaic Idealize.ShloMosaic.ValueIdx

/-- A contraction of one axis, whose operand indices at the output entry (r, c) and contraction coordinate q are
    (r, q) on the left and (q, c) on the right, sums exactly the products that `dense` sums. -/
theorem sum_contr_eq_dense {n m b : Nat}
    (D : DotDims (⟨2, ![n, m]⟩ : Shape) (⟨2, ![m, b]⟩ : Shape) (⟨2, ![n, b]⟩ : Shape))
    (hr : D.contr.rank = 1) (hs : D.contr.size ⟨0, by omega⟩ = m)
    (l0 : ∀ (i : (⟨2, ![n, b]⟩ : Shape).Idx) (q : D.contr.Idx), (D.lhsIdx i q 0).val = (i 0).val)
    (l1 : ∀ (i : (⟨2, ![n, b]⟩ : Shape).Idx) (q : D.contr.Idx), (D.lhsIdx i q 1).val = (q ⟨0, by omega⟩).val)
    (r0 : ∀ (i : (⟨2, ![n, b]⟩ : Shape).Idx) (q : D.contr.Idx), (D.rhsIdx i q 0).val = (q ⟨0, by omega⟩).val)
    (r1 : ∀ (i : (⟨2, ![n, b]⟩ : Shape).Idx) (q : D.contr.Idx), (D.rhsIdx i q 1).val = (i 1).val)
    (l : FVec Ideal (⟨2, ![n, m]⟩ : Shape) .f32) (r : FVec Ideal (⟨2, ![m, b]⟩ : Shape) .f32)
    (i : (⟨2, ![n, b]⟩ : Shape).Idx) :
    ∑ q : D.contr.Idx, l (D.lhsIdx i q) * r (D.rhsIdx i q) = Cert.Gcn.dense l r i := by
  unfold Cert.Gcn.dense
  rw [← Equiv.sum_comp (contrEquiv1 D m hr hs).symm]
  refine Finset.sum_congr rfl fun q _ => ?_
  have hq := contrEquiv1_symm_val D m hr hs q
  have el : D.lhsIdx i ((contrEquiv1 D m hr hs).symm q) = ix2 (n0 := n) (n1 := m) (i 0) q :=
    funext fun a => Fin.ext (by
      match a with
      | ⟨0, _⟩ => exact l0 _ _
      | ⟨1, _⟩ => exact (l1 _ _).trans hq)
  have er : D.rhsIdx i ((contrEquiv1 D m hr hs).symm q) = ix2 (n0 := m) (n1 := b) q (i 1) :=
    funext fun a => Fin.ext (by
      match a with
      | ⟨0, _⟩ => exact (r0 _ _).trans hq
      | ⟨1, _⟩ => exact r1 _ _)
  rw [el, er]

/-- The first layer's contraction, 256 input features to 64. -/
theorem dot256 (l : FVec Ideal S100000x256 .f32) (r : FVec Ideal S256x64 .f32) :
    Host.dotGeneral (F := Ideal) dot_S100000x256_S256x64_S100000x64_1_0_0_1_n_n none l r = Cert.Gcn.dense l r := by
  funext i
  simp only [Host.dotGeneral]
  rw [Ideal.dotGeneral_apply]
  exact sum_contr_eq_dense dot_S100000x256_S256x64_S100000x64_1_0_0_1_n_n rfl rfl
    lhs_main_v34_0 lhs_main_v34_1 rhs_main_v34_0 rhs_main_v34_1 l r i

/-- The second layer's contraction, 64 features to 64. -/
theorem dot64 (l : FVec Ideal S100000x64 .f32) (r : FVec Ideal S64x64 .f32) :
    Host.dotGeneral (F := Ideal) dot_S100000x64_S64x64_S100000x64_1_0_0_1_n_n none l r = Cert.Gcn.dense l r := by
  funext i
  simp only [Host.dotGeneral]
  rw [Ideal.dotGeneral_apply]
  exact sum_contr_eq_dense dot_S100000x64_S64x64_S100000x64_1_0_0_1_n_n rfl rfl
    lhs_main_v52_0 lhs_main_v52_1 rhs_main_v52_0 rhs_main_v52_1 l r i

/-- The last layer's contraction, 64 features to the 40 classes. -/
theorem dot40 (l : FVec Ideal S100000x64 .f32) (r : FVec Ideal S64x40 .f32) :
    Host.dotGeneral (F := Ideal) dot_S100000x64_S64x40_S100000x40_1_0_0_1_n_n none l r = Cert.Gcn.dense l r := by
  funext i
  simp only [Host.dotGeneral]
  rw [Ideal.dotGeneral_apply]
  exact sum_contr_eq_dense dot_S100000x64_S64x40_S100000x40_1_0_0_1_n_n rfl rfl
    lhs_main_v70_0 lhs_main_v70_1 rhs_main_v70_0 rhs_main_v70_1 l r i

end Cert.ReferenceIdeal.RefDense

end
-- ==== Proof.RefLsm.lean ====
/-
  The reference's last activation, read as one array function.

  After the third propagation the reference adds the bias (a vector of 40 numbers, broadcast over the 100000 rows)
  and takes the logarithm of the softmax along each row, spelt out as: the row maximum folded from −∞, one more
  maximum with −∞ (which changes nothing), the difference g − M, its exponential, the row sum from 0, the logarithm,
  and the second difference. Read index by index this is
    (g(r, c) − M(r)) − log (Σ_k exp (g(r, k) − M(r))),   g(r, c) = h(r, c) + bias(c),
  the specification's `biasLogSoftmax h bias`, where h is the propagated array (kept opaque here).
-/
import proofs.«112376_j764504179050_1_alg».proof.Proof.RefRead
import proofs.«112376_j764504179050_1_alg».proof.Proof.Spec
import Idealize.ShloMosaic.PureOps.Reduce
import Idealize.ShloMosaic.PureOps.Ideal.Laws
import Idealize.ShloMosaic.Lib.ValueIdx

set_option maxRecDepth 16384

noncomputable section

namespace Cert.ReferenceIdeal.RefLsm

open Cert.ReferenceIdeal Cert.ReferenceIdeal.ReadP Cert.ReferenceIdeal.Gen Idealize.ShloMosaic Idealize.ShloMosaic.ValueIdx

variable (x0 : (⟨S100000x256, .f32⟩ : BufTy).Contents (Elt Ideal)) (x1 : (⟨S2x1600000, .i32⟩ : BufTy).Contents (Elt Ideal)) (x2 : (⟨S1600000, .f32⟩ : BufTy).Contents (Elt Ideal)) (x3 : (⟨S256x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x40, .f32⟩ : BufTy).Contents (Elt Ideal)) (x8 : (⟨S40, .f32⟩ : BufTy).Contents (Elt Ideal))

/-- The biased array is the specification's `addBias` of the propagated array and the bias vector. -/
theorem biased_eq : val_main_v86 (F := Ideal) x0 x1 x2 x3 x4 x5 x6 x7 x8 = Cert.Gcn.addBias (val_main_v83 (F := Ideal) x0 x1 x2 x3 x4 x5 x6 x7) x8 := by
  funext i
  rw [val_main_v86_apply, val_main_v85_apply, val_main_v84_apply]
  exact congrArg ((val_main_v83 (F := Ideal) x0 x1 x2 x3 x4 x5 x6 x7) i + x8 ·) (funext fun a => Fin.ext (by match a with | ⟨0, _⟩ => rfl))

/-- A reduction of a 100000 × 40 array along its rows with `max` is, at row r, the fold of `max` from the initial
    value over the 40 entries of the row. -/
theorem reduce_max_row (g : S100000x40.Idx → Ideal .f32) (init : S_.Idx → Ideal .f32) (r : Fin 100000) :
    Host.reduce (FloatOps.maximumf (F := Ideal) (φ := .f32)) g init reducesTo_S100000x40_S100000_d1 h_S_ (ix1 r)
      = (Finset.univ : Finset (Fin 40)).fold max (init (Shape.Idx.first h_S_)) (fun q => g (ix2 r q)) := by
  have hr : Shape.Reduces S100000x40 [1] S100000 := by decide
  refine (Host.reduce_eq_fold_single (α := Ideal .f32) (s := S100000x40) (t := S100000) (a := (1 : Fin 2)) (u := S_)
    (FloatOps.maximumf (F := Ideal) (φ := .f32)) g init reducesTo_S100000x40_S100000_d1 hr h_S_ (ix1 r)).trans ?_
  refine congrArg (fun f => Finset.fold max (init (Shape.Idx.first h_S_)) f (Finset.univ : Finset (Fin 40))) ?_
  funext q
  exact congrArg g (funext fun a => Fin.ext (by match a with | ⟨0, _⟩ => rfl | ⟨1, _⟩ => rfl))

/-- The reduction along the row, from −∞ with `max`, is the specification's row maximum of the biased array. -/
theorem rowMax_read (r : Fin 100000) :
    val_main_call3_v0 (F := Ideal) x0 x1 x2 x3 x4 x5 x6 x7 x8 (ix1 r) = Cert.Gcn.rowMax (val_main_v86 (F := Ideal) x0 x1 x2 x3 x4 x5 x6 x7 x8) r := by
  unfold val_main_call3_v0
  generalize val_main_v86 (F := Ideal) x0 x1 x2 x3 x4 x5 x6 x7 x8 = g
  refine (reduce_max_row g (val_main_call3_cst (F := Ideal)) r).trans ?_
  rw [val_main_call3_cst_apply, Ideal.ofBits_def]
  rfl

/-- One more maximum with −∞ in front leaves the row maximum as it is. -/
theorem max_read (r : Fin 100000) :
    val_main_call3_v2 (F := Ideal) x0 x1 x2 x3 x4 x5 x6 x7 x8 (ix1 r) = Cert.Gcn.rowMax (val_main_v86 (F := Ideal) x0 x1 x2 x3 x4 x5 x6 x7 x8) r := by
  rw [val_main_call3_v2_apply, val_main_call3_v1_apply, val_main_call3_cst_0_apply, rowMax_read]
  exact Cert.Gcn.max_init_rowMax (val_main_v86 (F := Ideal) x0 x1 x2 x3 x4 x5 x6 x7 x8) r

/-- The shifted array: g(r, c) − M(r). -/
theorem shifted_read (r : Fin 100000) (c : Fin 40) :
    val_main_call3_v5 (F := Ideal) x0 x1 x2 x3 x4 x5 x6 x7 x8 (ix2 r c)
      = (val_main_v86 (F := Ideal) x0 x1 x2 x3 x4 x5 x6 x7 x8) (ix2 r c) - Cert.Gcn.rowMax (val_main_v86 (F := Ideal) x0 x1 x2 x3 x4 x5 x6 x7 x8) r := by
  rw [val_main_call3_v5_apply, val_main_call3_v4_apply, val_main_call3_v3_apply]
  have e : idx_main_call3_v3 (idx_main_call3_v4 (ix2 r c)) = ix1 r :=
    funext fun a => Fin.ext (by match a with | ⟨0, _⟩ => rfl)
  rw [e, max_read]
  rfl

/-- The row sum of the exponentials of the shifted array, from 0. -/
theorem expSum_read (r : Fin 100000) :
    val_main_call3_v7 (F := Ideal) x0 x1 x2 x3 x4 x5 x6 x7 x8 (ix1 r) = Cert.Gcn.rowExpSum (val_main_v86 (F := Ideal) x0 x1 x2 x3 x4 x5 x6 x7 x8) r := by
  rw [val_main_call3_v7_apply, val_main_call3_cst_1_apply, Ideal.ofBits_def, Ideal.ofBits_zero_f32, zero_add]
  unfold Cert.Gcn.rowExpSum
  refine Finset.sum_congr rfl fun k _ => ?_
  have e : idx_main_call3_v7 (ix1 r) k = ix2 r k :=
    funext fun a => Fin.ext (by match a with | ⟨0, _⟩ => rfl | ⟨1, _⟩ => rfl)
  rw [e, val_main_call3_v6_apply, shifted_read]
  exact Ideal.hostUnary_exp_def _

/-- The result at (r, c): the shifted entry minus the logarithm of the row's exponential sum. -/
theorem out_read (r : Fin 100000) (c : Fin 40) :
    val_main_v87 (F := Ideal) x0 x1 x2 x3 x4 x5 x6 x7 x8 (ix2 r c) = Cert.Gcn.logSoftmax (val_main_v86 (F := Ideal) x0 x1 x2 x3 x4 x5 x6 x7 x8) (ix2 r c) := by
  rw [val_main_v87_apply, val_main_call3_v10_apply, val_main_call3_v9_apply, val_main_call3_v8_apply]
  have e : idx_main_call3_v8 (idx_main_call3_v10 (ix2 r c)) = ix1 r :=
    funext fun a => Fin.ext (by match a with | ⟨0, _⟩ => rfl)
  rw [e, expSum_read, shifted_read, Cert.Gcn.logSoftmax_ix2, Ideal.hostUnary_log_def, Ideal.subf_def]

/-- The reference's output is the specification's bias + log-softmax of the propagated array. -/
theorem out_eq : val_main_v87 (F := Ideal) x0 x1 x2 x3 x4 x5 x6 x7 x8 = Cert.Gcn.biasLogSoftmax (val_main_v83 (F := Ideal) x0 x1 x2 x3 x4 x5 x6 x7) x8 := by
  funext i
  obtain ⟨r, c, rfl⟩ : ∃ (r : Fin 100000) (c : Fin 40), i = ix2 r c := ⟨i 0, i 1, eq_ix2 i⟩
  rw [out_read, biased_eq]
  rfl

end Cert.ReferenceIdeal.RefLsm

end
-- ==== Proof.RefNet.lean ====
/-
  The reference program, read stage by stage, computes the network function.

  The reference evaluates the network as a chain of host operations. Grouped by what they compute, the chain is
  three times the same three steps: a contraction of the node features with a weight matrix; the propagation
  along the edges (wrap the source numbers, gather the source rows, scale by the edge weights, sum into the
  destination rows of a zero array); and a bias added to every row followed by the activation, `max · 0` after
  the first two propagations and the logarithm of the softmax after the last. Each group is shown here to be
  the corresponding named function applied to the group's inputs as whole arrays: the contractions by the
  closed form of a one-axis contraction, the propagations by spelling (the stages are literally the named
  function's body), the bias and `max` entry by entry. Composing the equations gives the reference's result as
  the network function of its nine arguments.
-/
import proofs.«112376_j764504179050_1_alg».proof.Proof.RefRead
import proofs.«112376_j764504179050_1_alg».proof.Proof.Propagate
import proofs.«112376_j764504179050_1_alg».proof.Proof.Net
import proofs.«112376_j764504179050_1_alg».proof.Proof.Spec
import proofs.«112376_j764504179050_1_alg».proof.Proof.RefDense
import proofs.«112376_j764504179050_1_alg».proof.Proof.RefLsm
import Idealize.ShloMosaic.Lib.ValueIdx
import Idealize.ShloMosaic.PureOps.Ideal

set_option maxRecDepth 16384

noncomputable section

namespace Cert.ReferenceIdeal.RefNet

open Cert.ReferenceIdeal Cert.ReferenceIdeal.ReadP Cert.ReferenceIdeal.Propagate Idealize.ShloMosaic Idealize.ShloMosaic.ValueIdx

variable (x0 : (⟨S100000x256, .f32⟩ : BufTy).Contents (Elt Ideal)) (x1 : (⟨S2x1600000, .i32⟩ : BufTy).Contents (Elt Ideal)) (x2 : (⟨S1600000, .f32⟩ : BufTy).Contents (Elt Ideal)) (x3 : (⟨S256x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x40, .f32⟩ : BufTy).Contents (Elt Ideal)) (x8 : (⟨S40, .f32⟩ : BufTy).Contents (Elt Ideal))

/-! ## The first layer -/

/-- The first contraction is the node features times the first weight matrix. -/
theorem v34_eq : val_main_v34 (F := Ideal) x0 x3 = Cert.Gcn.dense (n := 100000) (k := 256) (b := 64) x0 x3 := by
  unfold val_main_v34
  exact RefDense.dot256 x0 x3

/-- The stages from the wrapped source numbers to the scatter are the propagation step of the contraction's result. -/
theorem v47_eq : val_main_v47 (F := Ideal) x0 x1 x2 x3
    = prop64 (val_main_v3 (F := Ideal) x1) (val_main_v7 (F := Ideal) x1) (val_main_v33 (F := Ideal) x1 x2)
        (val_main_v34 (F := Ideal) x0 x3) := by
  unfold val_main_v47 val_main_v46 val_main_v45 val_main_v44 val_main_v43 val_main_v42 val_main_v41 val_main_v40
    val_main_v39 val_main_v38 val_main_v37 val_main_v36 val_main_v35 val_main_cst_9 val_main_c_7 val_main_c_8
    prop64 wrapIndex
  rfl

/-- The bias broadcast over the rows, the sum and the maximum with the zero array: entry (r, c) is
    max (p(r, c) + bias(c)) 0 of the propagated array p. -/
theorem v51_eq : val_main_v51 (F := Ideal) x0 x1 x2 x3 x4
    = Cert.Gcn.biasRelu (n := 100000) (b := 64) (val_main_v47 (F := Ideal) x0 x1 x2 x3) x4 := by
  funext i
  rw [val_main_v51_apply, val_main_v50_apply, val_main_v49_apply, val_main_v48_apply, val_main_call1_v0_apply,
    val_main_call1_cst_apply]
  exact congrArg
    (fun j => max ((val_main_v47 (F := Ideal) x0 x1 x2 x3) i + x4 j) (Ideal.ofBits .f32 0x00000000#32))
    (funext fun a => Fin.ext (by match a with | ⟨0, _⟩ => rfl))

theorem layer1_eq : val_main_v51 (F := Ideal) x0 x1 x2 x3 x4 = Net.layer1 x0 x1 x2 x3 x4 := by
  rw [v51_eq, v47_eq, v34_eq]
  rfl

/-! ## The second layer -/

/-- The second contraction is the first layer's output times the second weight matrix. -/
theorem v52_eq : val_main_v52 (F := Ideal) x0 x1 x2 x3 x4 x5
    = Cert.Gcn.dense (n := 100000) (k := 64) (b := 64) (val_main_v51 (F := Ideal) x0 x1 x2 x3 x4) x5 := by
  unfold val_main_v52
  exact RefDense.dot64 (val_main_v51 (F := Ideal) x0 x1 x2 x3 x4) x5

theorem v65_eq : val_main_v65 (F := Ideal) x0 x1 x2 x3 x4 x5
    = prop64 (val_main_v3 (F := Ideal) x1) (val_main_v7 (F := Ideal) x1) (val_main_v33 (F := Ideal) x1 x2)
        (val_main_v52 (F := Ideal) x0 x1 x2 x3 x4 x5) := by
  unfold val_main_v65 val_main_v64 val_main_v63 val_main_v62 val_main_v61 val_main_v60 val_main_v59 val_main_v58
    val_main_v57 val_main_v56 val_main_v55 val_main_v54 val_main_v53 val_main_cst_12 val_main_c_10 val_main_c_11
    prop64 wrapIndex
  rfl

theorem v69_eq : val_main_v69 (F := Ideal) x0 x1 x2 x3 x4 x5 x6
    = Cert.Gcn.biasRelu (n := 100000) (b := 64) (val_main_v65 (F := Ideal) x0 x1 x2 x3 x4 x5) x6 := by
  funext i
  rw [val_main_v69_apply, val_main_v68_apply, val_main_v67_apply, val_main_v66_apply, val_main_call2_v0_apply,
    val_main_call2_cst_apply]
  exact congrArg
    (fun j => max ((val_main_v65 (F := Ideal) x0 x1 x2 x3 x4 x5) i + x6 j) (Ideal.ofBits .f32 0x00000000#32))
    (funext fun a => Fin.ext (by match a with | ⟨0, _⟩ => rfl))

theorem layer2_eq : val_main_v69 (F := Ideal) x0 x1 x2 x3 x4 x5 x6 = Net.layer2 x0 x1 x2 x3 x4 x5 x6 := by
  rw [v69_eq, v65_eq, v52_eq, layer1_eq]
  rfl

/-! ## The last layer -/

/-- The third contraction is the second layer's output times the last weight matrix. -/
theorem v70_eq : val_main_v70 (F := Ideal) x0 x1 x2 x3 x4 x5 x6 x7
    = Cert.Gcn.dense (n := 100000) (k := 64) (b := 40) (val_main_v69 (F := Ideal) x0 x1 x2 x3 x4 x5 x6) x7 := by
  unfold val_main_v70
  exact RefDense.dot40 (val_main_v69 (F := Ideal) x0 x1 x2 x3 x4 x5 x6) x7

theorem v83_eq : val_main_v83 (F := Ideal) x0 x1 x2 x3 x4 x5 x6 x7
    = prop40 (val_main_v3 (F := Ideal) x1) (val_main_v7 (F := Ideal) x1) (val_main_v33 (F := Ideal) x1 x2)
        (val_main_v70 (F := Ideal) x0 x1 x2 x3 x4 x5 x6 x7) := by
  unfold val_main_v83 val_main_v82 val_main_v81 val_main_v80 val_main_v79 val_main_v78 val_main_v77 val_main_v76
    val_main_v75 val_main_v74 val_main_v73 val_main_v72 val_main_v71 val_main_cst_15 val_main_c_13 val_main_c_14
    prop40 wrapIndex
  rfl

/-- The reference's result is the network function of its nine arguments. -/
theorem net_eq : val_main_v87 (F := Ideal) x0 x1 x2 x3 x4 x5 x6 x7 x8 = Net.net x0 x1 x2 x3 x4 x5 x6 x7 x8 := by
  rw [RefLsm.out_eq, v83_eq, v70_eq, layer2_eq]
  rfl

end Cert.ReferenceIdeal.RefNet

end
-- ==== Proof.RefRunValue.lean ====
/-
  The idealized reference's run with its result named.

  @main of the reference is a straight line of 126 host operations. Every weakly fair execution terminates,
  nothing faults, and each buffer ends at the fold of the operations' results over the launch memory. Read at
  the result buffer that fold is the last stage of the program, which is the network function of the nine
  arguments; read at an argument, which no operation writes, it is the argument as launched.
-/
import proofs.«112376_j764504179050_1_alg».proof.Proof.RefRun
import proofs.«112376_j764504179050_1_alg».proof.Proof.RefValue
import proofs.«112376_j764504179050_1_alg».proof.Proof.RefNet
import proofs.«112376_j764504179050_1_alg».proof.Proof.Net
import Idealize.ShloMosaic.Lib.StableHlo.Run

noncomputable section

namespace Cert.ReferenceIdeal.RefRunValue

open Cert.ReferenceIdeal Cert.ReferenceIdeal.Gen Idealize.ShloMosaic Idealize.ShloMosaic.TcCoe Idealize.SL.Sem Idealize.ShloMosaic.StableHlo

set_option maxRecDepth 8192 in
set_option maxHeartbeats 50400000 in
/-- Every weakly fair execution of the reference's @main terminates without a fault; the result buffer ends at the
    network function of the launch arguments, and the nine arguments end as launched. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v87) = Cert.ReferenceIdeal.Net.net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c main_v87).trans ((Cert.ReferenceIdeal.RefValue.value _).trans (Cert.ReferenceIdeal.RefNet.net_eq _ _ _ _ _ _ _ _ _)),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl)⟩)
    (run_seq Cert.ReferenceIdeal.RunP.scopedRefs_eq Cert.ReferenceIdeal.RunP.scopedSems_eq defs main
      (fun _ => Cert.ReferenceIdeal.RunP.ops) Cert.ReferenceIdeal.RunP.main_eq (fun _ => Cert.ReferenceIdeal.RunP.ops_sub) m ρ)

end Cert.ReferenceIdeal.RefRunValue

end
-- ==== Proof.lean ====
/-
  The certificate's five claims, assembled.

  The three frames: the word-level kernel's and the idealized kernel's are the launch over their twelve segments
  (six stretches of host operations, six pipelined regions of twenty points each); the idealized reference's is
  its straight-line run with the result forgotten. The idealization rewrote nothing, so `preserves` is trivial.
  The value claim: at the ideal instance a change of float format is the identity, so each of the kernel's three
  dense regions computes rows times weights as the reference's dot product does; the two bias-and-relu regions and the
  bias-and-log-softmax region compute, row by row, what the reference's host operations compute on whole arrays
  (the reference folds `max` once more from −∞ in front of the row maximum, which changes nothing); and the
  edges' endpoints, their normalisation and the three propagation steps are the same host operations in both
  programs. So both results are one function, `Cert.ReferenceIdeal.Net.net`, of the nine arguments, and the
  arguments agree. No law of the extended reals beyond the sums' being sums is used, and the precondition is
  never opened.
-/
import proofs.«112376_j764504179050_1_alg».proof.Defs
import proofs.«112376_j764504179050_1_alg».proof.Proof.Gen.Kernel
import proofs.«112376_j764504179050_1_alg».proof.Proof.Gen.Kernel.Skeleton
import proofs.«112376_j764504179050_1_alg».proof.Proof.Gen.Kernel.Launch
import proofs.«112376_j764504179050_1_alg».proof.Proof.Gen.Kernel.Points
import proofs.«112376_j764504179050_1_alg».proof.Proof.Gen.Kernel.Frame
import proofs.«112376_j764504179050_1_alg».proof.Proof.Gen.KernelIdeal
import proofs.«112376_j764504179050_1_alg».proof.Proof.Gen.KernelIdeal.Skeleton
import proofs.«112376_j764504179050_1_alg».proof.Proof.Gen.KernelIdeal.Launch
import proofs.«112376_j764504179050_1_alg».proof.Proof.Gen.KernelIdeal.Points
import proofs.«112376_j764504179050_1_alg».proof.Proof.Gen.KernelIdeal.Frame
import proofs.«112376_j764504179050_1_alg».proof.Proof.Gen.ReferenceIdeal
import proofs.«112376_j764504179050_1_alg».proof.Proof.Gen.Pre_finite_inputs
import proofs.«112376_j764504179050_1_alg».proof.Proof.KernelRun
import proofs.«112376_j764504179050_1_alg».proof.Proof.KernelNorm
import proofs.«112376_j764504179050_1_alg».proof.Proof.KernelValue
import proofs.«112376_j764504179050_1_alg».proof.Proof.RefRunValue
import proofs.«112376_j764504179050_1_alg».proof.Proof.Net
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.RefRunValue.run m ρ)

theorem preserves : Cert.preserves_Kernel_KernelIdeal := trivial

/-- Both runs end with the result at the network function of the kernel's arguments: the kernel's by reading its
    last segment boundary back to the launch, the reference's by its last stage, at arguments that agree. -/
theorem algebraic : Cert.algebraic_KernelIdeal_ReferenceIdeal := by
  intro m ρ m' ρ' _ hagree
  refine ⟨fun c => Cert.ReferenceIdeal.Net.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.Value'.result_eq m ρ c (Cert.KernelIdeal.Norm.src_eq m ρ c)
        (Cert.KernelIdeal.Norm.dst_eq m ρ c) (Cert.KernelIdeal.Norm.nrm_eq m ρ c)), (h c).2⟩)
      (Cert.KernelIdeal.ValueRun.run m ρ)
  · refine (θ_run Cert.ReferenceIdeal.defs _ _).mono (fun r h c => ⟨(h c).1.trans ?_, (h c).2⟩)
      (Cert.ReferenceIdeal.RefRunValue.run m' ρ')
    rw [(hagree c).1, (hagree c).2.1, (hagree c).2.2.1, (hagree c).2.2.2.1, (hagree c).2.2.2.2.1, (hagree c).2.2.2.2.2.1,
      (hagree c).2.2.2.2.2.2.1, (hagree c).2.2.2.2.2.2.2.1, (hagree c).2.2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
